-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x720x128x128 : Shape := ⟨4, ![4, 720, 128, 128]⟩
abbrev S4x18x128x128 : Shape := ⟨4, ![4, 18, 128, 128]⟩
abbrev S80 : Shape := ⟨1, ![80]⟩
abbrev S_ : Shape := ⟨0, ![]⟩

class Facts : Prop where
  bcast_S_S4x720x128x128 : S_.BroadcastsInDim S4x720x128x128 (![] : Fin 0 → Fin S4x720x128x128.rank)
  reducesTo_S4x720x128x128_S_d0_1_2_3 : S4x720x128x128.ReducesTo [0, 1, 2, 3] S_
  h_S_ : 0 < S_.numel
  bcast_S_S4x18x128x128 : S_.BroadcastsInDim S4x18x128x128 (![] : Fin 0 → Fin S4x18x128x128.rank)
  reducesTo_S4x18x128x128_S_d0_1_2_3 : S4x18x128x128.ReducesTo [0, 1, 2, 3] S_
  bcast_S_S80 : S_.BroadcastsInDim S80 (![] : Fin 0 → Fin S80.rank)
  reducesTo_S80_S_d0 : S80.ReducesTo [0] S_

variable [Facts]

def fn {F : FTy → Type} [FloatOps F] (main_arg0 : FVec F S4x720x128x128 .f32) (main_arg1 : FVec F S4x18x128x128 .f32) (main_arg2 : FVec F S80 .f32) : IVec S_ 1 :=
  let main_v0 : FVec F S4x720x128x128 .f32 := Host.absf main_arg0
  let main_cst : FVec F S_ .f32 := constant S_ .f32 0x7F800000#32
  let main_v1 : FVec F S4x720x128x128 .f32 := broadcastInDim S4x720x128x128 ![] bcast_S_S4x720x128x128 main_cst
  let main_v2 : IVec S4x720x128x128 1 := cmpf .olt main_v0 main_v1
  let main_c : IVec S_ 1 := constantI S_ 1 1#1
  let main_v3 : IVec S_ 1 := (fun x v => Host.reduce IntOp.andi x v reducesTo_S4x720x128x128_S_d0_1_2_3 h_S_) main_v2 main_c
  let main_v4 : FVec F S4x18x128x128 .f32 := Host.absf main_arg1
  let main_cst_0 : FVec F S_ .f32 := constant S_ .f32 0x7F800000#32
  let main_v5 : FVec F S4x18x128x128 .f32 := broadcastInDim S4x18x128x128 ![] bcast_S_S4x18x128x128 main_cst_0
  let main_v6 : IVec S4x18x128x128 1 := cmpf .olt main_v4 main_v5
  let main_c_1 : IVec S_ 1 := constantI S_ 1 1#1
  let main_v7 : IVec S_ 1 := (fun x v => Host.reduce IntOp.andi x v reducesTo_S4x18x128x128_S_d0_1_2_3 h_S_) main_v6 main_c_1
  let main_v8 : IVec S_ 1 := andi main_v3 main_v7
  let main_v9 : FVec F S80 .f32 := Host.absf main_arg2
  let main_cst_2 : FVec F S_ .f32 := constant S_ .f32 0x7F800000#32
  let main_v10 : FVec F S80 .f32 := broadcastInDim S80 ![] bcast_S_S80 main_cst_2
  let main_v11 : IVec S80 1 := cmpf .olt main_v9 main_v10
  let main_c_3 : IVec S_ 1 := constantI S_ 1 1#1
  let main_v12 : IVec S_ 1 := (fun x v => Host.reduce IntOp.andi x v reducesTo_S80_S_d0 h_S_) main_v11 main_c_3
  let main_v13 : IVec S_ 1 := andi main_v8 main_v12
  main_v13
-- ==== Kernel.lean ====
abbrev S4x720x128x128 : Shape := ⟨4, ![4, 720, 128, 128]⟩
abbrev S4x18x128x128 : Shape := ⟨4, ![4, 18, 128, 128]⟩
abbrev S80 : Shape := ⟨1, ![80]⟩
abbrev S4x80x128x128 : Shape := ⟨4, ![4, 80, 128, 128]⟩
abbrev S1x80x128x128 : Shape := ⟨4, ![1, 80, 128, 128]⟩
abbrev S1x2x16x128 : Shape := ⟨4, ![1, 2, 16, 128]⟩
abbrev S1x80x16x128 : Shape := ⟨4, ![1, 80, 16, 128]⟩
abbrev S1x1x16x128 : Shape := ⟨4, ![1, 1, 16, 128]⟩
abbrev S16x128 : Shape := ⟨2, ![16, 128]⟩
abbrev S2048 : Shape := ⟨1, ![2048]⟩
abbrev S1x2048 : Shape := ⟨2, ![1, 2048]⟩
abbrev S128x2048 : Shape := ⟨2, ![128, 2048]⟩
abbrev S80x2048 : Shape := ⟨2, ![80, 2048]⟩
abbrev S1x80x8x128 : Shape := ⟨4, ![1, 80, 8, 128]⟩
abbrev S80x8x128 : Shape := ⟨3, ![80, 8, 128]⟩
abbrev S640x128 : Shape := ⟨2, ![640, 128]⟩
abbrev S640x2048 : Shape := ⟨2, ![640, 2048]⟩
abbrev S80x8x2048 : Shape := ⟨3, ![80, 8, 2048]⟩
abbrev S8x2048 : Shape := ⟨2, ![8, 2048]⟩
abbrev S80x1x2048 : Shape := ⟨3, ![80, 1, 2048]⟩
abbrev S80x1x1 : Shape := ⟨3, ![80, 1, 1]⟩
abbrev S80x16x128 : Shape := ⟨3, ![80, 16, 128]⟩

abbrev nBuf : Space → Nat
  | .hbm => 4
  | .vmem => 7
  | .smem => 0
  | _ => 0

abbrev bufTy : (tb : Table) → Fin (tcTables nBuf tb) → BufTy
  | .hbm, ⟨0, _⟩ => ⟨S4x720x128x128, .f32⟩
  | .hbm, ⟨1, _⟩ => ⟨S4x18x128x128, .f32⟩
  | .hbm, ⟨2, _⟩ => ⟨S80, .f32⟩
  | .hbm, ⟨3, _⟩ => ⟨S4x80x128x128, .f32⟩
  | .local _ .vmem, ⟨0, _⟩ => ⟨S1x80x128x128, .f32⟩
  | .local _ .vmem, ⟨1, _⟩ => ⟨S1x80x128x128, .f32⟩
  | .local _ .vmem, ⟨2, _⟩ => ⟨S1x2x16x128, .f32⟩
  | .local _ .vmem, ⟨3, _⟩ => ⟨S1x2x16x128, .f32⟩
  | .local _ .vmem, ⟨4, _⟩ => ⟨S80, .f32⟩
  | .local _ .vmem, ⟨5, _⟩ => ⟨S1x80x16x128, .f32⟩
  | .local _ .vmem, ⟨6, _⟩ => ⟨S1x80x16x128, .f32⟩
  | _, _ => ⟨S4x720x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 8, 9], ![false, false, false]⟩

@[reducible] def k0_t1_loop : Scf.Loop 32 :=
  let c0_i32 : BitVec 32 := 0#32
  let c16_i32 : BitVec 32 := 16#32
  let v38 : BitVec 32 := Scalar.addi c0_i32 c16_i32
  let c1_i32_10 : BitVec 32 := 1#32
  ⟨c0_i32, v38, c1_i32_10⟩
def k0_mult1 (k0_t1 : Fin k0_t1_loop.trips) : BitVec 32 :=
  let c0_i32 : BitVec 32 := 0#32
  let c1_i32_10 : BitVec 32 := 1#32
  let arg7 : BitVec 32 := Scf.iv c0_i32 c1_i32_10 k0_t1
  let c8_i32 : BitVec 32 := 8#32
  let v50 : BitVec 32 := Scalar.muli arg7 c8_i32
  v50
def k0_off1 (k0_t1 : Fin k0_t1_loop.trips) : Fin 4 → Nat :=
  let c0_22 : Index := 0#32
  let c0_23 : Index := 0#32
  let c0_i32 : BitVec 32 := 0#32
  let c1_i32_10 : BitVec 32 := 1#32
  let arg7 : BitVec 32 := Scf.iv c0_i32 c1_i32_10 k0_t1
  let c8_i32 : BitVec 32 := 8#32
  let v50 : BitVec 32 := Scalar.muli arg7 c8_i32
  let v51 : BitVec 32 := v50
  let v52 : Index := Scalar.indexCast v51
  let c0_24 : Index := 0#32
  ![0, 0, v52.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x80x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S80 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x80x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  inb_S1x2x16x128_S1x1x16x128_0_0_0_0 : ∀ a, (![0, 0, 0, 0] : Fin 4 → Nat) a + S1x1x16x128.size a ≤ S1x2x16x128.size a
  h_S1x1x16x128 : 0 < S1x1x16x128.numel
  shapeCasts_S1x1x16x128_S16x128 : S1x1x16x128.ShapeCasts S16x128
  inb_S1x2x16x128_S1x1x16x128_0_1_0_0 : ∀ a, (![0, 1, 0, 0] : Fin 4 → Nat) a + S1x1x16x128.size a ≤ S1x2x16x128.size a
  shapeCasts_S16x128_S2048 : S16x128.ShapeCasts S2048
  shapeCasts_S2048_S1x2048 : S2048.ShapeCasts S1x2048
  iota_S128x2048_d0_w32 : S128x2048.Iotas .tc 32 [0]
  broadcasts_S1x2048_S128x2048 : S1x2048.Broadcasts S128x2048
  shapeCasts_S1x2048_S1x2048 : S1x2048.ShapeCasts S1x2048
  bitsLt_bf16_f32 : FTy.bits .bf16 < FTy.bits .f32
  h_S1x80x8x128 : 0 < S1x80x8x128.numel
  shapeCasts_S1x80x8x128_S80x8x128 : S1x80x8x128.ShapeCasts S80x8x128
  shapeCasts_S80x8x128_S640x128 : S80x8x128.ShapeCasts S640x128
  shapeCasts_S640x2048_S80x8x2048 : S640x2048.ShapeCasts S80x8x2048
  iota_S8x2048_d0_w32 : S8x2048.Iotas .tc 32 [0]
  broadcasts_S1x2048_S8x2048 : S1x2048.Broadcasts S8x2048
  slices_S80x8x2048_o0_0_0_S80x1x2048 : S80x8x2048.Slices ![0, 0, 0] S80x1x2048
  shapeCasts_S80x1x2048_S80x2048 : S80x1x2048.ShapeCasts S80x2048
  slices_S8x2048_o0_0_S1x2048 : S8x2048.Slices ![0, 0] S1x2048
  shapeCasts_S1x2048_S2048 : S1x2048.ShapeCasts S2048
  broadcasts_S1x2048_S80x2048 : S1x2048.Broadcasts S80x2048
  slices_S80x8x2048_o0_1_0_S80x1x2048 : S80x8x2048.Slices ![0, 1, 0] S80x1x2048
  slices_S8x2048_o1_0_S1x2048 : S8x2048.Slices ![1, 0] S1x2048
  slices_S80x8x2048_o0_2_0_S80x1x2048 : S80x8x2048.Slices ![0, 2, 0] S80x1x2048
  slices_S8x2048_o2_0_S1x2048 : S8x2048.Slices ![2, 0] S1x2048
  slices_S80x8x2048_o0_3_0_S80x1x2048 : S80x8x2048.Slices ![0, 3, 0] S80x1x2048
  slices_S8x2048_o3_0_S1x2048 : S8x2048.Slices ![3, 0] S1x2048
  slices_S80x8x2048_o0_4_0_S80x1x2048 : S80x8x2048.Slices ![0, 4, 0] S80x1x2048
  slices_S8x2048_o4_0_S1x2048 : S8x2048.Slices ![4, 0] S1x2048
  slices_S80x8x2048_o0_5_0_S80x1x2048 : S80x8x2048.Slices ![0, 5, 0] S80x1x2048
  slices_S8x2048_o5_0_S1x2048 : S8x2048.Slices ![5, 0] S1x2048
  slices_S80x8x2048_o0_6_0_S80x1x2048 : S80x8x2048.Slices ![0, 6, 0] S80x1x2048
  slices_S8x2048_o6_0_S1x2048 : S8x2048.Slices ![6, 0] S1x2048
  slices_S80x8x2048_o0_7_0_S80x1x2048 : S80x8x2048.Slices ![0, 7, 0] S80x1x2048
  slices_S8x2048_o7_0_S1x2048 : S8x2048.Slices ![7, 0] S1x2048
  inb_S80_S80_0 : ∀ a, (![0] : Fin 1 → Nat) a + S80.size a ≤ S80.size a
  h_S80 : 0 < S80.numel
  shapeCasts_S80_S80x1x1 : S80.ShapeCasts S80x1x1
  shapeCasts_S80x1x1_S80x1x1 : S80x1x1.ShapeCasts S80x1x1
  broadcasts_S80x1x1_S80x16x128 : S80x1x1.Broadcasts S80x16x128
  inb_S1x80x16x128_S1x80x16x128_0_0_0_0 : ∀ a, (![0, 0, 0, 0] : Fin 4 → Nat) a + S1x80x16x128.size a ≤ S1x80x16x128.size a
  h_S1x80x16x128 : 0 < S1x80x16x128.numel
  shapeCasts_S1x80x16x128_S80x16x128 : S1x80x16x128.ShapeCasts S80x16x128
  shapeCasts_S80x16x128_S1x80x16x128 : S80x16x128.ShapeCasts S1x80x16x128
  shapeCasts_S80x2048_S80x16x128 : S80x2048.ShapeCasts S80x16x128
  dot_S640x128_S128x2048_S640x2048_1_0_0_1_n_n_wf : DotDims.WF S640x128 S128x2048 S640x2048 [1] [0] [0] [1] [] []
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x80x8x128.size a ≤ S1x80x128x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x80x128x128.size a ≤ S4x720x128x128.size a
  hwx0_0 : ∀ i : grid0.Coords, EltTy.bits .f32 = 32 ∨ (Rect.block (s := S4x720x128x128) S1x80x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x16x128.size a ≤ S4x18x128x128.size a
  hwx0_1 : ∀ i : grid0.Coords, EltTy.bits .f32 = 32 ∨ (Rect.block (s := S4x18x128x128) S1x2x16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S80.size a ≤ S80.size a
  hwx0_2 : ∀ i : grid0.Coords, EltTy.bits .f32 = 32 ∨ (Rect.block (s := S80) S80.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x80x16x128.size a ≤ S4x80x128x128.size a
  hwx0_3 : ∀ i : grid0.Coords, EltTy.bits .f32 = 32 ∨ (Rect.block (s := S4x80x128x128) S1x80x16x128.size (cc0_transform_3 i) (hinb0_3 i)).WholeWords (EltTy.packing .f32)

variable [Facts₀]

def dot_S640x128_S128x2048_S640x2048_1_0_0_1_n_n : DotDims S640x128 S128x2048 S640x2048 where
  lhsContracting := [1]
  rhsContracting := [0]
  lhsNonContracting := [0]
  rhsNonContracting := [1]
  lhsBatch := []
  rhsBatch := []
  wf := dot_S640x128_S128x2048_S640x2048_1_0_0_1_n_n_wf

abbrev win0_0 : Pipeline.Window sig grid0 :=
  Pipeline.Window.ofSpec (Memref.whole main_arg0) S1x80x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S80.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x80x16x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x720x128x128 : Shape := ⟨4, ![4, 720, 128, 128]⟩
abbrev S4x18x128x128 : Shape := ⟨4, ![4, 18, 128, 128]⟩
abbrev S80 : Shape := ⟨1, ![80]⟩
abbrev S4x9x80x16384 : Shape := ⟨4, ![4, 9, 80, 16384]⟩
abbrev S4x9x2x128x128 : Shape := ⟨5, ![4, 9, 2, 128, 128]⟩
abbrev S4x9x1x128x128 : Shape := ⟨5, ![4, 9, 1, 128, 128]⟩
abbrev S4x9x128x128 : Shape := ⟨4, ![4, 9, 128, 128]⟩
abbrev S_ : Shape := ⟨0, ![]⟩
abbrev S4x9x1x16384 : Shape := ⟨4, ![4, 9, 1, 16384]⟩
abbrev S4x9x80x16384x1 : Shape := ⟨5, ![4, 9, 80, 16384, 1]⟩
abbrev S1 : Shape := ⟨1, ![1]⟩
abbrev S1x1x1x1x1 : Shape := ⟨5, ![1, 1, 1, 1, 1]⟩
abbrev S4x80x16384 : Shape := ⟨3, ![4, 80, 16384]⟩
abbrev S4x80x128x128 : Shape := ⟨4, ![4, 80, 128, 128]⟩
abbrev S1x80x1x1 : Shape := ⟨4, ![1, 80, 1, 1]⟩

abbrev nBuf : Space → Nat
  | .hbm => 323
  | .vmem => 0
  | .smem => 0
  | _ => 0

abbrev hbmTy0_0 (i : Nat) : BufTy := match i % 128 with
  | 0 => ⟨S4x720x128x128, .f32⟩
  | 1 => ⟨S4x18x128x128, .f32⟩
  | 2 => ⟨S80, .f32⟩
  | 3 => ⟨S4x9x80x16384, .f32⟩
  | 4 => ⟨S4x9x2x128x128, .f32⟩
  | 5 => ⟨S4x9x1x128x128, .f32⟩
  | 6 => ⟨S4x9x128x128, .f32⟩
  | 7 => ⟨S4x9x1x128x128, .f32⟩
  | 8 => ⟨S4x9x128x128, .f32⟩
  | 9 => ⟨S4x9x128x128, .f32⟩
  | 10 => ⟨S4x9x128x128, .f32⟩
  | 11 => ⟨S4x9x128x128, .f32⟩
  | 12 => ⟨S4x9x128x128, .f32⟩
  | 13 => ⟨S4x9x128x128, .i32⟩
  | 14 => ⟨S4x9x128x128, .i32⟩
  | 15 => ⟨S_, .f32⟩
  | 16 => ⟨S4x9x80x16384, .f32⟩
  | 17 => ⟨S_, .f32⟩
  | 18 => ⟨S4x9x128x128, .f32⟩
  | 19 => ⟨S4x9x128x128, .f32⟩
  | 20 => ⟨S_, .f32⟩
  | 21 => ⟨S4x9x128x128, .f32⟩
  | 22 => ⟨S4x9x128x128, .f32⟩
  | 23 => ⟨S4x9x128x128, .f32⟩
  | 24 => ⟨S_, .f32⟩
  | 25 => ⟨S4x9x128x128, .f32⟩
  | 26 => ⟨S4x9x128x128, .f32⟩
  | 27 => ⟨S4x9x128x128, .f32⟩
  | 28 => ⟨S_, .f32⟩
  | 29 => ⟨S4x9x128x128, .f32⟩
  | 30 => ⟨S4x9x128x128, .f32⟩
  | 31 => ⟨S4x9x128x128, .f32⟩
  | 32 => ⟨S4x9x128x128, .f32⟩
  | 33 => ⟨S_, .i32⟩
  | 34 => ⟨S4x9x128x128, .i32⟩
  | 35 => ⟨S4x9x128x128, .i32⟩
  | 36 => ⟨S_, .i32⟩
  | 37 => ⟨S4x9x128x128, .i32⟩
  | 38 => ⟨S4x9x128x128, .i32⟩
  | 39 => ⟨S_, .i32⟩
  | 40 => ⟨S4x9x128x128, .i32⟩
  | 41 => ⟨S4x9x128x128, .i1⟩
  | 42 => ⟨S_, .i32⟩
  | 43 => ⟨S4x9x128x128, .i32⟩
  | 44 => ⟨S4x9x128x128, .i1⟩
  | 45 => ⟨S4x9x128x128, .i1⟩
  | 46 => ⟨S_, .i32⟩
  | 47 => ⟨S4x9x128x128, .i32⟩
  | 48 => ⟨S4x9x128x128, .i1⟩
  | 49 => ⟨S4x9x128x128, .i1⟩
  | 50 => ⟨S_, .i32⟩
  | 51 => ⟨S4x9x128x128, .i32⟩
  | 52 => ⟨S4x9x128x128, .i1⟩
  | 53 => ⟨S4x9x128x128, .i1⟩
  | 54 => ⟨S_, .i32⟩
  | 55 => ⟨S_, .i32⟩
  | 56 => ⟨S_, .i32⟩
  | 57 => ⟨S4x9x128x128, .i32⟩
  | 58 => ⟨S4x9x128x128, .i32⟩
  | 59 => ⟨S_, .i32⟩
  | 60 => ⟨S4x9x128x128, .i32⟩
  | 61 => ⟨S4x9x128x128, .i32⟩
  | 62 => ⟨S_, .i32⟩
  | 63 => ⟨S4x9x128x128, .i32⟩
  | 64 => ⟨S4x9x128x128, .i32⟩
  | 65 => ⟨S_, .i32⟩
  | 66 => ⟨S_, .i32⟩
  | 67 => ⟨S_, .i32⟩
  | 68 => ⟨S4x9x128x128, .i32⟩
  | 69 => ⟨S4x9x128x128, .i32⟩
  | 70 => ⟨S_, .i32⟩
  | 71 => ⟨S4x9x128x128, .i32⟩
  | 72 => ⟨S4x9x128x128, .i32⟩
  | 73 => ⟨S4x9x128x128, .i32⟩
  | 74 => ⟨S4x9x1x16384, .i32⟩
  | 75 => ⟨S4x9x80x16384, .i32⟩
  | 76 => ⟨S_, .i32⟩
  | 77 => ⟨S4x9x80x16384, .i32⟩
  | 78 => ⟨S4x9x80x16384, .i1⟩
  | 79 => ⟨S_, .i32⟩
  | 80 => ⟨S4x9x80x16384, .i32⟩
  | 81 => ⟨S4x9x80x16384, .i32⟩
  | 82 => ⟨S4x9x80x16384, .i32⟩
  | 83 => ⟨S4x9x80x16384x1, .i32⟩
  | 84 => ⟨S1, .i32⟩
  | 85 => ⟨S_, .i32⟩
  | 86 => ⟨S4x9x80x16384x1, .i32⟩
  | 87 => ⟨S4x9x80x16384x1, .i1⟩
  | 88 => ⟨S1x1x1x1x1, .i32⟩
  | 89 => ⟨S4x9x80x16384x1, .i32⟩
  | 90 => ⟨S4x9x80x16384x1, .i1⟩
  | 91 => ⟨S4x9x80x16384x1, .i1⟩
  | 92 => ⟨S_, .i1⟩
  | 93 => ⟨S4x9x80x16384, .i1⟩
  | 94 => ⟨S4x9x80x16384, .f32⟩
  | 95 => ⟨S_, .f32⟩
  | 96 => ⟨S4x9x80x16384, .f32⟩
  | 97 => ⟨S4x9x80x16384, .f32⟩
  | 98 => ⟨S4x9x128x128, .f32⟩
  | 99 => ⟨S4x9x128x128, .f32⟩
  | 100 => ⟨S4x9x1x16384, .f32⟩
  | 101 => ⟨S4x9x80x16384, .f32⟩
  | 102 => ⟨S4x9x80x16384, .f32⟩
  | 103 => ⟨S4x9x80x16384, .f32⟩
  | 104 => ⟨S_, .i32⟩
  | 105 => ⟨S4x9x128x128, .i32⟩
  | 106 => ⟨S4x9x128x128, .i32⟩
  | 107 => ⟨S_, .i32⟩
  | 108 => ⟨S4x9x128x128, .i32⟩
  | 109 => ⟨S4x9x128x128, .i32⟩
  | 110 => ⟨S_, .i32⟩
  | 111 => ⟨S4x9x128x128, .i32⟩
  | 112 => ⟨S4x9x128x128, .i1⟩
  | 113 => ⟨S_, .i32⟩
  | 114 => ⟨S4x9x128x128, .i32⟩
  | 115 => ⟨S4x9x128x128, .i1⟩
  | 116 => ⟨S4x9x128x128, .i1⟩
  | 117 => ⟨S_, .i32⟩
  | 118 => ⟨S4x9x128x128, .i32⟩
  | 119 => ⟨S4x9x128x128, .i1⟩
  | 120 => ⟨S4x9x128x128, .i1⟩
  | 121 => ⟨S_, .i32⟩
  | 122 => ⟨S4x9x128x128, .i32⟩
  | 123 => ⟨S4x9x128x128, .i1⟩
  | 124 => ⟨S4x9x128x128, .i1⟩
  | 125 => ⟨S_, .i32⟩
  | 126 => ⟨S_, .i32⟩
  | 127 => ⟨S_, .i32⟩
  | _ => ⟨S4x720x128x128, .f32⟩

abbrev hbmTy0_1 (i : Nat) : BufTy := match i % 128 with
  | 0 => ⟨S4x9x128x128, .i32⟩
  | 1 => ⟨S4x9x128x128, .i32⟩
  | 2 => ⟨S_, .i32⟩
  | 3 => ⟨S4x9x128x128, .i32⟩
  | 4 => ⟨S4x9x128x128, .i32⟩
  | 5 => ⟨S_, .i32⟩
  | 6 => ⟨S4x9x128x128, .i32⟩
  | 7 => ⟨S4x9x128x128, .i32⟩
  | 8 => ⟨S_, .i32⟩
  | 9 => ⟨S_, .i32⟩
  | 10 => ⟨S_, .i32⟩
  | 11 => ⟨S4x9x128x128, .i32⟩
  | 12 => ⟨S4x9x128x128, .i32⟩
  | 13 => ⟨S_, .i32⟩
  | 14 => ⟨S4x9x128x128, .i32⟩
  | 15 => ⟨S4x9x128x128, .i32⟩
  | 16 => ⟨S4x9x128x128, .i32⟩
  | 17 => ⟨S4x9x1x16384, .i32⟩
  | 18 => ⟨S4x9x80x16384, .i32⟩
  | 19 => ⟨S_, .i32⟩
  | 20 => ⟨S4x9x80x16384, .i32⟩
  | 21 => ⟨S4x9x80x16384, .i1⟩
  | 22 => ⟨S_, .i32⟩
  | 23 => ⟨S4x9x80x16384, .i32⟩
  | 24 => ⟨S4x9x80x16384, .i32⟩
  | 25 => ⟨S4x9x80x16384, .i32⟩
  | 26 => ⟨S4x9x80x16384x1, .i32⟩
  | 27 => ⟨S1, .i32⟩
  | 28 => ⟨S_, .i32⟩
  | 29 => ⟨S4x9x80x16384x1, .i32⟩
  | 30 => ⟨S4x9x80x16384x1, .i1⟩
  | 31 => ⟨S1x1x1x1x1, .i32⟩
  | 32 => ⟨S4x9x80x16384x1, .i32⟩
  | 33 => ⟨S4x9x80x16384x1, .i1⟩
  | 34 => ⟨S4x9x80x16384x1, .i1⟩
  | 35 => ⟨S_, .i1⟩
  | 36 => ⟨S4x9x80x16384, .i1⟩
  | 37 => ⟨S4x9x80x16384, .f32⟩
  | 38 => ⟨S_, .f32⟩
  | 39 => ⟨S4x9x80x16384, .f32⟩
  | 40 => ⟨S4x9x80x16384, .f32⟩
  | 41 => ⟨S4x9x128x128, .f32⟩
  | 42 => ⟨S4x9x128x128, .f32⟩
  | 43 => ⟨S4x9x1x16384, .f32⟩
  | 44 => ⟨S4x9x80x16384, .f32⟩
  | 45 => ⟨S4x9x80x16384, .f32⟩
  | 46 => ⟨S4x9x80x16384, .f32⟩
  | 47 => ⟨S_, .i32⟩
  | 48 => ⟨S4x9x128x128, .i32⟩
  | 49 => ⟨S4x9x128x128, .i32⟩
  | 50 => ⟨S_, .i32⟩
  | 51 => ⟨S4x9x128x128, .i32⟩
  | 52 => ⟨S4x9x128x128, .i32⟩
  | 53 => ⟨S_, .i32⟩
  | 54 => ⟨S4x9x128x128, .i32⟩
  | 55 => ⟨S4x9x128x128, .i1⟩
  | 56 => ⟨S_, .i32⟩
  | 57 => ⟨S4x9x128x128, .i32⟩
  | 58 => ⟨S4x9x128x128, .i1⟩
  | 59 => ⟨S4x9x128x128, .i1⟩
  | 60 => ⟨S_, .i32⟩
  | 61 => ⟨S4x9x128x128, .i32⟩
  | 62 => ⟨S4x9x128x128, .i1⟩
  | 63 => ⟨S4x9x128x128, .i1⟩
  | 64 => ⟨S_, .i32⟩
  | 65 => ⟨S4x9x128x128, .i32⟩
  | 66 => ⟨S4x9x128x128, .i1⟩
  | 67 => ⟨S4x9x128x128, .i1⟩
  | 68 => ⟨S_, .i32⟩
  | 69 => ⟨S_, .i32⟩
  | 70 => ⟨S_, .i32⟩
  | 71 => ⟨S4x9x128x128, .i32⟩
  | 72 => ⟨S4x9x128x128, .i32⟩
  | 73 => ⟨S_, .i32⟩
  | 74 => ⟨S4x9x128x128, .i32⟩
  | 75 => ⟨S4x9x128x128, .i32⟩
  | 76 => ⟨S_, .i32⟩
  | 77 => ⟨S4x9x128x128, .i32⟩
  | 78 => ⟨S4x9x128x128, .i32⟩
  | 79 => ⟨S_, .i32⟩
  | 80 => ⟨S_, .i32⟩
  | 81 => ⟨S_, .i32⟩
  | 82 => ⟨S4x9x128x128, .i32⟩
  | 83 => ⟨S4x9x128x128, .i32⟩
  | 84 => ⟨S_, .i32⟩
  | 85 => ⟨S4x9x128x128, .i32⟩
  | 86 => ⟨S4x9x128x128, .i32⟩
  | 87 => ⟨S4x9x128x128, .i32⟩
  | 88 => ⟨S4x9x1x16384, .i32⟩
  | 89 => ⟨S4x9x80x16384, .i32⟩
  | 90 => ⟨S_, .i32⟩
  | 91 => ⟨S4x9x80x16384, .i32⟩
  | 92 => ⟨S4x9x80x16384, .i1⟩
  | 93 => ⟨S_, .i32⟩
  | 94 => ⟨S4x9x80x16384, .i32⟩
  | 95 => ⟨S4x9x80x16384, .i32⟩
  | 96 => ⟨S4x9x80x16384, .i32⟩
  | 97 => ⟨S4x9x80x16384x1, .i32⟩
  | 98 => ⟨S1, .i32⟩
  | 99 => ⟨S_, .i32⟩
  | 100 => ⟨S4x9x80x16384x1, .i32⟩
  | 101 => ⟨S4x9x80x16384x1, .i1⟩
  | 102 => ⟨S1x1x1x1x1, .i32⟩
  | 103 => ⟨S4x9x80x16384x1, .i32⟩
  | 104 => ⟨S4x9x80x16384x1, .i1⟩
  | 105 => ⟨S4x9x80x16384x1, .i1⟩
  | 106 => ⟨S_, .i1⟩
  | 107 => ⟨S4x9x80x16384, .i1⟩
  | 108 => ⟨S4x9x80x16384, .f32⟩
  | 109 => ⟨S_, .f32⟩
  | 110 => ⟨S4x9x80x16384, .f32⟩
  | 111 => ⟨S4x9x80x16384, .f32⟩
  | 112 => ⟨S4x9x128x128, .f32⟩
  | 113 => ⟨S4x9x128x128, .f32⟩
  | 114 => ⟨S4x9x1x16384, .f32⟩
  | 115 => ⟨S4x9x80x16384, .f32⟩
  | 116 => ⟨S4x9x80x16384, .f32⟩
  | 117 => ⟨S4x9x80x16384, .f32⟩
  | 118 => ⟨S_, .i32⟩
  | 119 => ⟨S4x9x128x128, .i32⟩
  | 120 => ⟨S4x9x128x128, .i32⟩
  | 121 => ⟨S_, .i32⟩
  | 122 => ⟨S4x9x128x128, .i32⟩
  | 123 => ⟨S4x9x128x128, .i32⟩
  | 124 => ⟨S_, .i32⟩
  | 125 => ⟨S4x9x128x128, .i32⟩
  | 126 => ⟨S4x9x128x128, .i1⟩
  | 127 => ⟨S_, .i32⟩
  | _ => ⟨S4x720x128x128, .f32⟩

abbrev hbmTy0_2 (i : Nat) : BufTy := match i % 128 with
  | 0 => ⟨S4x9x128x128, .i32⟩
  | 1 => ⟨S4x9x128x128, .i1⟩
  | 2 => ⟨S4x9x128x128, .i1⟩
  | 3 => ⟨S_, .i32⟩
  | 4 => ⟨S4x9x128x128, .i32⟩
  | 5 => ⟨S4x9x128x128, .i1⟩
  | 6 => ⟨S4x9x128x128, .i1⟩
  | 7 => ⟨S_, .i32⟩
  | 8 => ⟨S4x9x128x128, .i32⟩
  | 9 => ⟨S4x9x128x128, .i1⟩
  | 10 => ⟨S4x9x128x128, .i1⟩
  | 11 => ⟨S_, .i32⟩
  | 12 => ⟨S_, .i32⟩
  | 13 => ⟨S_, .i32⟩
  | 14 => ⟨S4x9x128x128, .i32⟩
  | 15 => ⟨S4x9x128x128, .i32⟩
  | 16 => ⟨S_, .i32⟩
  | 17 => ⟨S4x9x128x128, .i32⟩
  | 18 => ⟨S4x9x128x128, .i32⟩
  | 19 => ⟨S_, .i32⟩
  | 20 => ⟨S4x9x128x128, .i32⟩
  | 21 => ⟨S4x9x128x128, .i32⟩
  | 22 => ⟨S_, .i32⟩
  | 23 => ⟨S_, .i32⟩
  | 24 => ⟨S_, .i32⟩
  | 25 => ⟨S4x9x128x128, .i32⟩
  | 26 => ⟨S4x9x128x128, .i32⟩
  | 27 => ⟨S_, .i32⟩
  | 28 => ⟨S4x9x128x128, .i32⟩
  | 29 => ⟨S4x9x128x128, .i32⟩
  | 30 => ⟨S4x9x128x128, .i32⟩
  | 31 => ⟨S4x9x1x16384, .i32⟩
  | 32 => ⟨S4x9x80x16384, .i32⟩
  | 33 => ⟨S_, .i32⟩
  | 34 => ⟨S4x9x80x16384, .i32⟩
  | 35 => ⟨S4x9x80x16384, .i1⟩
  | 36 => ⟨S_, .i32⟩
  | 37 => ⟨S4x9x80x16384, .i32⟩
  | 38 => ⟨S4x9x80x16384, .i32⟩
  | 39 => ⟨S4x9x80x16384, .i32⟩
  | 40 => ⟨S4x9x80x16384x1, .i32⟩
  | 41 => ⟨S1, .i32⟩
  | 42 => ⟨S_, .i32⟩
  | 43 => ⟨S4x9x80x16384x1, .i32⟩
  | 44 => ⟨S4x9x80x16384x1, .i1⟩
  | 45 => ⟨S1x1x1x1x1, .i32⟩
  | 46 => ⟨S4x9x80x16384x1, .i32⟩
  | 47 => ⟨S4x9x80x16384x1, .i1⟩
  | 48 => ⟨S4x9x80x16384x1, .i1⟩
  | 49 => ⟨S_, .i1⟩
  | 50 => ⟨S4x9x80x16384, .i1⟩
  | 51 => ⟨S4x9x80x16384, .f32⟩
  | 52 => ⟨S_, .f32⟩
  | 53 => ⟨S4x9x80x16384, .f32⟩
  | 54 => ⟨S4x9x80x16384, .f32⟩
  | 55 => ⟨S4x9x128x128, .f32⟩
  | 56 => ⟨S4x9x128x128, .f32⟩
  | 57 => ⟨S4x9x1x16384, .f32⟩
  | 58 => ⟨S4x9x80x16384, .f32⟩
  | 59 => ⟨S4x9x80x16384, .f32⟩
  | 60 => ⟨S4x9x80x16384, .f32⟩
  | 61 => ⟨S_, .f32⟩
  | 62 => ⟨S4x80x16384, .f32⟩
  | 63 => ⟨S4x80x128x128, .f32⟩
  | 64 => ⟨S1x80x1x1, .f32⟩
  | 65 => ⟨S4x80x128x128, .f32⟩
  | 66 => ⟨S4x80x128x128, .f32⟩
  | _ => ⟨S4x720x128x128, .f32⟩

abbrev hbmTy (i : Nat) : BufTy := match i / 128 with
  | 0 => hbmTy0_0 i
  | 1 => hbmTy0_1 i
  | 2 => hbmTy0_2 i
  | _ => ⟨S4x720x128x128, .f32⟩

abbrev bufTy : (tb : Table) → Fin (tcTables nBuf tb) → BufTy
  | .hbm, ⟨i, _⟩ => hbmTy i
  | _, _ => ⟨S4x720x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_9 : Ref sig .tc := ⟨.hbm, 54, rfl⟩
abbrev main_c_10 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_c_12 : Ref sig .tc := ⟨.hbm, 65, rfl⟩
abbrev main_c_13 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_cst : Ref sig .tc := ⟨.hbm, 95, rfl⟩
abbrev main_call2_v14 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_c_14 : Ref sig .tc := ⟨.hbm, 104, rfl⟩
abbrev main_v54 : Ref sig .tc := ⟨.hbm, 105, rfl⟩
abbrev main_v55 : Ref sig .tc := ⟨.hbm, 106, rfl⟩
abbrev main_c_15 : Ref sig .tc := ⟨.hbm, 107, rfl⟩
abbrev main_v56 : Ref sig .tc := ⟨.hbm, 108, rfl⟩
abbrev main_v57 : Ref sig .tc := ⟨.hbm, 109, rfl⟩
abbrev main_c_16 : Ref sig .tc := ⟨.hbm, 110, rfl⟩
abbrev main_v58 : Ref sig .tc := ⟨.hbm, 111, rfl⟩
abbrev main_v59 : Ref sig .tc := ⟨.hbm, 112, rfl⟩
abbrev main_c_17 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_c_18 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_c_19 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_c_20 : Ref sig .tc := ⟨.hbm, 125, rfl⟩
abbrev main_c_21 : Ref sig .tc := ⟨.hbm, 126, rfl⟩
abbrev main_call3_v0 : Ref sig .tc := ⟨.hbm, 127, rfl⟩
abbrev main_call3_v1 : Ref sig .tc := ⟨.hbm, 128, rfl⟩
abbrev main_call3_v2 : Ref sig .tc := ⟨.hbm, 129, rfl⟩
abbrev main_call3_v3 : Ref sig .tc := ⟨.hbm, 130, rfl⟩
abbrev main_call3_v4 : Ref sig .tc := ⟨.hbm, 131, rfl⟩
abbrev main_v69 : Ref sig .tc := ⟨.hbm, 132, rfl⟩
abbrev main_c_22 : Ref sig .tc := ⟨.hbm, 133, rfl⟩
abbrev main_v70 : Ref sig .tc := ⟨.hbm, 134, rfl⟩
abbrev main_v71 : Ref sig .tc := ⟨.hbm, 135, rfl⟩
abbrev main_c_23 : Ref sig .tc := ⟨.hbm, 136, rfl⟩
abbrev main_c_24 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_call4_v3 : Ref sig .tc := ⟨.hbm, 141, rfl⟩
abbrev main_call4_v4 : Ref sig .tc := ⟨.hbm, 142, rfl⟩
abbrev main_v72 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_call5_c : Ref sig .tc := ⟨.hbm, 147, rfl⟩
abbrev main_call5_v0 : Ref sig .tc := ⟨.hbm, 148, rfl⟩
abbrev main_call5_v1 : Ref sig .tc := ⟨.hbm, 149, rfl⟩
abbrev main_call5_c_0 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_c_1 : Ref sig .tc := ⟨.hbm, 155, rfl⟩
abbrev main_call5_c_2 : Ref sig .tc := ⟨.hbm, 156, rfl⟩
abbrev main_call5_v6 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_c_3 : Ref sig .tc := ⟨.hbm, 163, rfl⟩
abbrev main_call5_v12 : Ref sig .tc := ⟨.hbm, 164, rfl⟩
abbrev main_call5_v13 : Ref sig .tc := ⟨.hbm, 165, rfl⟩
abbrev main_call5_cst : Ref sig .tc := ⟨.hbm, 166, rfl⟩
abbrev main_call5_v14 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_c_25 : Ref sig .tc := ⟨.hbm, 175, rfl⟩
abbrev main_v83 : Ref sig .tc := ⟨.hbm, 176, rfl⟩
abbrev main_v84 : Ref sig .tc := ⟨.hbm, 177, rfl⟩
abbrev main_c_26 : Ref sig .tc := ⟨.hbm, 178, rfl⟩
abbrev main_v85 : Ref sig .tc := ⟨.hbm, 179, rfl⟩
abbrev main_v86 : Ref sig .tc := ⟨.hbm, 180, rfl⟩
abbrev main_c_27 : Ref sig .tc := ⟨.hbm, 181, rfl⟩
abbrev main_v87 : Ref sig .tc := ⟨.hbm, 182, rfl⟩
abbrev main_v88 : Ref sig .tc := ⟨.hbm, 183, rfl⟩
abbrev main_c_28 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_c_29 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_c_30 : Ref sig .tc := ⟨.hbm, 192, rfl⟩
abbrev main_v95 : Ref sig .tc := ⟨.hbm, 193, rfl⟩
abbrev main_v96 : Ref sig .tc := ⟨.hbm, 194, rfl⟩
abbrev main_v97 : Ref sig .tc := ⟨.hbm, 195, rfl⟩
abbrev main_c_31 : Ref sig .tc := ⟨.hbm, 196, rfl⟩
abbrev main_c_32 : Ref sig .tc := ⟨.hbm, 197, rfl⟩
abbrev main_call6_v0 : Ref sig .tc := ⟨.hbm, 198, rfl⟩
abbrev main_call6_v1 : Ref sig .tc := ⟨.hbm, 199, rfl⟩
abbrev main_call6_v2 : Ref sig .tc := ⟨.hbm, 200, rfl⟩
abbrev main_call6_v3 : Ref sig .tc := ⟨.hbm, 201, rfl⟩
abbrev main_call6_v4 : Ref sig .tc := ⟨.hbm, 202, rfl⟩
abbrev main_v98 : Ref sig .tc := ⟨.hbm, 203, rfl⟩
abbrev main_c_33 : Ref sig .tc := ⟨.hbm, 204, rfl⟩
abbrev main_v99 : Ref sig .tc := ⟨.hbm, 205, rfl⟩
abbrev main_v100 : Ref sig .tc := ⟨.hbm, 206, rfl⟩
abbrev main_c_34 : Ref sig .tc := ⟨.hbm, 207, rfl⟩
abbrev main_c_35 : Ref sig .tc := ⟨.hbm, 208, rfl⟩
abbrev main_call7_v0 : Ref sig .tc := ⟨.hbm, 209, rfl⟩
abbrev main_call7_v1 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_v104 : Ref sig .tc := ⟨.hbm, 217, rfl⟩
abbrev main_call8_c : Ref sig .tc := ⟨.hbm, 218, rfl⟩
abbrev main_call8_v0 : Ref sig .tc := ⟨.hbm, 219, rfl⟩
abbrev main_call8_v1 : Ref sig .tc := ⟨.hbm, 220, rfl⟩
abbrev main_call8_c_0 : Ref sig .tc := ⟨.hbm, 221, rfl⟩
abbrev main_call8_v2 : Ref sig .tc := ⟨.hbm, 222, rfl⟩
abbrev main_call8_v3 : Ref sig .tc := ⟨.hbm, 223, rfl⟩
abbrev main_call8_v4 : Ref sig .tc := ⟨.hbm, 224, rfl⟩
abbrev main_call8_v5 : Ref sig .tc := ⟨.hbm, 225, rfl⟩
abbrev main_call8_c_1 : Ref sig .tc := ⟨.hbm, 226, rfl⟩
abbrev main_call8_c_2 : Ref sig .tc := ⟨.hbm, 227, rfl⟩
abbrev main_call8_v6 : Ref sig .tc := ⟨.hbm, 228, rfl⟩
abbrev main_call8_v7 : Ref sig .tc := ⟨.hbm, 229, rfl⟩
abbrev main_call8_v8 : Ref sig .tc := ⟨.hbm, 230, rfl⟩
abbrev main_call8_v9 : Ref sig .tc := ⟨.hbm, 231, rfl⟩
abbrev main_call8_v10 : Ref sig .tc := ⟨.hbm, 232, rfl⟩
abbrev main_call8_v11 : Ref sig .tc := ⟨.hbm, 233, rfl⟩
abbrev main_call8_c_3 : Ref sig .tc := ⟨.hbm, 234, rfl⟩
abbrev main_call8_v12 : Ref sig .tc := ⟨.hbm, 235, rfl⟩
abbrev main_call8_v13 : Ref sig .tc := ⟨.hbm, 236, rfl⟩
abbrev main_call8_cst : Ref sig .tc := ⟨.hbm, 237, rfl⟩
abbrev main_call8_v14 : Ref sig .tc := ⟨.hbm, 238, rfl⟩
abbrev main_v105 : Ref sig .tc := ⟨.hbm, 239, rfl⟩
abbrev main_v106 : Ref sig .tc := ⟨.hbm, 240, rfl⟩
abbrev main_v107 : Ref sig .tc := ⟨.hbm, 241, rfl⟩
abbrev main_v108 : Ref sig .tc := ⟨.hbm, 242, rfl⟩
abbrev main_v109 : Ref sig .tc := ⟨.hbm, 243, rfl⟩
abbrev main_v110 : Ref sig .tc := ⟨.hbm, 244, rfl⟩
abbrev main_v111 : Ref sig .tc := ⟨.hbm, 245, rfl⟩
abbrev main_c_36 : Ref sig .tc := ⟨.hbm, 246, rfl⟩
abbrev main_v112 : Ref sig .tc := ⟨.hbm, 247, rfl⟩
abbrev main_v113 : Ref sig .tc := ⟨.hbm, 248, rfl⟩
abbrev main_c_37 : Ref sig .tc := ⟨.hbm, 249, rfl⟩
abbrev main_v114 : Ref sig .tc := ⟨.hbm, 250, rfl⟩
abbrev main_v115 : Ref sig .tc := ⟨.hbm, 251, rfl⟩
abbrev main_c_38 : Ref sig .tc := ⟨.hbm, 252, rfl⟩
abbrev main_v116 : Ref sig .tc := ⟨.hbm, 253, rfl⟩
abbrev main_v117 : Ref sig .tc := ⟨.hbm, 254, rfl⟩
abbrev main_c_39 : Ref sig .tc := ⟨.hbm, 255, rfl⟩
abbrev main_v118 : Ref sig .tc := ⟨.hbm, 256, rfl⟩
abbrev main_v119 : Ref sig .tc := ⟨.hbm, 257, rfl⟩
abbrev main_v120 : Ref sig .tc := ⟨.hbm, 258, rfl⟩
abbrev main_c_40 : Ref sig .tc := ⟨.hbm, 259, rfl⟩
abbrev main_v121 : Ref sig .tc := ⟨.hbm, 260, rfl⟩
abbrev main_v122 : Ref sig .tc := ⟨.hbm, 261, rfl⟩
abbrev main_v123 : Ref sig .tc := ⟨.hbm, 262, rfl⟩
abbrev main_c_41 : Ref sig .tc := ⟨.hbm, 263, rfl⟩
abbrev main_v124 : Ref sig .tc := ⟨.hbm, 264, rfl⟩
abbrev main_v125 : Ref sig .tc := ⟨.hbm, 265, rfl⟩
abbrev main_v126 : Ref sig .tc := ⟨.hbm, 266, rfl⟩
abbrev main_c_42 : Ref sig .tc := ⟨.hbm, 267, rfl⟩
abbrev main_c_43 : Ref sig .tc := ⟨.hbm, 268, rfl⟩
abbrev main_call9_v0 : Ref sig .tc := ⟨.hbm, 269, rfl⟩
abbrev main_call9_v1 : Ref sig .tc := ⟨.hbm, 270, rfl⟩
abbrev main_call9_v2 : Ref sig .tc := ⟨.hbm, 271, rfl⟩
abbrev main_call9_v3 : Ref sig .tc := ⟨.hbm, 272, rfl⟩
abbrev main_call9_v4 : Ref sig .tc := ⟨.hbm, 273, rfl⟩
abbrev main_v127 : Ref sig .tc := ⟨.hbm, 274, rfl⟩
abbrev main_c_44 : Ref sig .tc := ⟨.hbm, 275, rfl⟩
abbrev main_v128 : Ref sig .tc := ⟨.hbm, 276, rfl⟩
abbrev main_v129 : Ref sig .tc := ⟨.hbm, 277, rfl⟩
abbrev main_c_45 : Ref sig .tc := ⟨.hbm, 278, rfl⟩
abbrev main_c_46 : Ref sig .tc := ⟨.hbm, 279, rfl⟩
abbrev main_call10_v0 : Ref sig .tc := ⟨.hbm, 280, rfl⟩
abbrev main_call10_v1 : Ref sig .tc := ⟨.hbm, 281, rfl⟩
abbrev main_call10_v2 : Ref sig .tc := ⟨.hbm, 282, rfl⟩
abbrev main_call10_v3 : Ref sig .tc := ⟨.hbm, 283, rfl⟩
abbrev main_call10_v4 : Ref sig .tc := ⟨.hbm, 284, rfl⟩
abbrev main_v130 : Ref sig .tc := ⟨.hbm, 285, rfl⟩
abbrev main_v131 : Ref sig .tc := ⟨.hbm, 286, rfl⟩
abbrev main_v132 : Ref sig .tc := ⟨.hbm, 287, rfl⟩
abbrev main_v133 : Ref sig .tc := ⟨.hbm, 288, rfl⟩
abbrev main_call11_c : Ref sig .tc := ⟨.hbm, 289, rfl⟩
abbrev main_call11_v0 : Ref sig .tc := ⟨.hbm, 290, rfl⟩
abbrev main_call11_v1 : Ref sig .tc := ⟨.hbm, 291, rfl⟩
abbrev main_call11_c_0 : Ref sig .tc := ⟨.hbm, 292, rfl⟩
abbrev main_call11_v2 : Ref sig .tc := ⟨.hbm, 293, rfl⟩
abbrev main_call11_v3 : Ref sig .tc := ⟨.hbm, 294, rfl⟩
abbrev main_call11_v4 : Ref sig .tc := ⟨.hbm, 295, rfl⟩
abbrev main_call11_v5 : Ref sig .tc := ⟨.hbm, 296, rfl⟩
abbrev main_call11_c_1 : Ref sig .tc := ⟨.hbm, 297, rfl⟩
abbrev main_call11_c_2 : Ref sig .tc := ⟨.hbm, 298, rfl⟩
abbrev main_call11_v6 : Ref sig .tc := ⟨.hbm, 299, rfl⟩
abbrev main_call11_v7 : Ref sig .tc := ⟨.hbm, 300, rfl⟩
abbrev main_call11_v8 : Ref sig .tc := ⟨.hbm, 301, rfl⟩
abbrev main_call11_v9 : Ref sig .tc := ⟨.hbm, 302, rfl⟩
abbrev main_call11_v10 : Ref sig .tc := ⟨.hbm, 303, rfl⟩
abbrev main_call11_v11 : Ref sig .tc := ⟨.hbm, 304, rfl⟩
abbrev main_call11_c_3 : Ref sig .tc := ⟨.hbm, 305, rfl⟩
abbrev main_call11_v12 : Ref sig .tc := ⟨.hbm, 306, rfl⟩
abbrev main_call11_v13 : Ref sig .tc := ⟨.hbm, 307, rfl⟩
abbrev main_call11_cst : Ref sig .tc := ⟨.hbm, 308, rfl⟩
abbrev main_call11_v14 : Ref sig .tc := ⟨.hbm, 309, rfl⟩
abbrev main_v134 : Ref sig .tc := ⟨.hbm, 310, rfl⟩
abbrev main_v135 : Ref sig .tc := ⟨.hbm, 311, rfl⟩
abbrev main_v136 : Ref sig .tc := ⟨.hbm, 312, rfl⟩
abbrev main_v137 : Ref sig .tc := ⟨.hbm, 313, rfl⟩
abbrev main_v138 : Ref sig .tc := ⟨.hbm, 314, rfl⟩
abbrev main_v139 : Ref sig .tc := ⟨.hbm, 315, rfl⟩
abbrev main_v140 : Ref sig .tc := ⟨.hbm, 316, rfl⟩
abbrev main_cst_47 : Ref sig .tc := ⟨.hbm, 317, rfl⟩
abbrev main_v141 : Ref sig .tc := ⟨.hbm, 318, rfl⟩
abbrev main_v142 : Ref sig .tc := ⟨.hbm, 319, rfl⟩
abbrev main_v143 : Ref sig .tc := ⟨.hbm, 320, rfl⟩
abbrev main_v144 : Ref sig .tc := ⟨.hbm, 321, rfl⟩
abbrev main_v145 : Ref sig .tc := ⟨.hbm, 322, rfl⟩

abbrev nD : Nat := 1
abbrev τ : Topo := Topo.v7x

variable {F : FTy → Type} [FloatOps F]

class Facts₀ : Prop where
  shapeCasts_S4x720x128x128_S4x9x80x16384 : S4x720x128x128.ShapeCasts S4x9x80x16384
  shapeCasts_S4x18x128x128_S4x9x2x128x128 : S4x18x128x128.ShapeCasts S4x9x2x128x128
  slices_S4x9x2x128x128_S4x9x1x128x128_0_0_0_0_0 : S4x9x2x128x128.Slices ![0, 0, 0, 0, 0] S4x9x1x128x128
  shapeCasts_S4x9x1x128x128_S4x9x128x128 : S4x9x1x128x128.ShapeCasts S4x9x128x128
  slices_S4x9x2x128x128_S4x9x1x128x128_0_0_1_0_0 : S4x9x2x128x128.Slices ![0, 0, 1, 0, 0] S4x9x1x128x128
  bcast_S_S4x9x80x16384 : S_.BroadcastsInDim S4x9x80x16384 (![] : Fin 0 → Fin S4x9x80x16384.rank)
  bcast_S_S4x9x128x128 : S_.BroadcastsInDim S4x9x128x128 (![] : Fin 0 → Fin S4x9x128x128.rank)
  shapeCasts_S4x9x128x128_S4x9x1x16384 : S4x9x128x128.ShapeCasts S4x9x1x16384
  bcast_S4x9x1x16384_S4x9x80x16384_0_1_2_3 : S4x9x1x16384.BroadcastsInDim S4x9x80x16384 (![0, 1, 2, 3] : Fin 4 → Fin S4x9x80x16384.rank)
  shapeCasts_S4x9x80x16384_S4x9x80x16384x1 : S4x9x80x16384.ShapeCasts S4x9x80x16384x1
  bcast_S_S4x9x80x16384x1 : S_.BroadcastsInDim S4x9x80x16384x1 (![] : Fin 0 → Fin S4x9x80x16384x1.rank)
  bcast_S1_S1x1x1x1x1_4 : S1.BroadcastsInDim S1x1x1x1x1 (![4] : Fin 1 → Fin S1x1x1x1x1.rank)
  bcast_S1x1x1x1x1_S4x9x80x16384x1_0_1_2_3_4 : S1x1x1x1x1.BroadcastsInDim S4x9x80x16384x1 (![0, 1, 2, 3, 4] : Fin 5 → Fin S4x9x80x16384x1.rank)
  reducesTo_S4x9x80x16384x1_S4x9x80x16384_d4 : S4x9x80x16384x1.ReducesTo [4] S4x9x80x16384
  h_S_ : 0 < S_.numel
  reducesTo_S4x9x80x16384_S4x80x16384_d1 : S4x9x80x16384.ReducesTo [1] S4x80x16384
  shapeCasts_S4x80x16384_S4x80x128x128 : S4x80x16384.ShapeCasts S4x80x128x128
  bcast_S80_S1x80x1x1_1 : S80.BroadcastsInDim S1x80x1x1 (![1] : Fin 1 → Fin S1x80x1x1.rank)
  bcast_S1x80x1x1_S4x80x128x128_0_1_2_3 : S1x80x1x1.BroadcastsInDim S4x80x128x128 (![0, 1, 2, 3] : Fin 4 → Fin S4x80x128x128.rank)
  gather_S4x9x80x16384_S4x9x80x16384x1_S4x9x80x16384_n_3_012_012_3_4_1111_wf : GatherDims.WF S4x9x80x16384 S4x9x80x16384x1 S4x9x80x16384 [] [3] [0, 1, 2] [3] [0, 1, 2] 4 ![1, 1, 1, 1]

variable [Facts₀]

def gather_S4x9x80x16384_S4x9x80x16384x1_S4x9x80x16384_n_3_012_012_3_4_1111 : GatherDims S4x9x80x16384 S4x9x80x16384x1 S4x9x80x16384 where
  offsetDims := []
  collapsedSliceDims := [3]
  operandBatchingDims := [0, 1, 2]
  startIndicesBatchingDims := [0, 1, 2]
  startIndexMap := [3]
  indexVectorDim := 4
  sliceSizes := ![1, 1, 1, 1]
  wf := gather_S4x9x80x16384_S4x9x80x16384x1_S4x9x80x16384_n_3_012_012_3_4_1111_wf

class Facts : Prop extends Facts₀ where

variable [Facts]
-- ==== Proof.RefRunQ.lean ====
/-
  The reference's run, first part: the reference is a straight line of 320 host operations (`ops`), so every weakly fair
  execution of it terminates with each buffer at the fold of the operations' results over the launch contents; and at an
  argument, which no operation writes, that fold is the launch contents.
-/
import proofs.«154423_j13048110645917_2_alg».proof.Proof.RefRunP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 65536 in
set_option maxHeartbeats 128000000 in
/-- The library's run of the list of operations: every buffer ends at the fold of the operations' results. -/
theorem run_fold (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

set_option maxRecDepth 65536 in
set_option maxHeartbeats 128000000 in
/-- No operation writes an argument: the fold there is the launch contents. -/
theorem fold_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 65536 in
set_option maxHeartbeats 128000000 in
theorem fold_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxRecDepth 65536 in
set_option maxHeartbeats 128000000 in
theorem fold_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

end Cert.ReferenceIdeal.ValueP

end
-- ==== Proof.RefRunR.lean ====
/-
  The reference's run, second part: the fold of the 320 operations at the result buffer is the last stage of the
  operation-by-operation reading of the program (`ReadP.val_main_v145`) of the three arguments as launched; hence the run.

  Rewriting the fold once per operation gives the operations' composed term of the arguments. An operation of an outlined
  function (`clip`, `take_along_axis`) states its function at the value's type and moves contents to the buffer's own type and
  back along the equation of the two types, so inside a call every value appears under such a pair of moves, and a call's
  arguments and result under a single one. A pair is the identity (`ofBuf_toBuf`), and a single move at a literal buffer is a
  cast along an equation between one type and itself (`cast_eq`); both are removed by REWRITING, before the two sides are
  compared: one of the wrapped values is an `and` over an axis of an array of 47 million entries, and a move left above it
  would have that fold opened and walked. With every move gone the two sides have the same spine down to the arguments of
  those folds, and what is left is the stages' definitions unfolded.
-/
import proofs.«154423_j13048110645917_2_alg».proof.Proof.RefRunQ
import proofs.«154423_j13048110645917_2_alg».proof.Proof.RefReadP

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- Moving contents to a buffer's own type and back is the identity. -/
theorem ofBuf_toBuf {Val : EltTy → Type} {sig : RefSig} {T : BufTy} (x : TRef sig T) (v : T.Contents Val) :
    x.ofBuf (x.toBuf v) = v := by
  obtain ⟨r, rfl, _, _⟩ := x
  rfl

set_option maxRecDepth 16384 in
set_option maxHeartbeats 128000000 in
/-- The fold at the result buffer is the last stage of the arguments as launched. -/
theorem fold_result (m : (ℓ : Loc nD τ sig) → Buf (Elt F) ℓ) (c : Dev nD) :
    after (ops (F := F)) (launchContents m c) (Proc.devRef .tc main_v145)
      = Cert.ReferenceIdeal.ReadP.val_main_v145 (F := F) (m ((c.tc : Thread nD τ).loc main_arg0))
          (m ((c.tc : Thread nD τ).loc main_arg1)) (m ((c.tc : Thread nD τ).loc main_arg2)) := by
  after_results_simp
  simp only [ofBuf_toBuf]
  simp only [TRef.ofBuf, TRef.toBuf, cast_eq]
  rfl

/-- THE RUN: the result at the last stage of the arguments as launched, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v145) = Cert.ReferenceIdeal.ReadP.val_main_v145 (F := F) (m ((c.tc : Thread nD τ).loc main_arg0))
          (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨(h c main_v145).trans (fold_result m c),
        (h c main_arg0).trans (fold_arg0 m c), (h c main_arg1).trans (fold_arg1 m c), (h c main_arg2).trans (fold_arg2 m c)⟩)
    (run_fold m ρ)

end Cert.ReferenceIdeal.ValueP

end
-- ==== Proof.Spec.lean ====
/-
  Bilinear sampling summed over the sampling points, plus a per-channel bias: the function of the three argument
  arrays that both programs compute, written twice.

  Inputs: `x : [4, 720, 128, 128]` (batch, point-major channels `80·p + c`, rows, columns), `loc : [4, 18, 128, 128]`
  (batch, channel `2p` the row coordinate and `2p + 1` the column coordinate of point `p`, output row, output column),
  `bias : [80]`. Output `[4, 80, 128, 128]`.

  For a coordinate `z` write `flo z = ⌊z⌋`, `frac z = z − ⌊z⌋` and `cell z` for `⌊z⌋` as a saturating 32-bit integer.
  `hot z n` is the weight the coordinate gives to line `n` of 128: `1 − frac z` if `n = cell z`, plus `frac z` if
  `n = cell z + 1` (two's-complement), nothing otherwise.

  * `G` (the selection form): the bias plus, over the 9 points, the sum over all rows `r` of the row's `hot`-weighted
    column sum times the row's own `hot` weight.
  * `GR` (the four-tap form): over the 9 points, the four corner values at the clamped corner positions, each times its
    bilinear weight times the 0/1 indicator that the unclamped corner lies inside the 128 × 128 image, then the bias.

  Both are stated over the scalar operations the two programs are printed in, so that each program is read into its own
  form without arithmetic; that the two forms agree on finite inputs is a separate module.
-/
import Idealize.ShloMosaic.PureOps.Ideal
import Idealize.ShloMosaic.Lib.ValueIdx

noncomputable section

namespace Cert.Sampling

open Idealize.ShloMosaic Idealize.ShloMosaic.ValueIdx

abbrev SX : Shape := ⟨4, ![4, 720, 128, 128]⟩
abbrev SLoc : Shape := ⟨4, ![4, 18, 128, 128]⟩
abbrev SBias : Shape := ⟨1, ![80]⟩
abbrev SOut : Shape := ⟨4, ![4, 80, 128, 128]⟩

/-- The f32 words of 1 and 0 at the exact reading. -/
def one : EReal := Ideal.ofBits .f32 0x3F800000#32
def zero : EReal := Ideal.ofBits .f32 0x00000000#32

/-- `⌊z⌋`, the fractional part, and `⌊z⌋` as a saturating 32-bit integer. -/
def flo (z : EReal) : EReal := Ideal.liftRound Int.floor z
def frac (z : EReal) : EReal := z - flo z
def cell (z : EReal) : BitVec 32 := Ideal.fptosi 32 (flo z)

/-- The weight coordinate `z` gives to line `n`: `1 − frac z` on line `cell z`, `frac z` on line `cell z + 1`. -/
def hot (z : EReal) (n : Fin 128) : EReal :=
  Scalar.select (IntOp.cmpi .eq (BitVec.ofNat 32 n.val) (cell z)) (one - frac z) zero
    + Scalar.select (IntOp.cmpi .eq (BitVec.ofNat 32 n.val) (IntOp.addi (cell z) 1#32)) (frac z) zero

/-- Channel `c` of point `p` in `x`; the row- and column-coordinate channels of point `p` in `loc`. -/
def chan (p : Fin 9) (c : Fin 80) : Fin 720 := ⟨80 * p.val + c.val, by omega⟩
def ych (p : Fin 9) : Fin 18 := ⟨2 * p.val, by omega⟩
def xch (p : Fin 9) : Fin 18 := ⟨2 * p.val + 1, by omega⟩

/-- The row and column coordinate of point `p` at output pixel `(b, h, w)`. -/
def yAt (loc : FVec Ideal SLoc .f32) (b : Fin 4) (p : Fin 9) (h w : Fin 128) : EReal := loc (ix4 b (ych p) h w)
def xAt (loc : FVec Ideal SLoc .f32) (b : Fin 4) (p : Fin 9) (h w : Fin 128) : EReal := loc (ix4 b (xch p) h w)

/-! ## The selection form -/

/-- One point's sample of channel `c` at output pixel `(b, h, w)`: over all rows, the row's weighted column sum times the
    row's weight. -/
def sample (x : FVec Ideal SX .f32) (loc : FVec Ideal SLoc .f32) (b : Fin 4) (p : Fin 9) (c : Fin 80) (h w : Fin 128) : EReal :=
  ∑ r : Fin 128, (∑ v : Fin 128, x (ix4 b (chan p c) r v) * hot (xAt loc b p h w) v) * hot (yAt loc b p h w) r

/-- The selection form of the result. -/
def G (x : FVec Ideal SX .f32) (loc : FVec Ideal SLoc .f32) (bias : FVec Ideal SBias .f32) : FVec Ideal SOut .f32 :=
  fun i => bias (ix1 (i 1)) + ∑ p : Fin 9, sample x loc (i 0) p (i 1) (i 2) (i 3)

/-! ## The selection form of one block

One grid point `(b, t, p)` of the kernel sees channel block `p` of batch `b` of `x` (`[1, 80, 128, 128]`), the two coordinate
channels of point `p` on output rows `16·t … 16·t + 15` (`[1, 2, 16, 128]`), and adds to its output block (`[1, 80, 16, 128]`) the
point's sample, which in terms of the blocks alone is: -/

abbrev SXB : Shape := ⟨4, ![1, 80, 128, 128]⟩
abbrev SLB : Shape := ⟨4, ![1, 2, 16, 128]⟩
abbrev SOB : Shape := ⟨4, ![1, 80, 16, 128]⟩

/-- The sample of channel `ch` at the block's pixel `(h, w)`, from the channel block `x0` and the coordinate block `x1`
    (its channel 0 the row coordinate, channel 1 the column coordinate). -/
def blockSample (x0 : FVec Ideal SXB .f32) (x1 : FVec Ideal SLB .f32) (ch : Fin 80) (h : Fin 16) (w : Fin 128) : EReal :=
  ∑ r : Fin 128, (∑ v : Fin 128, x0 (ix4 (0 : Fin 1) ch r v) * hot (x1 (ix4 (0 : Fin 1) (1 : Fin 2) h w)) v)
    * hot (x1 (ix4 (0 : Fin 1) (0 : Fin 2) h w)) r

/-! ## The four-tap form -/

/-- A line number clamped into `[0, 127]`, and the 0/1 word saying that a corner `(yi, xi)` lies inside the image. -/
def clip (n : BitVec 32) : BitVec 32 := IntOp.minsi 127#32 (IntOp.maxsi 0#32 n)
def valid (yi xi : BitVec 32) : BitVec 1 :=
  IntOp.andi (IntOp.andi (IntOp.andi (IntOp.cmpi .sge yi 0#32) (IntOp.cmpi .slt yi 128#32)) (IntOp.cmpi .sge xi 0#32))
    (IntOp.cmpi .slt xi 128#32)

/-- The value of `x` at the clamped corner. -/
def corner (x : FVec Ideal SX .f32) (b : Fin 4) (p : Fin 9) (c : Fin 80) (yi xi : BitVec 32) : EReal :=
  x (ix4 b (chan p c) ⟨(clip yi).toNat % 128, Nat.mod_lt _ (by norm_num)⟩ ⟨(clip xi).toNat % 128, Nat.mod_lt _ (by norm_num)⟩)

/-- One tap: the corner `(cell y + oy, cell x + ox)`, its value times (its weight times its indicator). -/
def tap (x : FVec Ideal SX .f32) (loc : FVec Ideal SLoc .f32) (b : Fin 4) (p : Fin 9) (c : Fin 80) (h w : Fin 128)
    (oy ox : BitVec 32) (wt : EReal) : EReal :=
  corner x b p c (IntOp.addi (cell (yAt loc b p h w)) oy) (IntOp.addi (cell (xAt loc b p h w)) ox)
    * (wt * FloatOps.uitofp (F := Ideal) .f32 (valid (IntOp.addi (cell (yAt loc b p h w)) oy) (IntOp.addi (cell (xAt loc b p h w)) ox)))

/-- One point's four taps, added in the order top-left, top-right, bottom-left, bottom-right onto zero. -/
def taps (x : FVec Ideal SX .f32) (loc : FVec Ideal SLoc .f32) (b : Fin 4) (p : Fin 9) (c : Fin 80) (h w : Fin 128) : EReal :=
  (((zero
    + tap x loc b p c h w 0#32 0#32 ((one - frac (yAt loc b p h w)) * (one - frac (xAt loc b p h w))))
    + tap x loc b p c h w 0#32 1#32 ((one - frac (yAt loc b p h w)) * frac (xAt loc b p h w)))
    + tap x loc b p c h w 1#32 0#32 (frac (yAt loc b p h w) * (one - frac (xAt loc b p h w))))
    + tap x loc b p c h w 1#32 1#32 (frac (yAt loc b p h w) * frac (xAt loc b p h w))

/-- The four-tap form of the result. -/
def GR (x : FVec Ideal SX .f32) (loc : FVec Ideal SLoc .f32) (bias : FVec Ideal SBias .f32) : FVec Ideal SOut .f32 :=
  fun i => (zero + ∑ p : Fin 9, taps x loc (i 0) p (i 1) (i 2) (i 3)) + bias (ix1 (i 1))

end Cert.Sampling

end
-- ==== Proof.RefTake.lean ====
/-
  One call of the reference's `take_along_axis` as a pure function of its operand `X : [4, 9, 80, 16384]` and its index
  array `I : [4, 9, 80, 16384]` (32-bit integers), read at an index.

  The call adds 16384 to a negative index, checks the result against `[0, 16383]`, gathers along the last axis with the
  three leading axes as batch axes, and puts a NaN where the check failed. For an index already in `[0, 16383]` nothing is
  added, the check passes, the gather's clamp is the identity, and the call returns the operand's entry at that position of
  the same batch.
-/
import proofs.«154423_j13048110645917_2_alg».proof.Proof.Spec
import proofs.«154423_j13048110645917_2_alg».proof.ReferenceIdeal
import proofs.«154423_j13048110645917_2_alg».proof.Proof.Gen.ReferenceIdeal
import Idealize.ShloMosaic.Lib.ValueIdx
import Idealize.ShloMosaic.Lib.Pipeline.Value
import Idealize.ShloMosaic.Lib.ReduceAll

noncomputable section

namespace Cert.ReferenceIdeal.Take

open Cert.ReferenceIdeal Cert.ReferenceIdeal.Gen Idealize.ShloMosaic Idealize.ShloMosaic.ValueIdx

/-- The call's composed term, operation by operation as the program states them. -/
def takeCall (X : FVec Ideal S4x9x80x16384 .f32) (I : IVec S4x9x80x16384 32) : FVec Ideal S4x9x80x16384 .f32 :=
  let I4 : IVec S4x9x80x16384 32 :=
    select (cmpi .slt I (broadcastInDim S4x9x80x16384 ![] bcast_S_S4x9x80x16384 (constantI S_ 32 0#32)))
      (addi I (broadcastInDim S4x9x80x16384 ![] bcast_S_S4x9x80x16384 (constantI S_ 32 16384#32))) I
  let I5 : IVec S4x9x80x16384x1 32 := shapeCast _ I4 shapeCasts_S4x9x80x16384_S4x9x80x16384x1
  let ok : IVec S4x9x80x16384 1 :=
    Host.reduce IntOp.andi
      (andi (cmpi .sge I5 (broadcastInDim S4x9x80x16384x1 ![] bcast_S_S4x9x80x16384x1 (constantI S_ 32 0#32)))
        (cmpi .sle I5 (broadcastInDim S4x9x80x16384x1 ![0, 1, 2, 3, 4] bcast_S1x1x1x1x1_S4x9x80x16384x1_0_1_2_3_4
          (broadcastInDim S1x1x1x1x1 ![4] bcast_S1_S1x1x1x1x1_4 (constantI S1 32 16383#32)))))
      (constantI S_ 1 1#1) reducesTo_S4x9x80x16384x1_S4x9x80x16384_d4 h_S_
  select ok (Host.gather gather_S4x9x80x16384_S4x9x80x16384x1_S4x9x80x16384_n_3_012_012_3_4_1111 X I5)
    (broadcastInDim S4x9x80x16384 ![] bcast_S_S4x9x80x16384 (constant (F := Ideal) S_ .f32 0x7FC00000#32))

/-! ## Words in `[0, 16383]` -/

/-- A word below 16384 has its top bit clear, so it reads the same signed and unsigned. -/
theorem toInt_of_small (w : BitVec 32) (h : w.toNat < 16384) : w.toInt = (w.toNat : Int) :=
  BitVec.toInt_eq_toNat_of_lt (by omega)

/-- Such a word is not negative … -/
theorem slt_zero_small (w : BitVec 32) (h : w.toNat < 16384) : IntOp.cmpi .slt w 0#32 = 0#1 := by
  apply eq_zero_of_ne_one
  rw [IntOp.cmpi_slt, toInt_of_small w h, show (0#32 : BitVec 32).toInt = 0 from by decide]
  omega

/-- … it is at least 0 … -/
theorem sge_zero_small (w : BitVec 32) (h : w.toNat < 16384) : IntOp.cmpi .sge w 0#32 = 1#1 := by
  rw [IntOp.cmpi_sge, toInt_of_small w h, show (0#32 : BitVec 32).toInt = 0 from by decide]
  omega

/-- … and at most 16383. -/
theorem sle_max_small (w : BitVec 32) (h : w.toNat < 16384) : IntOp.cmpi .sle w 16383#32 = 1#1 := by
  rw [IntOp.cmpi_sle, toInt_of_small w h, show (16383#32 : BitVec 32).toInt = 16383 from by decide]
  omega

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi (1#1 : BitVec 1) 1#1 = 1#1 from by decide]
    exact foldl_andi_one f l (fun n hn => h n (List.mem_cons_of_mem _ hn))

/-- A reduction by `and` from the initial value 1 is 1 at `j` when every operand element that reduces into `j` is 1. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i : s.Idx, h.drop i = j → x i = 1#1) : Host.reduce IntOp.andi x init h hu j = 1#1 := by
  rw [Host.reduce_eq_foldl, hinit]
  refine foldl_andi_one x _ fun i hi => hx i ?_
  have := (List.mem_filter.1 hi).2
  simpa using this

/-! ## The call's stages, each read at an index -/

/-- The index array after the wrap of its negative entries: `I + 16384` where `I < 0`, else `I`. -/
def wrapIdx (I : IVec S4x9x80x16384 32) : IVec S4x9x80x16384 32 :=
  select (cmpi .slt I (broadcastInDim S4x9x80x16384 ![] bcast_S_S4x9x80x16384 (constantI S_ 32 0#32)))
    (addi I (broadcastInDim S4x9x80x16384 ![] bcast_S_S4x9x80x16384 (constantI S_ 32 16384#32))) I

/-- The wrapped indices as a column of one-component start indices. -/
def colIdx (I : IVec S4x9x80x16384 32) : IVec S4x9x80x16384x1 32 :=
  shapeCast _ (wrapIdx I) shapeCasts_S4x9x80x16384_S4x9x80x16384x1

/-- The bounds check `0 ≤ · ≤ 16383` of every component of a start index, its components combined by `and`. -/
def inRange (I : IVec S4x9x80x16384 32) : IVec S4x9x80x16384 1 :=
  Host.reduce IntOp.andi
    (andi (cmpi .sge (colIdx I) (broadcastInDim S4x9x80x16384x1 ![] bcast_S_S4x9x80x16384x1 (constantI S_ 32 0#32)))
      (cmpi .sle (colIdx I) (broadcastInDim S4x9x80x16384x1 ![0, 1, 2, 3, 4] bcast_S1x1x1x1x1_S4x9x80x16384x1_0_1_2_3_4
        (broadcastInDim S1x1x1x1x1 ![4] bcast_S1_S1x1x1x1x1_4 (constantI S1 32 16383#32)))))
    (constantI S_ 1 1#1) reducesTo_S4x9x80x16384x1_S4x9x80x16384_d4 h_S_

/-- The call is the select, on the bounds check, between the gather at the column of wrapped indices and NaN. -/
theorem takeCall_eq (X : FVec Ideal S4x9x80x16384 .f32) (I : IVec S4x9x80x16384 32) :
    takeCall X I = select (inRange I)
      (Host.gather gather_S4x9x80x16384_S4x9x80x16384x1_S4x9x80x16384_n_3_012_012_3_4_1111 X (colIdx I))
      (broadcastInDim S4x9x80x16384 ![] bcast_S_S4x9x80x16384 (constant (F := Ideal) S_ .f32 0x7FC00000#32)) := rfl

/-- A nonnegative index is not wrapped. -/
theorem wrapIdx_apply (I : IVec S4x9x80x16384 32) (j : S4x9x80x16384.Idx) (hI : (I j).toNat < 16384) :
    wrapIdx I j = I j := by
  show Scalar.select (IntOp.cmpi .slt (I j) 0#32) (IntOp.addi (I j) 16384#32) (I j) = I j
  rw [slt_zero_small _ hI, select_zero]

/-- The column at `(b, p, c, q, 0)` is the wrapped index at `(b, p, c, q)`. -/
theorem colIdx_apply (I : IVec S4x9x80x16384 32) (b : Fin 4) (p : Fin 9) (c : Fin 80) (q : Fin 16384) (e : Fin 1) :
    colIdx I (ix5 b p c q e) = wrapIdx I (ix4 b p c q) :=
  shapeCast_apply _ _ _ _ (by
    have he : e.val = 0 := by omega
    rw [Shape.rowMajor_val_four, Shape.rowMajor_val_five]
    show ((b.val * 9 + p.val) * 80 + c.val) * 16384 + q.val
      = (((b.val * 9 + p.val) * 80 + c.val) * 16384 + q.val) * 1 + e.val
    rw [he, Nat.mul_one, Nat.add_zero])

/-- Every component of a start index in `[0, 16383]` passes the bounds check. -/
theorem inRange_apply (I : IVec S4x9x80x16384 32) (b : Fin 4) (p : Fin 9) (c : Fin 80) (q : Fin 16384)
    (hI : (I (ix4 b p c q)).toNat < 16384) : inRange I (ix4 b p c q) = 1#1 := by
  unfold inRange
  refine reduce_andi_one _ _ _ _ _ rfl fun i hi => ?_
  -- an index that reduces into `(b, p, c, q)` is `(b, p, c, q, e)`
  have h0 : i 0 = b := Fin.ext
    ((Shape.ReducesTo.drop_apply_val_of_eq reducesTo_S4x9x80x16384x1_S4x9x80x16384_d4 i 0 0).symm.trans
      (congrArg (fun j : S4x9x80x16384.Idx => (j 0).val) hi))
  have h1 : i 1 = p := Fin.ext
    ((Shape.ReducesTo.drop_apply_val_of_eq reducesTo_S4x9x80x16384x1_S4x9x80x16384_d4 i 1 1).symm.trans
      (congrArg (fun j : S4x9x80x16384.Idx => (j 1).val) hi))
  have h2 : i 2 = c := Fin.ext
    ((Shape.ReducesTo.drop_apply_val_of_eq reducesTo_S4x9x80x16384x1_S4x9x80x16384_d4 i 2 2).symm.trans
      (congrArg (fun j : S4x9x80x16384.Idx => (j 2).val) hi))
  have h3 : i 3 = q := Fin.ext
    ((Shape.ReducesTo.drop_apply_val_of_eq reducesTo_S4x9x80x16384x1_S4x9x80x16384_d4 i 3 3).symm.trans
      (congrArg (fun j : S4x9x80x16384.Idx => (j 3).val) hi))
  obtain ⟨e, rfl⟩ : ∃ e : Fin 1, i = ix5 b p c q e := ⟨i 4, by rw [← h0, ← h1, ← h2, ← h3]; exact eq_ix5 i⟩
  show IntOp.andi (IntOp.cmpi .sge (colIdx I (ix5 b p c q e)) 0#32)
    (IntOp.cmpi .sle (colIdx I (ix5 b p c q e)) 16383#32) = 1#1
  rw [colIdx_apply, wrapIdx_apply _ _ hI, sge_zero_small _ hI, sle_max_small _ hI]
  decide

local notation "D" => gather_S4x9x80x16384_S4x9x80x16384x1_S4x9x80x16384_n_3_012_012_3_4_1111

/-- THE GATHER READ AT `(b, p, c, q)`: the three leading axes are batch axes, so they keep their coordinates; on the last
    axis the position is the start index's one component at `(b, p, c, q, 0)`, read signed and clamped into `[0, 16383]`. -/
theorem gather_apply {α : Type} (X : S4x9x80x16384.Idx → α) (J : IVec S4x9x80x16384x1 32)
    (b : Fin 4) (p : Fin 9) (c : Fin 80) (q : Fin 16384) :
    Host.gather D X J (ix4 b p c q)
      = X (ix4 b p c ⟨min (J (ix5 b p c q (0 : Fin 1))).toInt.toNat 16383, by omega⟩) := by
  unfold Host.gather
  refine congrArg X (funext fun a => Fin.ext ?_)
  match a with
  | ⟨0, _⟩ =>
    show GatherDims.start D (ix4 b p c q) J 0 + GatherDims.batchCoord D (ix4 b p c q) 0 + GatherDims.offCoord D (ix4 b p c q) 0 = b.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨1, _⟩ =>
    show GatherDims.start D (ix4 b p c q) J 1 + GatherDims.batchCoord D (ix4 b p c q) 1 + GatherDims.offCoord D (ix4 b p c q) 1 = p.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨2, _⟩ =>
    show GatherDims.start D (ix4 b p c q) J 2 + GatherDims.batchCoord D (ix4 b p c q) 2 + GatherDims.offCoord D (ix4 b p c q) 2 = c.val
    rw [GatherDims.start_batching _ _ _ _ (by decide),
      GatherDims.offCoord_eq_zero _ _ _ (fun h => ((GatherDims.mem_sKept _ _).mp h).2 (by decide))]
    simp only [Nat.zero_add, Nat.add_zero]
    rfl
  | ⟨3, _⟩ =>
    show GatherDims.start D (ix4 b p c q) J 3 + GatherDims.batchCoord D (ix4 b p c q) 3 + GatherDims.offCoord D (ix4 b p c q) 3
      = min (J (ix5 b p c q (0 : Fin 1))).toInt.toNat 16383
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (show (3 : Fin 4) ∈ GatherDims.startIndexMap D from by decide)]
    have hsi : GatherDims.siIdx D (ix4 b p c q) ⟨List.idxOf (3 : Fin 4) (GatherDims.startIndexMap D),
        List.idxOf_lt_length_iff.2 (show (3 : Fin 4) ∈ GatherDims.startIndexMap D from by decide)⟩ = ix5 b p c q (0 : Fin 1) := by
      funext k; refine Fin.ext ?_
      match k with
      | ⟨0, _⟩ => rfl
      | ⟨1, _⟩ => rfl
      | ⟨2, _⟩ => rfl
      | ⟨3, _⟩ => rfl
      | ⟨4, _⟩ => rfl
    rw [hsi]
    rfl

/-- THE CALL READ AT AN INDEX whose index word is in `[0, 16383]`: the operand at that position of the same batch. -/
theorem takeCall_apply (X : FVec Ideal S4x9x80x16384 .f32) (I : IVec S4x9x80x16384 32)
    (b : Fin 4) (p : Fin 9) (c : Fin 80) (q : Fin 16384) (hI : (I (ix4 b p c q)).toNat < 16384) :
    takeCall X I (ix4 b p c q) = X (ix4 b p c ⟨(I (ix4 b p c q)).toNat, hI⟩) := by
  rw [takeCall_eq, select_apply, inRange_apply I b p c q hI, select_one, gather_apply]
  refine congrArg X (congrArg (ix4 b p c) (Fin.ext ?_))
  show min (colIdx I (ix5 b p c q (0 : Fin 1))).toInt.toNat 16383 = (I (ix4 b p c q)).toNat
  rw [colIdx_apply, wrapIdx_apply _ _ hI]
  have := toInt_of_small _ hI
  omega

end Cert.ReferenceIdeal.Take

end
-- ==== Proof.RefPoint.lean ====
/-
  One sampling point of the reference, read operation by operation at an entry: the four taps added onto zero.

  The four taps are one composite of vector operations applied to four pairs of corner offsets and four weights. The composite
  is stated once (`tapV`) and read at an entry once (`tapV_apply`); each tap of the program is that composite by unfolding.
  Reading it at `(b, p, c, 128·h + w)` needs three facts of arithmetic: the reshape `[4, 9, 128, 128] → [4, 9, 1, 16384]` followed by
  the broadcast to `[4, 9, 80, 16384]` reads pixel `(h, w)`; a clamped line number is at most 127, so the flat position
  `128 · row + column` is formed without wrapping and lies below 16384; and the reshape `[4, 720, 128, 128] → [4, 9, 80, 16384]` of
  the image at flat position `128 · r + v` of channel `c` of point `p` is the image at channel `80·p + c`, row `r`, column `v`.
-/
import proofs.«154423_j13048110645917_2_alg».proof.Proof.Spec
import proofs.«154423_j13048110645917_2_alg».proof.Proof.RefTake
import proofs.«154423_j13048110645917_2_alg».proof.Proof.RefReadP

noncomputable section

namespace Cert.ReferenceIdeal.Point

open Cert.ReferenceIdeal Cert.ReferenceIdeal.Gen Idealize.ShloMosaic Idealize.ShloMosaic.ValueIdx
open Cert.Sampling

/-- The flattened image position `128·h + w`. -/
def pos (h w : Fin 128) : Fin 16384 := ⟨128 * h.val + w.val, by omega⟩

/-! ## Arithmetic of 32-bit line numbers -/

/-- A clamped line number is at most 127. -/
theorem clip_le (n : BitVec 32) : (clip n).toNat ≤ 127 := by
  unfold clip IntOp.minsi IntOp.maxsi
  by_cases h1 : n.slt 0#32 = true
  · have h2 : ¬ ((127#32 : BitVec 32).slt 0#32 = true) := by decide
    rw [if_pos h1, if_neg h2]; decide
  · rw [if_neg h1]
    by_cases h2 : (127#32 : BitVec 32).slt n = true
    · rw [if_pos h2]; decide
    · rw [if_neg h2]
      rw [BitVec.slt_iff_toInt_lt] at h1 h2
      have e0 : (0#32 : BitVec 32).toInt = 0 := by decide
      have e127 : (127#32 : BitVec 32).toInt = 127 := by decide
      rw [e0] at h1
      rw [e127] at h2
      have hc := BitVec.toInt_eq_toNat_cond n
      have hlt : n.toNat < 2 ^ 32 := n.isLt
      have hp : (2 : Nat) ^ 32 = 4294967296 := by norm_num
      rw [hp] at hc hlt
      split at hc <;> omega

/-- The flat position `128 · u + v` of two line numbers that are at most 127 is formed without wrapping. -/
theorem flat_toNat (u v : BitVec 32) (hu : u.toNat ≤ 127) (hv : v.toNat ≤ 127) :
    (IntOp.addi (IntOp.muli u 128#32) v).toNat = 128 * u.toNat + v.toNat := by
  unfold IntOp.addi IntOp.muli
  rw [BitVec.toNat_add, BitVec.toNat_mul]
  have h128 : (128#32 : BitVec 32).toNat = 128 := by decide
  have hp : (2 : Nat) ^ 32 = 4294967296 := by norm_num
  rw [h128, hp]
  omega

/-! ## The layout operations at an entry -/

/-- The reshape `[4, 9, 128, 128] → [4, 9, 1, 16384]` followed by the broadcast to `[4, 9, 80, 16384]`. -/
def spread {α : Type} (y : S4x9x128x128.Idx → α) : S4x9x80x16384.Idx → α :=
  broadcastInDim S4x9x80x16384 ![0, 1, 2, 3] bcast_S4x9x1x16384_S4x9x80x16384_0_1_2_3
    (shapeCast S4x9x1x16384 y shapeCasts_S4x9x128x128_S4x9x1x16384)

/-- At channel `c` and flat position `128·h + w` it reads pixel `(h, w)`. -/
theorem spread_apply {α : Type} (y : S4x9x128x128.Idx → α) (b : Fin 4) (p : Fin 9) (c : Fin 80) (h w : Fin 128) :
    spread y (ix4 b p c (pos h w)) = y (ix4 b p h w) := by
  unfold spread
  refine (broadcastInDim_apply _ bcast_S4x9x1x16384_S4x9x80x16384_0_1_2_3 _ (ix4 b p c (pos h w))
    (ix4 b p (0 : Fin 1) (pos h w)) (fun a => match a with
    | ⟨0, _⟩ => by show b.val = if (4 : Nat) = 1 then 0 else b.val; rw [if_neg (by decide)]
    | ⟨1, _⟩ => by show p.val = if (9 : Nat) = 1 then 0 else p.val; rw [if_neg (by decide)]
    | ⟨2, _⟩ => by show 0 = if (1 : Nat) = 1 then 0 else c.val; rw [if_pos rfl]
    | ⟨3, _⟩ => by show (pos h w).val = if (16384 : Nat) = 1 then 0 else (pos h w).val; rw [if_neg (by decide)])).trans ?_
  refine shapeCast_apply y shapeCasts_S4x9x128x128_S4x9x1x16384 (ix4 b p (0 : Fin 1) (pos h w)) (ix4 b p h w) ?_
  rewrite [Shape.rowMajor_val_four, Shape.rowMajor_val_four]
  show ((b.val * 9 + p.val) * 128 + h.val) * 128 + w.val = ((b.val * 9 + p.val) * 1 + 0) * 16384 + (128 * h.val + w.val)
  omega

/-- The image reshaped to `[4, 9, 80, 16384]`, at flat position `128·r + v` of channel `c` of point `p`. -/
theorem feat_apply (x0 : (⟨S4x720x128x128, .f32⟩ : BufTy).Contents (Elt Ideal)) (b : Fin 4) (p : Fin 9) (c : Fin 80)
    (n : Fin 16384) (r v : Fin 128) (hn : n.val = 128 * r.val + v.val) :
    ReadP.val_main_v0 (F := Ideal) x0 (ix4 b p c n) = x0 (ix4 b (chan p c) r v) := by
  unfold ReadP.val_main_v0
  refine shapeCast_apply x0 shapeCasts_S4x720x128x128_S4x9x80x16384 (ix4 b p c n) (ix4 b (chan p c) r v) ?_
  rewrite [Shape.rowMajor_val_four, Shape.rowMajor_val_four]
  show ((b.val * 720 + (80 * p.val + c.val)) * 128 + r.val) * 128 + v.val = ((b.val * 9 + p.val) * 80 + c.val) * 16384 + n.val
  omega

/-- The row coordinate of point `p`: channel `2p` of the coordinate array. -/
theorem y_apply (x1 : (⟨S4x18x128x128, .f32⟩ : BufTy).Contents (Elt Ideal)) (b : Fin 4) (p : Fin 9) (h w : Fin 128) :
    ReadP.val_main_v3 (F := Ideal) x1 (ix4 b p h w) = yAt x1 b p h w := by
  unfold ReadP.val_main_v3 ReadP.val_main_v2 ReadP.val_main_v1
  refine (shapeCast_apply _ shapeCasts_S4x9x1x128x128_S4x9x128x128 (ix4 b p h w) (ix5 b p (0 : Fin 1) h w) ?_).trans ?_
  · rewrite [Shape.rowMajor_val_five, Shape.rowMajor_val_four]
    show (((b.val * 9 + p.val) * 1 + 0) * 128 + h.val) * 128 + w.val = ((b.val * 9 + p.val) * 128 + h.val) * 128 + w.val
    omega
  refine (extractStridedSlice_apply ![0, 0, 0, 0, 0] _ slices_S4x9x2x128x128_S4x9x1x128x128_0_0_0_0_0
    (ix5 b p (0 : Fin 1) h w) (ix5 b p (0 : Fin 2) h w) (fun a => match a with
    | ⟨0, _⟩ => by show b.val = 0 + b.val; omega
    | ⟨1, _⟩ => by show p.val = 0 + p.val; omega
    | ⟨2, _⟩ => by show 0 = 0 + 0; omega
    | ⟨3, _⟩ => by show h.val = 0 + h.val; omega
    | ⟨4, _⟩ => by show w.val = 0 + w.val; omega)).trans ?_
  refine shapeCast_apply x1 shapeCasts_S4x18x128x128_S4x9x2x128x128 (ix5 b p (0 : Fin 2) h w) (ix4 b (ych p) h w) ?_
  rewrite [Shape.rowMajor_val_four, Shape.rowMajor_val_five]
  show ((b.val * 18 + 2 * p.val) * 128 + h.val) * 128 + w.val = ((((b.val * 9 + p.val) * 2 + 0) * 128 + h.val) * 128 + w.val)
  omega

/-- The column coordinate of point `p`: channel `2p + 1` of the coordinate array. -/
theorem x_apply (x1 : (⟨S4x18x128x128, .f32⟩ : BufTy).Contents (Elt Ideal)) (b : Fin 4) (p : Fin 9) (h w : Fin 128) :
    ReadP.val_main_v5 (F := Ideal) x1 (ix4 b p h w) = xAt x1 b p h w := by
  unfold ReadP.val_main_v5 ReadP.val_main_v4 ReadP.val_main_v1
  refine (shapeCast_apply _ shapeCasts_S4x9x1x128x128_S4x9x128x128 (ix4 b p h w) (ix5 b p (0 : Fin 1) h w) ?_).trans ?_
  · rewrite [Shape.rowMajor_val_five, Shape.rowMajor_val_four]
    show (((b.val * 9 + p.val) * 1 + 0) * 128 + h.val) * 128 + w.val = ((b.val * 9 + p.val) * 128 + h.val) * 128 + w.val
    omega
  refine (extractStridedSlice_apply ![0, 0, 1, 0, 0] _ slices_S4x9x2x128x128_S4x9x1x128x128_0_0_1_0_0
    (ix5 b p (0 : Fin 1) h w) (ix5 b p (1 : Fin 2) h w) (fun a => match a with
    | ⟨0, _⟩ => by show b.val = 0 + b.val; omega
    | ⟨1, _⟩ => by show p.val = 0 + p.val; omega
    | ⟨2, _⟩ => by show 1 = 1 + 0; omega
    | ⟨3, _⟩ => by show h.val = 0 + h.val; omega
    | ⟨4, _⟩ => by show w.val = 0 + w.val; omega)).trans ?_
  refine shapeCast_apply x1 shapeCasts_S4x18x128x128_S4x9x2x128x128 (ix5 b p (1 : Fin 2) h w) (ix4 b (xch p) h w) ?_
  rewrite [Shape.rowMajor_val_four, Shape.rowMajor_val_five]
  show ((b.val * 18 + (2 * p.val + 1)) * 128 + h.val) * 128 + w.val = ((((b.val * 9 + p.val) * 2 + 1) * 128 + h.val) * 128 + w.val)
  omega

/-! ## One tap as a composite of vector operations -/

/-- A 32-bit constant spread over `[4, 9, 128, 128]`. -/
abbrev bc (n : BitVec 32) : IVec S4x9x128x128 32 :=
  broadcastInDim S4x9x128x128 ![] bcast_S_S4x9x128x128 (constantI S_ 32 n)

/-- The corner line numbers: the cell plus the offset. -/
def lineV (cz : IVec S4x9x128x128 32) (o : BitVec 32) : IVec S4x9x128x128 32 := addi cz (bc o)

/-- The inside-the-image words of the corners `(yi, xi)`. -/
def okV (yi xi : IVec S4x9x128x128 32) : IVec S4x9x128x128 1 :=
  andi (andi (andi (cmpi .sge yi (bc 0#32)) (cmpi .slt yi (bc 128#32))) (cmpi .sge xi (bc 0#32))) (cmpi .slt xi (bc 128#32))

/-- The flat positions of the clamped corners. -/
def flatV (yi xi : IVec S4x9x128x128 32) : IVec S4x9x128x128 32 :=
  addi (muli (minsi (bc 127#32) (maxsi (bc 0#32) yi)) (bc 128#32)) (minsi (bc 127#32) (maxsi (bc 0#32) xi))

/-- One tap: the image gathered at the flat positions, times the weight times the inside-the-image indicator. -/
def tapV (X : FVec Ideal S4x9x80x16384 .f32) (cy cx : IVec S4x9x128x128 32) (oy ox : BitVec 32)
    (wt : FVec Ideal S4x9x128x128 .f32) : FVec Ideal S4x9x80x16384 .f32 :=
  mulf (Take.takeCall X (spread (flatV (lineV cy oy) (lineV cx ox))))
    (spread (mulf wt (uitofp .f32 (okV (lineV cy oy) (lineV cx ox)))))

/-- The composite at batch `b`, point `p`, channel `c` and pixel `(h, w)`: the clamped corner's value times (the weight times
    the indicator). -/
theorem tapV_apply (x0 : (⟨S4x720x128x128, .f32⟩ : BufTy).Contents (Elt Ideal)) (cy cx : IVec S4x9x128x128 32) (oy ox : BitVec 32)
    (wt : FVec Ideal S4x9x128x128 .f32) (b : Fin 4) (p : Fin 9) (c : Fin 80) (h w : Fin 128) :
    tapV (ReadP.val_main_v0 (F := Ideal) x0) cy cx oy ox wt (ix4 b p c (pos h w))
      = corner x0 b p c (IntOp.addi (cy (ix4 b p h w)) oy) (IntOp.addi (cx (ix4 b p h w)) ox)
        * (wt (ix4 b p h w) * FloatOps.uitofp (F := Ideal) .f32
            (valid (IntOp.addi (cy (ix4 b p h w)) oy) (IntOp.addi (cx (ix4 b p h w)) ox))) := by
  have hy := clip_le (IntOp.addi (cy (ix4 b p h w)) oy)
  have hx := clip_le (IntOp.addi (cx (ix4 b p h w)) ox)
  have hF : (spread (flatV (lineV cy oy) (lineV cx ox)) (ix4 b p c (pos h w))).toNat
      = 128 * (clip (IntOp.addi (cy (ix4 b p h w)) oy)).toNat + (clip (IntOp.addi (cx (ix4 b p h w)) ox)).toNat := by
    rw [spread_apply]
    exact flat_toNat (clip (IntOp.addi (cy (ix4 b p h w)) oy)) (clip (IntOp.addi (cx (ix4 b p h w)) ox)) hy hx
  have hI : (spread (flatV (lineV cy oy) (lineV cx ox)) (ix4 b p c (pos h w))).toNat < 16384 := by
    rw [hF]; omega
  unfold tapV
  rw [mulf_apply, spread_apply, Take.takeCall_apply _ _ b p c (pos h w) hI]
  refine congr (congrArg HMul.hMul ?_) rfl
  have hn : 128 * (clip (IntOp.addi (cy (ix4 b p h w)) oy)).toNat + (clip (IntOp.addi (cx (ix4 b p h w)) ox)).toNat
      = 128 * ((clip (IntOp.addi (cy (ix4 b p h w)) oy)).toNat % 128)
        + (clip (IntOp.addi (cx (ix4 b p h w)) ox)).toNat % 128 := by omega
  exact feat_apply x0 b p c _ ⟨_, _⟩ ⟨_, _⟩ (hF.trans hn)

/-! ## The cells, the fractional parts and the weights at a pixel -/

theorem cellY_apply (x1 : (⟨S4x18x128x128, .f32⟩ : BufTy).Contents (Elt Ideal)) (b : Fin 4) (p : Fin 9) (h w : Fin 128) :
    ReadP.val_main_v10 (F := Ideal) x1 (ix4 b p h w) = cell (yAt x1 b p h w) := by
  rw [← y_apply]; rfl

theorem cellX_apply (x1 : (⟨S4x18x128x128, .f32⟩ : BufTy).Contents (Elt Ideal)) (b : Fin 4) (p : Fin 9) (h w : Fin 128) :
    ReadP.val_main_v11 (F := Ideal) x1 (ix4 b p h w) = cell (xAt x1 b p h w) := by
  rw [← x_apply]; rfl

/-- `(1 − dy) · (1 − dx)`. -/
theorem w17_apply (x1 : (⟨S4x18x128x128, .f32⟩ : BufTy).Contents (Elt Ideal)) (b : Fin 4) (p : Fin 9) (h w : Fin 128) :
    ReadP.val_main_v17 (F := Ideal) x1 (ix4 b p h w) = (one - frac (yAt x1 b p h w)) * (one - frac (xAt x1 b p h w)) := by
  rw [← y_apply, ← x_apply]; rfl

/-- `(1 − dy) · dx`. -/
theorem w20_apply (x1 : (⟨S4x18x128x128, .f32⟩ : BufTy).Contents (Elt Ideal)) (b : Fin 4) (p : Fin 9) (h w : Fin 128) :
    ReadP.val_main_v20 (F := Ideal) x1 (ix4 b p h w) = (one - frac (yAt x1 b p h w)) * frac (xAt x1 b p h w) := by
  rw [← y_apply, ← x_apply]; rfl

/-- `dy · (1 − dx)`. -/
theorem w23_apply (x1 : (⟨S4x18x128x128, .f32⟩ : BufTy).Contents (Elt Ideal)) (b : Fin 4) (p : Fin 9) (h w : Fin 128) :
    ReadP.val_main_v23 (F := Ideal) x1 (ix4 b p h w) = frac (yAt x1 b p h w) * (one - frac (xAt x1 b p h w)) := by
  rw [← y_apply, ← x_apply]; rfl

/-- `dy · dx`. -/
theorem w24_apply (x1 : (⟨S4x18x128x128, .f32⟩ : BufTy).Contents (Elt Ideal)) (b : Fin 4) (p : Fin 9) (h w : Fin 128) :
    ReadP.val_main_v24 (F := Ideal) x1 (ix4 b p h w) = frac (yAt x1 b p h w) * frac (xAt x1 b p h w) := by
  rw [← y_apply, ← x_apply]; rfl

/-! ## The four taps of the program -/

theorem tap00_apply (x0 : (⟨S4x720x128x128, .f32⟩ : BufTy).Contents (Elt Ideal)) (x1 : (⟨S4x18x128x128, .f32⟩ : BufTy).Contents (Elt Ideal))
    (b : Fin 4) (p : Fin 9) (c : Fin 80) (h w : Fin 128) :
    ReadP.val_main_v52 (F := Ideal) x0 x1 (ix4 b p c (pos h w))
      = tap x0 x1 b p c h w 0#32 0#32 ((one - frac (yAt x1 b p h w)) * (one - frac (xAt x1 b p h w))) := by
  have eI : ReadP.val_main_v46 (F := Ideal) x1
      = spread (flatV (lineV (ReadP.val_main_v10 (F := Ideal) x1) 0#32) (lineV (ReadP.val_main_v11 (F := Ideal) x1) 0#32)) := rfl
  have eW : ReadP.val_main_v51 (F := Ideal) x1
      = spread (mulf (F := Ideal) (ReadP.val_main_v17 (F := Ideal) x1)
          (uitofp (F := Ideal) .f32 (okV (lineV (ReadP.val_main_v10 (F := Ideal) x1) 0#32) (lineV (ReadP.val_main_v11 (F := Ideal) x1) 0#32)))) := rfl
  have eT : ReadP.val_main_v47 (F := Ideal) x0 x1 = Take.takeCall (ReadP.val_main_v0 (F := Ideal) x0) (ReadP.val_main_v46 (F := Ideal) x1) := rfl
  have e : ReadP.val_main_v52 (F := Ideal) x0 x1
      = tapV (ReadP.val_main_v0 (F := Ideal) x0) (ReadP.val_main_v10 (F := Ideal) x1) (ReadP.val_main_v11 (F := Ideal) x1) 0#32 0#32 (ReadP.val_main_v17 (F := Ideal) x1) := by
    unfold ReadP.val_main_v52 tapV
    rw [eT, eI, eW]
  rw [e, tapV_apply, cellY_apply, cellX_apply, w17_apply]
  rfl

theorem tap01_apply (x0 : (⟨S4x720x128x128, .f32⟩ : BufTy).Contents (Elt Ideal)) (x1 : (⟨S4x18x128x128, .f32⟩ : BufTy).Contents (Elt Ideal))
    (b : Fin 4) (p : Fin 9) (c : Fin 80) (h w : Fin 128) :
    ReadP.val_main_v81 (F := Ideal) x0 x1 (ix4 b p c (pos h w))
      = tap x0 x1 b p c h w 0#32 1#32 ((one - frac (yAt x1 b p h w)) * frac (xAt x1 b p h w)) := by
  have eI : ReadP.val_main_v75 (F := Ideal) x1
      = spread (flatV (lineV (ReadP.val_main_v10 (F := Ideal) x1) 0#32) (lineV (ReadP.val_main_v11 (F := Ideal) x1) 1#32)) := rfl
  have eW : ReadP.val_main_v80 (F := Ideal) x1
      = spread (mulf (F := Ideal) (ReadP.val_main_v20 (F := Ideal) x1)
          (uitofp (F := Ideal) .f32 (okV (lineV (ReadP.val_main_v10 (F := Ideal) x1) 0#32) (lineV (ReadP.val_main_v11 (F := Ideal) x1) 1#32)))) := rfl
  have eT : ReadP.val_main_v76 (F := Ideal) x0 x1 = Take.takeCall (ReadP.val_main_v0 (F := Ideal) x0) (ReadP.val_main_v75 (F := Ideal) x1) := rfl
  have e : ReadP.val_main_v81 (F := Ideal) x0 x1
      = tapV (ReadP.val_main_v0 (F := Ideal) x0) (ReadP.val_main_v10 (F := Ideal) x1) (ReadP.val_main_v11 (F := Ideal) x1) 0#32 1#32 (ReadP.val_main_v20 (F := Ideal) x1) := by
    unfold ReadP.val_main_v81 tapV
    rw [eT, eI, eW]
  rw [e, tapV_apply, cellY_apply, cellX_apply, w20_apply]
  rfl

theorem tap10_apply (x0 : (⟨S4x720x128x128, .f32⟩ : BufTy).Contents (Elt Ideal)) (x1 : (⟨S4x18x128x128, .f32⟩ : BufTy).Contents (Elt Ideal))
    (b : Fin 4) (p : Fin 9) (c : Fin 80) (h w : Fin 128) :
    ReadP.val_main_v110 (F := Ideal) x0 x1 (ix4 b p c (pos h w))
      = tap x0 x1 b p c h w 1#32 0#32 (frac (yAt x1 b p h w) * (one - frac (xAt x1 b p h w))) := by
  have eI : ReadP.val_main_v104 (F := Ideal) x1
      = spread (flatV (lineV (ReadP.val_main_v10 (F := Ideal) x1) 1#32) (lineV (ReadP.val_main_v11 (F := Ideal) x1) 0#32)) := rfl
  have eW : ReadP.val_main_v109 (F := Ideal) x1
      = spread (mulf (F := Ideal) (ReadP.val_main_v23 (F := Ideal) x1)
          (uitofp (F := Ideal) .f32 (okV (lineV (ReadP.val_main_v10 (F := Ideal) x1) 1#32) (lineV (ReadP.val_main_v11 (F := Ideal) x1) 0#32)))) := rfl
  have eT : ReadP.val_main_v105 (F := Ideal) x0 x1 = Take.takeCall (ReadP.val_main_v0 (F := Ideal) x0) (ReadP.val_main_v104 (F := Ideal) x1) := rfl
  have e : ReadP.val_main_v110 (F := Ideal) x0 x1
      = tapV (ReadP.val_main_v0 (F := Ideal) x0) (ReadP.val_main_v10 (F := Ideal) x1) (ReadP.val_main_v11 (F := Ideal) x1) 1#32 0#32 (ReadP.val_main_v23 (F := Ideal) x1) := by
    unfold ReadP.val_main_v110 tapV
    rw [eT, eI, eW]
  rw [e, tapV_apply, cellY_apply, cellX_apply, w23_apply]
  rfl

theorem tap11_apply (x0 : (⟨S4x720x128x128, .f32⟩ : BufTy).Contents (Elt Ideal)) (x1 : (⟨S4x18x128x128, .f32⟩ : BufTy).Contents (Elt Ideal))
    (b : Fin 4) (p : Fin 9) (c : Fin 80) (h w : Fin 128) :
    ReadP.val_main_v139 (F := Ideal) x0 x1 (ix4 b p c (pos h w))
      = tap x0 x1 b p c h w 1#32 1#32 (frac (yAt x1 b p h w) * frac (xAt x1 b p h w)) := by
  have eI : ReadP.val_main_v133 (F := Ideal) x1
      = spread (flatV (lineV (ReadP.val_main_v10 (F := Ideal) x1) 1#32) (lineV (ReadP.val_main_v11 (F := Ideal) x1) 1#32)) := rfl
  have eW : ReadP.val_main_v138 (F := Ideal) x1
      = spread (mulf (F := Ideal) (ReadP.val_main_v24 (F := Ideal) x1)
          (uitofp (F := Ideal) .f32 (okV (lineV (ReadP.val_main_v10 (F := Ideal) x1) 1#32) (lineV (ReadP.val_main_v11 (F := Ideal) x1) 1#32)))) := rfl
  have eT : ReadP.val_main_v134 (F := Ideal) x0 x1 = Take.takeCall (ReadP.val_main_v0 (F := Ideal) x0) (ReadP.val_main_v133 (F := Ideal) x1) := rfl
  have e : ReadP.val_main_v139 (F := Ideal) x0 x1
      = tapV (ReadP.val_main_v0 (F := Ideal) x0) (ReadP.val_main_v10 (F := Ideal) x1) (ReadP.val_main_v11 (F := Ideal) x1) 1#32 1#32 (ReadP.val_main_v24 (F := Ideal) x1) := by
    unfold ReadP.val_main_v139 tapV
    rw [eT, eI, eW]
  rw [e, tapV_apply, cellY_apply, cellX_apply, w24_apply]
  rfl

/-- The stage before the sum over the points, at batch `b`, point `p`, channel `c` and pixel `(h, w)`, is the point's four
    taps. -/
theorem point_apply (x0 : (⟨S4x720x128x128, .f32⟩ : BufTy).Contents (Elt Ideal)) (x1 : (⟨S4x18x128x128, .f32⟩ : BufTy).Contents (Elt Ideal))
    (b : Fin 4) (p : Fin 9) (c : Fin 80) (h w : Fin 128) :
    Cert.ReferenceIdeal.ReadP.val_main_v140 (F := Ideal) x0 x1 (ix4 b p c (pos h w)) = taps x0 x1 b p c h w := by
  unfold ReadP.val_main_v140
  rw [addf_apply]
  unfold ReadP.val_main_v111
  rw [addf_apply]
  unfold ReadP.val_main_v82
  rw [addf_apply]
  unfold ReadP.val_main_v53
  rw [addf_apply, tap00_apply, tap01_apply, tap10_apply, tap11_apply, ReadP.val_main_v12_apply,
    ReadP.val_main_cst_apply, Ideal.ofBits_def]
  rfl

end Cert.ReferenceIdeal.Point

end
-- ==== Proof.RefRead.lean ====
/-
  The reference's result, read operation by operation at an index, is the four-tap form of its three arguments: the last
  operations add the bias of the channel to the sum over the nine points (onto a zero) of the stage that holds one point's
  four taps, the channel axis broadcast and the image flattened to `128·h + w` in between.
-/
import proofs.«154423_j13048110645917_2_alg».proof.Proof.Spec
import proofs.«154423_j13048110645917_2_alg».proof.Proof.RefReadP
import proofs.«154423_j13048110645917_2_alg».proof.Proof.RefPoint

noncomputable section

namespace Cert.ReferenceIdeal.Taps

open Cert.ReferenceIdeal Idealize.ShloMosaic Idealize.ShloMosaic.ValueIdx
open Cert.Sampling

/-- The entry of the summed stage that output index `(b, c, h, w)` reads for point `k`: batch `b`, point `k`, channel `c`,
    flattened pixel `128·h + w`. -/
theorem idx_point (b : Fin 4) (c : Fin 80) (h w : Fin 128) (k : Fin 9) :
    ReadP.idx_main_v141 (ReadP.idx_main_v142 (ix4 b c h w)) k = ix4 b k c (Point.pos h w) := by
  have hb := b.isLt; have hc := c.isLt; have hh := h.isLt; have hw := w.isLt
  funext a
  refine Fin.ext ?_
  match a with
  | ⟨0, _⟩ => show (((b.val * 80 + c.val) * 128 + h.val) * 128 + w.val) / 1310720 = b.val; omega
  | ⟨1, _⟩ => rfl
  | ⟨2, _⟩ => show (((b.val * 80 + c.val) * 128 + h.val) * 128 + w.val) / 16384 % 80 = c.val; omega
  | ⟨3, _⟩ => show (((b.val * 80 + c.val) * 128 + h.val) * 128 + w.val) % 16384 = 128 * h.val + w.val; omega

/-- The entry of the bias that output index `(b, c, h, w)` reads: channel `c`. -/
theorem idx_bias (b : Fin 4) (c : Fin 80) (h w : Fin 128) :
    ReadP.idx_main_v143 (ReadP.idx_main_v144 (ix4 b c h w)) = ix1 c := by
  funext a
  refine Fin.ext ?_
  match a with
  | ⟨0, _⟩ => rfl

/-- The reference's last stage is `GR` of the three arguments. -/
theorem ref_eq_GR (x0 : (⟨S4x720x128x128, .f32⟩ : BufTy).Contents (Elt Ideal)) (x1 : (⟨S4x18x128x128, .f32⟩ : BufTy).Contents (Elt Ideal))
    (x2 : (⟨S80, .f32⟩ : BufTy).Contents (Elt Ideal)) :
    Cert.ReferenceIdeal.ReadP.val_main_v145 (F := Ideal) x0 x1 x2 = GR x0 x1 x2 := by
  funext i
  obtain ⟨b, c, h, w, rfl⟩ : ∃ (b : Fin 4) (c : Fin 80) (h w : Fin 128), i = ix4 b c h w := ⟨i 0, i 1, i 2, i 3, eq_ix4 i⟩
  rw [ReadP.val_main_v145_apply, ReadP.val_main_v142_apply, ReadP.val_main_v141_apply, ReadP.val_main_v144_apply,
    ReadP.val_main_v143_apply, idx_bias]
  simp only [idx_point, Point.point_apply]
  rfl

end Cert.ReferenceIdeal.Taps

end
-- ==== Proof.Algebra.lean ====
/-
  The two forms of the result agree on finite inputs.

  Fix an output pixel and a sampling point. Write y0, x0 for the two 32-bit cell numbers, b0 = 1 − frac y, b1 = frac y,
  a0 = 1 − frac x, a1 = frac x. The weight of line n is a sum of two selections, each of which is nonzero on at most one
  line of the 128, so a weighted sum over a line collapses to (at most) two entries: the one at the cell number and the
  one at its successor, each present only if that 32-bit number, read unsigned, is below 128. Doing this for the columns
  and then for the rows turns the double sum into four entries times the four products of weights, each entry present
  exactly when both of its line numbers are below 128. On the other side a tap is the entry at the clamped position times
  its weight times the 0/1 indicator that the unclamped position is inside; when the indicator is 1 clamping does nothing,
  when it is 0 the tap vanishes. Distributivity is used only on real numbers.
-/
import proofs.«154423_j13048110645917_2_alg».proof.Proof.Spec
import Mathlib.Tactic

noncomputable section

namespace Cert.Sampling

open Idealize.ShloMosaic Idealize.ShloMosaic.ValueIdx

/-! ## Real entries -/

/-- An extended real that is a real number. -/
def IsR (z : EReal) : Prop := ∃ r : ℝ, z = (r : EReal)

theorem IsR.add {a b : EReal} (ha : IsR a) (hb : IsR b) : IsR (a + b) := by
  obtain ⟨a, rfl⟩ := ha; obtain ⟨b, rfl⟩ := hb; exact ⟨a + b, (EReal.coe_add a b).symm⟩

theorem IsR.mul {a b : EReal} (ha : IsR a) (hb : IsR b) : IsR (a * b) := by
  obtain ⟨a, rfl⟩ := ha; obtain ⟨b, rfl⟩ := hb; exact ⟨a * b, (EReal.coe_mul a b).symm⟩

theorem IsR.sub {a b : EReal} (ha : IsR a) (hb : IsR b) : IsR (a - b) := by
  obtain ⟨a, rfl⟩ := ha; obtain ⟨b, rfl⟩ := hb; exact ⟨a - b, (EReal.coe_sub a b).symm⟩

theorem isR_zero : IsR 0 := ⟨0, EReal.coe_zero.symm⟩

/-- The word of 0 is 0. -/
theorem zero_eq : zero = 0 := by simp [zero, Ideal.ofBits, Ideal.ieee]

/-- The word of 1 is 1. -/
theorem one_eq : one = 1 := by simp [one, Ideal.ofBits, Ideal.ieee, -EReal.coe_mul]; norm_num

theorem isR_one : IsR one := ⟨1, by rw [one_eq, EReal.coe_one]⟩

/-- The fractional part of a real number is a real number. -/
theorem isR_frac {z : EReal} (hz : IsR z) : IsR (frac z) := by
  obtain ⟨r, rfl⟩ := hz
  exact IsR.sub ⟨r, rfl⟩ ⟨((Int.floor r : ℤ) : ℝ), rfl⟩

/-- A selection between a real number and the word of 0 is a real number. -/
theorem isR_select (c : BitVec 1) {w : EReal} (hw : IsR w) : IsR (Scalar.select c w zero) := by
  unfold Scalar.select
  split
  · exact hw
  · rw [zero_eq]; exact isR_zero

/-- Distributivity on real numbers. -/
theorem real_distrib {a b c : EReal} (ha : IsR a) (hb : IsR b) (hc : IsR c) : a * (b + c) = a * b + a * c := by
  obtain ⟨a, rfl⟩ := ha; obtain ⟨b, rfl⟩ := hb; obtain ⟨c, rfl⟩ := hc
  rw [← EReal.coe_add, ← EReal.coe_mul, ← EReal.coe_mul, ← EReal.coe_mul, ← EReal.coe_add, mul_add]

/-! ## 32-bit line numbers -/

/-- Line n of 128 equals the 32-bit number a exactly when a, read unsigned, is n. -/
theorem cmpi_eq_line (n : Fin 128) (a : BitVec 32) :
    IntOp.cmpi .eq (BitVec.ofNat 32 n.val) a = 1 ↔ a.toNat = n.val := by
  have hn : n.val < 2 ^ 32 := lt_trans n.isLt (by norm_num)
  show BitVec.ofBool (BitVec.ofNat 32 n.val == a) = 1 ↔ a.toNat = n.val
  constructor
  · intro h
    have hb : (BitVec.ofNat 32 n.val == a) = true := by
      cases hb : (BitVec.ofNat 32 n.val == a) with
      | true => rfl
      | false => rw [hb] at h; exact absurd h (by decide)
    rw [← eq_of_beq hb, BitVec.toNat_ofNat, Nat.mod_eq_of_lt hn]
  · intro h
    have e : BitVec.ofNat 32 n.val = a := by
      apply BitVec.eq_of_toNat_eq
      rw [BitVec.toNat_ofNat, Nat.mod_eq_of_lt hn, h]
    rw [e]
    simp

/-- A 32-bit number, read signed, lies in [0, 128) exactly when, read unsigned, it is below 128. -/
theorem inside_iff (a : BitVec 32) : ((0#32).sle a = true ∧ a.slt 128#32 = true) ↔ a.toNat < 128 := by
  have h2 := a.isLt
  simp only [BitVec.sle, BitVec.slt, decide_eq_true_eq, BitVec.toInt_eq_toNat_cond]
  simp only [BitVec.toNat_ofNat]
  norm_num
  split <;> omega

/-- A corner is inside the image exactly when both of its line numbers, read unsigned, are below 128. -/
theorem valid_eq (yi xi : BitVec 32) : valid yi xi = if yi.toNat < 128 ∧ xi.toNat < 128 then 1#1 else 0#1 := by
  show BitVec.ofBool ((0#32).sle yi) &&& BitVec.ofBool (yi.slt 128#32) &&& BitVec.ofBool ((0#32).sle xi)
      &&& BitVec.ofBool (xi.slt 128#32) = _
  have key : ∀ p1 p2 p3 p4 : Bool,
      BitVec.ofBool p1 &&& BitVec.ofBool p2 &&& BitVec.ofBool p3 &&& BitVec.ofBool p4
        = if (p1 = true ∧ p2 = true) ∧ (p3 = true ∧ p4 = true) then 1#1 else 0#1 := by decide
  rw [key]
  simp only [inside_iff]

/-- Clamping does nothing to a line number below 128. -/
theorem clip_eq {a : BitVec 32} (h : a.toNat < 128) : clip a = a := by
  have h0 : a.slt 0#32 = false := by
    simp only [BitVec.slt, BitVec.toInt_eq_toNat_cond, BitVec.toNat_ofNat, decide_eq_false_iff_not]
    norm_num
    split <;> omega
  have h1 : (127#32).slt a = false := by
    simp only [BitVec.slt, BitVec.toInt_eq_toNat_cond, BitVec.toNat_ofNat, decide_eq_false_iff_not]
    norm_num
    split <;> omega
  unfold clip IntOp.minsi IntOp.maxsi
  rw [h0]
  simp [h1]

/-! ## A weighted sum over a line collapses -/

/-- The entry of a line at a 32-bit position; nothing if the position, read unsigned, is off the line. -/
def pick (g : Fin 128 → EReal) (a : BitVec 32) : EReal := if h : a.toNat < 128 then g ⟨a.toNat, h⟩ else 0

theorem isR_pick {g : Fin 128 → EReal} (hg : ∀ v, IsR (g v)) (a : BitVec 32) : IsR (pick g a) := by
  unfold pick
  split
  · exact hg _
  · exact isR_zero

theorem pick_lin (f g : Fin 128 → EReal) (a0 a1 : EReal) (a : BitVec 32) :
    pick (fun r => f r * a0 + g r * a1) a = pick f a * a0 + pick g a * a1 := by
  unfold pick
  split
  · rfl
  · simp

/-- A selection on line v against the 32-bit number a is a test of a, read unsigned, against v. -/
theorem select_line (v : Fin 128) (a : BitVec 32) (wgt : EReal) :
    Scalar.select (IntOp.cmpi .eq (BitVec.ofNat 32 v.val) a) wgt zero = if a.toNat = v.val then wgt else 0 := by
  unfold Scalar.select
  by_cases h : a.toNat = v.val
  · rw [if_pos ((cmpi_eq_line v a).2 h), if_pos h]
  · rw [if_neg (fun e => h ((cmpi_eq_line v a).1 e)), if_neg h, zero_eq]

/-- One selection: the sum keeps the entry at the selected position. -/
theorem sum_select (g : Fin 128 → EReal) (a : BitVec 32) (wgt : EReal) :
    ∑ v : Fin 128, g v * Scalar.select (IntOp.cmpi .eq (BitVec.ofNat 32 v.val) a) wgt zero = pick g a * wgt := by
  simp only [select_line]
  unfold pick
  split
  · rename_i h
    rw [Finset.sum_eq_single (⟨a.toNat, h⟩ : Fin 128)]
    · rw [if_pos rfl]
    · intro v _ hv
      rw [if_neg (fun e => hv (Fin.ext e.symm)), mul_zero]
    · intro hh
      exact absurd (Finset.mem_univ _) hh
  · rename_i h
    rw [zero_mul]
    apply Finset.sum_eq_zero
    intro v _
    have hv := v.isLt
    rw [if_neg (by omega), mul_zero]

/-- The two selections of a line weight. -/
theorem sum_two (g : Fin 128 → EReal) (hg : ∀ v, IsR (g v)) (a : BitVec 32) {w0 w1 : EReal} (h0 : IsR w0) (h1 : IsR w1) :
    ∑ v : Fin 128, g v * (Scalar.select (IntOp.cmpi .eq (BitVec.ofNat 32 v.val) a) w0 zero
        + Scalar.select (IntOp.cmpi .eq (BitVec.ofNat 32 v.val) (IntOp.addi a 1#32)) w1 zero)
      = pick g a * w0 + pick g (IntOp.addi a 1#32) * w1 := by
  rw [← sum_select g a w0, ← sum_select g (IntOp.addi a 1#32) w1, ← Finset.sum_add_distrib]
  exact Finset.sum_congr rfl fun v _ => real_distrib (hg v) (isR_select _ h0) (isR_select _ h1)

/-- A sum over a line weighted by the two-hot weights of a coordinate. -/
theorem sum_hot (g : Fin 128 → EReal) (hg : ∀ v, IsR (g v)) {z : EReal} (hz : IsR z) :
    ∑ v : Fin 128, g v * hot z v
      = pick g (cell z) * (one - frac z) + pick g (IntOp.addi (cell z) 1#32) * frac z :=
  sum_two g hg (cell z) (IsR.sub isR_one (isR_frac hz)) (isR_frac hz)

/-! ## One tap -/

/-- The entry at the clamped corner times (weight times inside-indicator) is the entry at the corner, nothing if the corner
    is outside, times the weight. -/
theorem corner_mul (X : Fin 128 → Fin 128 → EReal) (yi xi : BitVec 32) (wt : EReal) :
    X ⟨(clip yi).toNat % 128, Nat.mod_lt _ (by norm_num)⟩ ⟨(clip xi).toNat % 128, Nat.mod_lt _ (by norm_num)⟩
        * (wt * FloatOps.uitofp (F := Ideal) .f32 (valid yi xi))
      = pick (fun r => pick (X r) xi) yi * wt := by
  have e1 : FloatOps.uitofp (F := Ideal) .f32 (1#1 : BitVec 1) = 1 := by
    show (((1#1 : BitVec 1).toNat : ℝ) : EReal) = 1
    simp
  have e0 : FloatOps.uitofp (F := Ideal) .f32 (0#1 : BitVec 1) = 0 := by
    show (((0#1 : BitVec 1).toNat : ℝ) : EReal) = 0
    simp
  rw [valid_eq]
  unfold pick
  by_cases hy : yi.toNat < 128
  · by_cases hx : xi.toNat < 128
    · rw [if_pos ⟨hy, hx⟩, e1, mul_one, dif_pos hy]
      beta_reduce
      rw [dif_pos hx]
      simp only [clip_eq hy, clip_eq hx, Nat.mod_eq_of_lt hy, Nat.mod_eq_of_lt hx]
    · rw [if_neg (fun e => hx e.2), e0, mul_zero, mul_zero, dif_pos hy]
      beta_reduce
      rw [dif_neg hx, zero_mul]
  · rw [if_neg (fun e => hy e.1), e0, mul_zero, mul_zero, dif_neg hy, zero_mul]

/-- One tap in terms of the entry at its corner. -/
theorem tap_eq (x : FVec Ideal SX .f32) (loc : FVec Ideal SLoc .f32) (b : Fin 4) (p : Fin 9) (c : Fin 80) (h w : Fin 128)
    (oy ox : BitVec 32) (wt : EReal) :
    tap x loc b p c h w oy ox wt
      = pick (fun r => pick (fun v => x (ix4 b (chan p c) r v)) (IntOp.addi (cell (xAt loc b p h w)) ox))
          (IntOp.addi (cell (yAt loc b p h w)) oy) * wt :=
  corner_mul (fun r v => x (ix4 b (chan p c) r v)) _ _ wt

/-! ## One point -/

/-- The four weighted entries, added one by one onto the word of 0, regrouped by rows. -/
theorem four_terms {A B C D a0 a1 b0 b1 : EReal} (hA : IsR A) (hB : IsR B) (hC : IsR C) (hD : IsR D)
    (ha0 : IsR a0) (ha1 : IsR a1) (hb0 : IsR b0) (hb1 : IsR b1) :
    (((zero + A * (b0 * a0)) + B * (b0 * a1)) + C * (b1 * a0)) + D * (b1 * a1)
      = (A * a0 + B * a1) * b0 + (C * a0 + D * a1) * b1 := by
  obtain ⟨A, rfl⟩ := hA; obtain ⟨B, rfl⟩ := hB; obtain ⟨C, rfl⟩ := hC; obtain ⟨D, rfl⟩ := hD
  obtain ⟨a0, rfl⟩ := ha0; obtain ⟨a1, rfl⟩ := ha1; obtain ⟨b0, rfl⟩ := hb0; obtain ⟨b1, rfl⟩ := hb1
  rw [zero_eq]
  norm_cast
  ring

/-- The four taps of a point are its sample. -/
theorem taps_eq_sample (x : FVec Ideal SX .f32) (loc : FVec Ideal SLoc .f32)
    (hx : ∀ i, IsR (x i)) (hl : ∀ i, IsR (loc i)) (b : Fin 4) (p : Fin 9) (c : Fin 80) (h w : Fin 128) :
    taps x loc b p c h w = sample x loc b p c h w := by
  have hX : ∀ r v, IsR (x (ix4 b (chan p c) r v)) := fun r v => hx _
  have hy : IsR (yAt loc b p h w) := hl _
  have hxx : IsR (xAt loc b p h w) := hl _
  have add0 : ∀ a : BitVec 32, IntOp.addi a 0#32 = a := fun a => by unfold IntOp.addi; simp
  have inner : ∀ r : Fin 128, ∑ v : Fin 128, x (ix4 b (chan p c) r v) * hot (xAt loc b p h w) v
      = pick (fun v => x (ix4 b (chan p c) r v)) (cell (xAt loc b p h w)) * (one - frac (xAt loc b p h w))
        + pick (fun v => x (ix4 b (chan p c) r v)) (IntOp.addi (cell (xAt loc b p h w)) 1#32) * frac (xAt loc b p h w) :=
    fun r => sum_hot (fun v => x (ix4 b (chan p c) r v)) (hX r) hxx
  unfold sample
  simp only [inner]
  rw [sum_hot _ (fun r => IsR.add (IsR.mul (isR_pick (hX r) _) (IsR.sub isR_one (isR_frac hxx)))
    (IsR.mul (isR_pick (hX r) _) (isR_frac hxx))) hy]
  rw [pick_lin, pick_lin]
  unfold taps
  rw [tap_eq, tap_eq, tap_eq, tap_eq]
  simp only [add0]
  exact four_terms (isR_pick (fun r => isR_pick (hX r) _) _) (isR_pick (fun r => isR_pick (hX r) _) _)
    (isR_pick (fun r => isR_pick (hX r) _) _) (isR_pick (fun r => isR_pick (hX r) _) _)
    (IsR.sub isR_one (isR_frac hxx)) (isR_frac hxx) (IsR.sub isR_one (isR_frac hy)) (isR_frac hy)

/-- On arrays of real numbers the four-tap form is the selection form. -/
theorem GR_eq_G (x : FVec Ideal SX .f32) (loc : FVec Ideal SLoc .f32) (bias : FVec Ideal SBias .f32)
    (hx : ∀ i, ∃ r : ℝ, x i = (r : EReal)) (hl : ∀ i, ∃ r : ℝ, loc i = (r : EReal)) (hb : ∀ i, ∃ r : ℝ, bias i = (r : EReal)) :
    GR x loc bias = G x loc bias := by
  funext i
  show (zero + ∑ p : Fin 9, taps x loc (i 0) p (i 1) (i 2) (i 3)) + bias (ix1 (i 1))
    = bias (ix1 (i 1)) + ∑ p : Fin 9, sample x loc (i 0) p (i 1) (i 2) (i 3)
  rw [zero_eq, zero_add, add_comm]
  congr 1
  exact Finset.sum_congr rfl fun p _ => taps_eq_sample x loc hx hl (i 0) p (i 1) (i 2) (i 3)

end Cert.Sampling

end
-- ==== Proof.LibPlainDot.lean ====
/-
  A plain matrix product read at an entry, at the ideal instance.

  For dimension numbers that contract the left operand's columns with the right operand's rows and have no batch
  axis (`DotDims.plain m k n`), both the kernel's product into a zero accumulator and the host's `dot_general` are,
  at entry `(p, j)`, the sum over `q < k` of `l (p, q) · r (q, j)` on the extended reals.  Stated for any record
  equal to the plain one, so that each printed record (a `def` of its own) can be cited by `rfl`.
-/
import Idealize.ShloMosaic.Lib.ValueIdx
import Idealize.ShloMosaic.PureOps.Ideal.Laws

noncomputable section

namespace Cert.PlainDot

open Idealize.ShloMosaic Idealize.ShloMosaic.ValueIdx

variable {m k n : Nat} {φ₁ φ₂ : FTy}

/-- The sum over the one contraction axis of a plain product, re-indexed by `Fin k`, with the operand indices at an
    output entry `(p, j)` written by coordinates. -/
theorem sum_plain (l : (⟨2, ![m, k]⟩ : Shape).Idx → EReal) (r : (⟨2, ![k, n]⟩ : Shape).Idx → EReal) (p : Fin m) (j : Fin n) :
    (∑ q : (DotDims.plain m k n).contr.Idx, l ((DotDims.plain m k n).lhsIdx (ix2 p j) q) * r ((DotDims.plain m k n).rhsIdx (ix2 p j) q))
      = ∑ q : Fin k, l (ix2 p q) * r (ix2 q j) := by
  rw [← Equiv.sum_comp (contrEquiv1 (DotDims.plain m k n) k rfl rfl).symm]
  refine Finset.sum_congr rfl fun q _ => ?_
  have hq := contrEquiv1_symm_val (DotDims.plain m k n) k rfl rfl q
  have el : (DotDims.plain m k n).lhsIdx (ix2 p j) ((contrEquiv1 (DotDims.plain m k n) k rfl rfl).symm q) = ix2 p q :=
    funext fun a => Fin.ext (by
      match a with
      | ⟨0, _⟩ => rfl
      | ⟨1, _⟩ => exact ((DotDims.plain m k n).lhsIdx_val_of_single rfl _ _).trans hq)
  have er : (DotDims.plain m k n).rhsIdx (ix2 p j) ((contrEquiv1 (DotDims.plain m k n) k rfl rfl).symm q) = ix2 q j :=
    funext fun a => Fin.ext (by
      match a with
      | ⟨0, _⟩ => exact ((DotDims.plain m k n).rhsIdx_val_of_single rfl _ _).trans hq
      | ⟨1, _⟩ => rfl)
  rw [el, er]

/-- The kernel's product into the zero splat, at entry `(p, j)`. -/
theorem matmul_zero_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    matmul D prec l r (constant (F := Ideal) ⟨2, ![m, n]⟩ .f32 0x00000000#32) (ix2 p j) = ∑ q : Fin k, l (ix2 p q) * r (ix2 q j) := by
  subst hD
  simp only [matmul]
  rw [Ideal.matmul_constant_zero_apply]
  exact sum_plain l r p j

/-- The host's `dot_general`, at entry `(p, j)`. -/
theorem dotGeneral_ix2 (D : DotDims ⟨2, ![m, k]⟩ ⟨2, ![k, n]⟩ ⟨2, ![m, n]⟩) (hD : D = DotDims.plain m k n)
    (prec : Option ContractPrecision) (l : FVec Ideal ⟨2, ![m, k]⟩ φ₁) (r : FVec Ideal ⟨2, ![k, n]⟩ φ₂) (p : Fin m) (j : Fin n) :
    Host.dotGeneral D prec l r (ix2 p j) = ∑ q : Fin k, l (ix2 p q) * r (ix2 q j) := by
  subst hD
  simp only [Host.dotGeneral]
  rw [Ideal.dotGeneral_apply]
  exact sum_plain l r p j

end Cert.PlainDot

end
-- ==== Proof.LibRowBroadcast.lean ====
/-
  A row `[1, b]` broadcast down the rows of `[a, b]`, read at an index written by coordinates: the counterpart, for a
  bias row added to every row of a matrix, of a column `[a, 1]` broadcast along the rows. General lemma: any element
  type, any extents.
-/
import Idealize.ShloMosaic.Lib.Pipeline.Value
import Idealize.ShloMosaic.Lib.ValueIdx

namespace Cert.LibRowBroadcast

open Idealize.ShloMosaic Idealize.ShloMosaic.ValueIdx

/-- A row `[1, b]` broadcast down the rows of `[a, b]` reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

end Cert.LibRowBroadcast
-- ==== Proof.KernelTrip.lean ====
/-
  The kernel body's arithmetic at an entry, with no memory in sight: what one trip of the row loop adds to the carried
  value, and what the two stores' payloads hold.

  The carried value has shape `[80, 2048]`: channel by flattened block pixel `q = 128·h + w`. Trip `k` reads rows
  `8k … 8k + 7` of the channel block (`v53 : [1, 80, 8, 128]`); with the column weights `hot (column coordinate) ·` and the row
  weights `hot (row coordinate) ·` it adds, over its eight rows, the row's weighted column sum times the row's weight.
-/
import Idealize.ShloMosaic.Lib.ValueLayout
import proofs.«154423_j13048110645917_2_alg».proof.Proof.Spec
import proofs.«154423_j13048110645917_2_alg».proof.Proof.LibPlainDot
import proofs.«154423_j13048110645917_2_alg».proof.Proof.LibRowBroadcast
import proofs.«154423_j13048110645917_2_alg».proof.Proof.Gen.KernelIdeal.Skeleton

noncomputable section

namespace Cert.KernelIdeal.Trip

open Cert.KernelIdeal Cert.KernelIdeal.Gen Idealize.ShloMosaic Idealize.ShloMosaic.ValueIdx
open Cert.Sampling

/-- The flattened block pixel `128·h + w`. -/
def pix (h : Fin 16) (w : Fin 128) : Fin 2048 := ⟨128 * h.val + w.val, by omega⟩

/-- Row `8k + kk` of the channel block, for trip `k < 16` and `kk < 8`. -/
def rowOf (k : ℕ) (hk : k < 16) (kk : Fin 8) : Fin 128 := ⟨8 * k + kk.val, by omega⟩

/-! ## The pieces -/

/-- A block `[1, 1, 16, 128]` flattened to `[2048]` reads, at pixel `128·h + w`, the block at `(h, w)`. -/
theorem flat_apply {α : Type} (x : S1x1x16x128.Idx → α) (h1 : S1x1x16x128.ShapeCasts S16x128) (h2 : S16x128.ShapeCasts S2048)
    (h : Fin 16) (w : Fin 128) :
    shapeCast S2048 (shapeCast S16x128 x h1) h2 (ix1 (pix h w)) = x (ix4 (0 : Fin 1) (0 : Fin 1) h w) := by
  refine (shapeCast_apply _ h2 _ (ix2 h w) ?_).trans ?_
  · rw [Shape.rowMajor_val_two, Shape.rowMajor_val_one]
    show h.val * 128 + w.val = 128 * h.val + w.val
    omega
  refine shapeCast_apply _ h1 _ (ix4 (0 : Fin 1) (0 : Fin 1) h w) ?_
  rw [Shape.rowMajor_val_four, Shape.rowMajor_val_two]
  show ((0 * 1 + 0) * 16 + h.val) * 128 + w.val = h.val * 128 + w.val
  omega

/-- An integer comparison against a row `[1, 2048]` repeated down `n` rows, at an entry. -/
theorem cmpi_row_apply {n : ℕ} (io : IVec ⟨2, ![n, 2048]⟩ 32) (c : IVec S1x2048 32) (hb : S1x2048.Broadcasts ⟨2, ![n, 2048]⟩)
    (i : Fin n) (q : Fin 2048) :
    cmpi .eq io (broadcastTo ⟨2, ![n, 2048]⟩ c hb) (ix2 i q) = IntOp.cmpi .eq (io (ix2 i q)) (c (ix2 (0 : Fin 1) q)) :=
  congrArg (IntOp.cmpi .eq (io (ix2 i q))) (broadcastTo_1b_ab_apply c hb i q)

/-- The two-hot weight matrix built from a flat vector `xf` of coordinates and a matrix `io` of line numbers:
    at row `i` and pixel `q` it is `1 − frac` where the line number is the cell, plus `frac` where it is the cell plus one. -/
theorem hotmat_apply {n : ℕ} (io : IVec ⟨2, ![n, 2048]⟩ 32) (xf : FVec Ideal S2048 .f32)
    (h2 : S2048.ShapeCasts S1x2048) (hsc : S1x2048.ShapeCasts S1x2048) (hb : S1x2048.Broadcasts ⟨2, ![n, 2048]⟩)
    (i : Fin n) (q : Fin 2048) :
    addf (F := Ideal) (φ := .f32)
        (select (cmpi .eq io (broadcastTo ⟨2, ![n, 2048]⟩ (shapeCast S1x2048 (fptosi 32 (floor xf)) h2) hb))
          (broadcastTo ⟨2, ![n, 2048]⟩ (shapeCast S1x2048 (subf (broadcast S1x2048 (Scalar.ofBits .f32 0x3F800000#32))
              (shapeCast S1x2048 (subf xf (floor xf)) h2)) hsc) hb)
          (broadcast ⟨2, ![n, 2048]⟩ (Scalar.ofBits .f32 0x00000000#32)))
        (select (cmpi .eq io (broadcastTo ⟨2, ![n, 2048]⟩ (addi (shapeCast S1x2048 (fptosi 32 (floor xf)) h2) (broadcast S1x2048 1#32)) hb))
          (broadcastTo ⟨2, ![n, 2048]⟩ (shapeCast S1x2048 (shapeCast S1x2048 (subf xf (floor xf)) h2) hsc) hb)
          (broadcast ⟨2, ![n, 2048]⟩ (Scalar.ofBits .f32 0x00000000#32))) (ix2 i q)
      = Scalar.select (IntOp.cmpi .eq (io (ix2 i q)) (cell (xf (ix1 q)))) (one - frac (xf (ix1 q))) zero
        + Scalar.select (IntOp.cmpi .eq (io (ix2 i q)) (IntOp.addi (cell (xf (ix1 q))) 1#32)) (frac (xf (ix1 q))) zero := by
  have eF : shapeCast S1x2048 (subf xf (floor xf)) h2 (ix2 (0 : Fin 1) q) = frac (xf (ix1 q)) :=
    (shapeCast_a_1a_apply _ h2 (0 : Fin 1) q).trans rfl
  have eC : shapeCast S1x2048 (fptosi 32 (floor xf)) h2 (ix2 (0 : Fin 1) q) = cell (xf (ix1 q)) :=
    (shapeCast_a_1a_apply _ h2 (0 : Fin 1) q).trans rfl
  rw [shapeCast_self, shapeCast_self, addf_apply, select_apply, select_apply, cmpi_row_apply, cmpi_row_apply,
    broadcastTo_1b_ab_apply, broadcastTo_1b_ab_apply, broadcast_apply]
  show Scalar.select (IntOp.cmpi .eq _ (shapeCast S1x2048 (fptosi 32 (floor xf)) h2 (ix2 (0 : Fin 1) q)))
        (one - shapeCast S1x2048 (subf xf (floor xf)) h2 (ix2 (0 : Fin 1) q)) zero
      + Scalar.select (IntOp.cmpi .eq _ (IntOp.addi (shapeCast S1x2048 (fptosi 32 (floor xf)) h2 (ix2 (0 : Fin 1) q)) 1#32))
        (shapeCast S1x2048 (subf xf (floor xf)) h2 (ix2 (0 : Fin 1) q)) zero = _
  rw [eF, eC]

/-- The column-weight matrix at row `v` and pixel `(h, w)`: the weight the column coordinate gives to column `v`. -/
theorem wx_apply (v2 : Vec Ideal S1x1x16x128 .f32) (v : Fin 128) (h : Fin 16) (w : Fin 128) :
    k0_pay13 (F := Ideal) v2 (ix2 v (pix h w)) = hot (v2 (ix4 (0 : Fin 1) (0 : Fin 1) h w)) v := by
  unfold k0_pay13
  refine (truncf_apply (φ := .f32) (ψ := .bf16) _ bitsLt_bf16_f32 _).trans ?_
  refine (hotmat_apply _ _ _ _ _ v (pix h w)).trans ?_
  rw [iota_single_apply, flat_apply]
  rfl

/-- The line number of row `kk` of trip `k`: `8k + kk`, with no wrap. -/
theorem line_eq (k : ℕ) (hk : k < 16) (kk : Fin 8) :
    IntOp.addi (BitVec.ofNat 32 kk.val) (Scalar.muli (Scf.iv 0#32 1#32 k) 8#32) = BitVec.ofNat 32 (8 * k + kk.val) := by
  unfold IntOp.addi Scalar.muli IntOp.muli Scf.iv
  apply BitVec.eq_of_toNat_eq
  simp only [BitVec.toNat_add, BitVec.toNat_mul, BitVec.toNat_ofNat]
  have := kk.isLt
  omega

/-- The row-weight block of trip `k` at its row `kk` and pixel `(h, w)`: the weight the row coordinate gives to row `8k + kk`. -/
theorem wy_apply (v0 : Vec Ideal S1x1x16x128 .f32) (k : Fin k0_t1_loop.trips) (hk : k.val < 16) (kk : Fin 8) (h : Fin 16) (w : Fin 128) :
    k0_pay4 (F := Ideal) (k0_pay10 v0) (k0_pay11 v0) (k0_pay12 v0) 0#32 1#32 k (ix2 kk (pix h w))
      = hot (v0 (ix4 (0 : Fin 1) (0 : Fin 1) h w)) (rowOf k.val hk kk) := by
  unfold k0_pay4 k0_pay10 k0_pay11 k0_pay12 k0_pay9 k0_pay8
  refine (hotmat_apply _ _ _ _ _ kk (pix h w)).trans ?_
  rw [flat_apply]
  have e : addi (iota .tc S8x2048 32 [0] iota_S8x2048_d0_w32) (broadcast S8x2048 (Scalar.muli (Scf.iv 0#32 1#32 k.val) 8#32)) (ix2 kk (pix h w))
      = BitVec.ofNat 32 (8 * k.val + kk.val) := by
    show IntOp.addi (iota .tc S8x2048 32 [0] iota_S8x2048_d0_w32 (ix2 kk (pix h w))) (Scalar.muli (Scf.iv 0#32 1#32 k.val) 8#32) = _
    rw [iota_single_apply]
    exact line_eq k.val hk kk
  rw [e]
  rfl

/-- The product of the trip's rows with a weight matrix, at channel `ch`, row `kk`, pixel `q`: the row's weighted column sum. -/
theorem inter_apply (W : FVec Ideal S128x2048 .bf16) (v53 : Vec Ideal S1x80x8x128 .f32) (ch : Fin 80) (kk : Fin 8) (q : Fin 2048) :
    k0_pay3 (F := Ideal) W v53 (ix3 ch kk q) = ∑ v : Fin 128, v53 (ix4 (0 : Fin 1) ch kk v) * W (ix2 v q) := by
  unfold k0_pay3
  refine (shapeCast_apply _ _ _ (ix2 (⟨8 * ch.val + kk.val, by omega⟩ : Fin 640) q) ?_).trans ?_
  · rw [Shape.rowMajor_val_two, Shape.rowMajor_val_three]
    show (8 * ch.val + kk.val) * 2048 + q.val = (ch.val * 8 + kk.val) * 2048 + q.val
    omega
  refine (Cert.PlainDot.matmul_zero_ix2 _ rfl none _ W _ q).trans ?_
  refine Finset.sum_congr rfl fun v _ => ?_
  congr 1
  refine (truncf_apply (φ := .f32) (ψ := .bf16) _ bitsLt_bf16_f32 _).trans ?_
  refine (shapeCast_apply _ _ _ (ix3 ch kk v) ?_).trans ?_
  · rw [Shape.rowMajor_val_three, Shape.rowMajor_val_two]
    show (ch.val * 8 + kk.val) * 128 + v.val = (8 * ch.val + kk.val) * 128 + v.val
    omega
  exact shapeCast_1abc_abc_apply _ _ ch kk v

/-- Row `o` of the products, cut out and flattened, times row `o` of the row weights, cut out and repeated over the channels. -/
theorem slice_term (o : ℕ) (P : FVec Ideal S80x8x2048 .f32) (Wy : FVec Ideal S8x2048 .f32)
    (hs : S80x8x2048.Slices ![0, o, 0] S80x1x2048) (hc : S80x1x2048.ShapeCasts S80x2048)
    (hs' : S8x2048.Slices ![o, 0] S1x2048) (h1 : S1x2048.ShapeCasts S2048) (h2 : S2048.ShapeCasts S1x2048)
    (hb : S1x2048.Broadcasts S80x2048) (ch : Fin 80) (q : Fin 2048) (kk : Fin 8) (hkk : kk.val = o) :
    mulf (shapeCast S80x2048 (extractStridedSlice S80x1x2048 ![0, o, 0] P hs) hc)
        (broadcastTo S80x2048 (shapeCast S1x2048 (shapeCast S2048 (extractStridedSlice S1x2048 ![o, 0] Wy hs') h1) h2) hb) (ix2 ch q)
      = P (ix3 ch kk q) * Wy (ix2 kk q) := by
  rw [mulf_apply]
  congr 1
  · refine (shapeCast_apply _ hc _ (ix3 ch (0 : Fin 1) q) ?_).trans ?_
    · rw [Shape.rowMajor_val_three, Shape.rowMajor_val_two]
      show (ch.val * 1 + 0) * 2048 + q.val = ch.val * 2048 + q.val
      omega
    · exact slice3_axis1_apply o P hs ch (0 : Fin 1) q kk (by simpa using hkk)
  · refine (broadcastTo_1b_ab_apply _ hb ch q).trans ?_
    refine (shapeCast_a_1a_apply _ h2 (0 : Fin 1) q).trans ?_
    refine (shapeCast_1a_a_apply _ h1 q).trans ?_
    exact slice2_axis0_apply o Wy hs' (0 : Fin 1) q kk (by simpa using hkk)

/-! ## One trip -/

/-- ONE TRIP at an entry: the carried value plus, over the trip's eight rows, the weighted column sum times the row weight.
    `v0` is the block of row coordinates, `v2` the block of column coordinates, `v53` the trip's eight rows.
    The eight products are read slice by slice, the two weight matrices and the matrix product at their entries, and the
    chain `((0 + t₀) + t₁) + … + t₇` is the sum over the eight rows. -/
theorem trip_apply (v0 v2 : Vec Ideal S1x1x16x128 .f32) (v53 : Vec Ideal S1x80x8x128 .f32) (k : Fin k0_t1_loop.trips) (hk : k.val < 16)
    (acc : FVec Ideal S80x2048 .f32) (ch : Fin 80) (h : Fin 16) (w : Fin 128) :
    k0_pay15 (F := Ideal) acc (k0_pay3 (k0_pay13 v2) v53) (k0_pay4 (k0_pay10 v0) (k0_pay11 v0) (k0_pay12 v0) 0#32 1#32 k)
        (k0_pay5 (k0_pay10 v0) (k0_pay11 v0) (k0_pay12 v0) (k0_pay13 v2) 0#32 1#32 k v53) (k0_pay6 (k0_pay13 v2) v53)
        (k0_pay7 (k0_pay10 v0) (k0_pay11 v0) (k0_pay12 v0) 0#32 1#32 k) (ix2 ch (pix h w))
      = acc (ix2 ch (pix h w))
        + ∑ kk : Fin 8, (∑ v : Fin 128, v53 (ix4 (0 : Fin 1) ch kk v) * hot (v2 (ix4 (0 : Fin 1) (0 : Fin 1) h w)) v)
            * hot (v0 (ix4 (0 : Fin 1) (0 : Fin 1) h w)) (rowOf k.val hk kk) := by
  unfold k0_pay15 k0_pay5 k0_pay6 k0_pay7
  generalize hP : k0_pay3 (k0_pay13 v2) v53 = P
  generalize hW : k0_pay4 (k0_pay10 v0) (k0_pay11 v0) (k0_pay12 v0) 0#32 1#32 k = Wy
  simp only [addf_apply]
  rw [slice_term 0 P Wy _ _ _ _ _ _ ch (pix h w) (0 : Fin 8) rfl, slice_term 1 P Wy _ _ _ _ _ _ ch (pix h w) (1 : Fin 8) rfl,
    slice_term 2 P Wy _ _ _ _ _ _ ch (pix h w) (2 : Fin 8) rfl, slice_term 3 P Wy _ _ _ _ _ _ ch (pix h w) (3 : Fin 8) rfl,
    slice_term 4 P Wy _ _ _ _ _ _ ch (pix h w) (4 : Fin 8) rfl, slice_term 5 P Wy _ _ _ _ _ _ ch (pix h w) (5 : Fin 8) rfl,
    slice_term 6 P Wy _ _ _ _ _ _ ch (pix h w) (6 : Fin 8) rfl, slice_term 7 P Wy _ _ _ _ _ _ ch (pix h w) (7 : Fin 8) rfl,
    broadcast_apply]
  subst hP hW
  have hz : (FloatOps.ofBits FTy.f32 0#32 : Ideal .f32) = 0 := Ideal.ofBits_zero_f32
  simp only [inter_apply, wx_apply, wy_apply v0 k hk]
  rw [Fin.sum_univ_eight, hz, zero_add]

/-- The loop starts from zero. -/
theorem init_apply (j : S80x2048.Idx) : k0_pay14 (F := Ideal) j = 0 := by
  unfold k0_pay14
  exact Ideal.ofBits_zero_f32

/-- The first store of a group's first point: the channel's bias at every pixel of the block. -/
theorem bias_apply (v50 : Vec Ideal S80 .f32) (ch : Fin 80) (h : Fin 16) (w : Fin 128) :
    k0_pay1 (F := Ideal) v50 (ix4 (0 : Fin 1) ch h w) = v50 (ix1 ch) := by
  unfold k0_pay1
  -- drop the leading unit axis, read the broadcast at its one column, undo the two casts of the bias vector
  refine (shapeCast_abc_1abc_apply _ _ (0 : Fin 1) ch h w).trans ?_
  refine (broadcastTo_apply _ _ (ix3 ch h w) (ix3 ch (0 : Fin 1) (0 : Fin 1)) (fun a => ?_)).trans ?_
  · match a with
    | ⟨0, _⟩ => rfl
    | ⟨1, _⟩ => rfl
    | ⟨2, _⟩ => rfl
  rw [shapeCast_self]
  refine shapeCast_apply _ _ _ (ix1 ch) ?_
  rw [Shape.rowMajor_val_one, Shape.rowMajor_val_three]
  show ch.val = (ch.val * 1 + 0) * 1 + 0
  omega

/-- The last store of every point: what the block held plus the loop's result. -/
theorem accum_apply (v39 : FVec Ideal S80x2048 .f32) (v43 : Vec Ideal S1x80x16x128 .f32) (ch : Fin 80) (h : Fin 16) (w : Fin 128) :
    k0_pay2 (F := Ideal) v39 v43 (ix4 (0 : Fin 1) ch h w) = v43 (ix4 (0 : Fin 1) ch h w) + v39 (ix2 ch (pix h w)) := by
  unfold k0_pay2
  refine (shapeCast_abc_1abc_apply _ _ (0 : Fin 1) ch h w).trans ?_
  rw [addf_apply]
  congr 1
  · exact shapeCast_1abc_abc_apply _ _ ch h w
  · -- the pixel (h, w) of channel ch has the same row-major position in [80, 2048] and in [80, 16, 128]
    refine shapeCast_apply _ _ _ (ix2 ch (pix h w)) ?_
    rw [Shape.rowMajor_val_two, Shape.rowMajor_val_three]
    show ch.val * 2048 + (128 * h.val + w.val) = (ch.val * 16 + h.val) * 128 + w.val
    omega

end Cert.KernelIdeal.Trip

end
-- ==== Proof.LibSumRegroup.lean ====
/-
  Regrouping a finite sum over a range of naturals.

  A sum over `Fin (a * b)` is a double sum: every index below `a * b` is `p * b + q` for exactly one `p < a` and
  `q < b` (division with remainder by `b`), so summing block by block, `b` consecutive indices to a block, visits
  every index once. Twice over, a sum over `Fin (a * b * c)` is a triple sum over the indices `(p * b + q) * c + r`.
  This is how a column of `500000` rows is summed tile by tile: `2000` rows to a tile, `125` tiles to a core, `2` cores.

  A sum over `Fin (a + b + c + d)` is the sum of four sums, one over each consecutive part. This is how a product
  against a matrix whose columns are four blocks side by side is the sum of four partial products.

  All statements are for an arbitrary commutative additive monoid.
-/
import Mathlib.Algebra.BigOperators.Fin
import Mathlib.Data.Fintype.BigOperators
import Mathlib.Logic.Equiv.Fin.Basic

namespace Cert.SumRegroup

variable {M : Type*} [AddCommMonoid M]

/-! ## Products of ranges: block by block -/

/-- The index `p * b + q` of the `q`-th entry of the `p`-th block of length `b` lies below `a * b`. -/
theorem mul_add_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- A sum over `Fin (a * b)` taken block by block: `a` blocks of `b` consecutive indices. -/
theorem sum_fin_mul (a b : ℕ) (f : Fin (a * b) → M) :
    ∑ i, f i = ∑ p : Fin a, ∑ q : Fin b, f ⟨p.val * b + q.val, mul_add_lt p q⟩ := by
  rw [← (finProdFinEquiv (m := a) (n := b)).sum_comp f, Fintype.sum_prod_type]
  refine Finset.sum_congr rfl fun p _ => Finset.sum_congr rfl fun q _ => congrArg f (Fin.ext ?_)
  show q.val + b * p.val = p.val * b + q.val
  rw [Nat.add_comm, Nat.mul_comm]

/-- The index `(p * b + q) * c + r` lies below `a * b * c`. -/
theorem mul_add_mul_add_lt {a b c : ℕ} (p : Fin a) (q : Fin b) (r : Fin c) :
    (p.val * b + q.val) * c + r.val < a * b * c :=
  mul_add_lt (⟨p.val * b + q.val, mul_add_lt p q⟩ : Fin (a * b)) r

/-- A sum over `Fin (a * b * c)` taken in `a` groups of `b` blocks of `c` consecutive indices. -/
theorem sum_fin_mul_mul (a b c : ℕ) (f : Fin (a * b * c) → M) :
    ∑ i, f i = ∑ p : Fin a, ∑ q : Fin b, ∑ r : Fin c,
      f ⟨(p.val * b + q.val) * c + r.val, mul_add_mul_add_lt p q r⟩ := by
  rw [sum_fin_mul (a * b) c f,
    sum_fin_mul a b fun t : Fin (a * b) => ∑ r : Fin c, f ⟨t.val * c + r.val, mul_add_lt t r⟩]

/-- A column of `500000` rows summed tile by tile: two halves of `125` tiles of `2000` rows; row
    `(cc * 125 + j) * 2000 + r` is row `r` of tile `j` of half `cc`. -/
theorem sum_rows_by_tile (f : Fin 500000 → M) :
    ∑ e, f e = ∑ cc : Fin 2, ∑ j : Fin 125, ∑ r : Fin 2000,
      f ⟨(cc.val * 125 + j.val) * 2000 + r.val, mul_add_mul_add_lt (a := 2) cc j r⟩ :=
  sum_fin_mul_mul 2 125 2000 f

/-! ## Sums of ranges: part by part -/

/-- A sum over `Fin (a + b + c + d)` is the sum of the sums over its four consecutive parts. -/
theorem sum_fin_add4 (a b c d : ℕ) (g : Fin (a + b + c + d) → M) :
    ∑ i, g i
      = (∑ i : Fin a, g ⟨i.val, by omega⟩) + (∑ i : Fin b, g ⟨a + i.val, by omega⟩)
        + (∑ i : Fin c, g ⟨a + b + i.val, by omega⟩) + (∑ i : Fin d, g ⟨a + b + c + i.val, by omega⟩) := by
  rw [Fin.sum_univ_add, Fin.sum_univ_add, Fin.sum_univ_add]
  rfl

/-- A sum over `384` columns made of four blocks side by side, of widths `128`, `128`, `64`, `64`. -/
theorem sum_cols_by_part (g : Fin 384 → M) :
    ∑ i, g i
      = (∑ i : Fin 128, g ⟨i.val, by omega⟩) + (∑ i : Fin 128, g ⟨128 + i.val, by omega⟩)
        + (∑ i : Fin 64, g ⟨256 + i.val, by omega⟩) + (∑ i : Fin 64, g ⟨320 + i.val, by omega⟩) :=
  sum_fin_add4 128 128 64 64 g

end Cert.SumRegroup
-- ==== Proof.KernelPoint.lean ====
/-
  What one grid point of the kernel leaves in its output block, entry by entry: at the first point of a group the bias
  plus the point's sample, at a later point what the point before left plus the point's sample.
-/
import proofs.«154423_j13048110645917_2_alg».proof.Proof.Spec
import proofs.«154423_j13048110645917_2_alg».proof.Proof.KernelTrip
import proofs.«154423_j13048110645917_2_alg».proof.Proof.LibSumRegroup
import proofs.«154423_j13048110645917_2_alg».proof.Proof.Gen.KernelIdeal.Value

noncomputable section

namespace Cert.KernelIdeal.Point

open Cert.KernelIdeal Cert.KernelIdeal.Gen Idealize.ShloMosaic Idealize.ShloMosaic.TcCoe Idealize.ShloMosaic.ValueIdx Idealize.SL.Sem
open Cert.Sampling

variable {F : FTy → Type} [FloatOps F]

/-! ## The point's pieces, read back

Every store and load of the body goes through a whole staging buffer, so what the point leaves is the payload of its last
store over what the buffer held before it; the loop's result enters as the carried value after the last trip. -/

theorem hz4 : (![0, 0, 0, 0] : Fin 4 → Nat) = fun _ => 0 := funext fun a => by fin_cases a <;> rfl
theorem hz1 : (![0] : Fin 1 → Nat) = fun _ => 0 := funext fun a => by fin_cases a; rfl

/-- Channel 0 of the coordinate block: the row coordinates. -/
abbrev rowsOf (x1 : Vec F S1x2x16x128 .f32) : Vec F S1x1x16x128 .f32 :=
  View.ld x1 (Rect.unit (s := S1x2x16x128) ![0, 0, 0, 0] S1x1x16x128.size inb_S1x2x16x128_S1x1x16x128_0_0_0_0)

/-- Channel 1 of the coordinate block: the column coordinates. -/
abbrev colsOf (x1 : Vec F S1x2x16x128 .f32) : Vec F S1x1x16x128 .f32 :=
  View.ld x1 (Rect.unit (s := S1x2x16x128) ![0, 1, 0, 0] S1x1x16x128.size inb_S1x2x16x128_S1x1x16x128_0_1_0_0)

/-- Rows `8k … 8k + 7` of the channel block: what trip `k` reads. -/
abbrev rows8 (x0 : Vec F S1x80x128x128 .f32) (k : Fin k0_t1_loop.trips) : Vec F S1x80x8x128 .f32 :=
  View.ld x0 (Rect.unit (s := S1x80x128x128) (k0_off1 k) S1x80x8x128.size (k0_off1_inb k))

/-- The carried value before trip `n`, from zero. -/
def carried (c : Dev nD) (i : grid0.Coords) (arg3 : Memref sig .tc .vmem S1x80x128x128 .f32) (harg3 : arg3.IsWhole) (arg4 : Memref sig .tc .vmem S1x2x16x128 .f32) (harg4 : arg4.IsWhole) (arg5 : Memref sig .tc .vmem S80 .f32) (harg5 : arg5.IsWhole) (arg6 : Memref sig .tc .vmem S1x80x16x128 .f32) (harg6 : arg6.IsWhole)
    (x0 : Vec F S1x80x128x128 .f32) (x1 : Vec F S1x2x16x128 .f32) (n : ℕ) : FVec F S80x2048 .f32 :=
  st_k0_t1 Variants.none c none i arg3 harg3 arg4 harg4 arg5 harg5 arg6 harg6 (rowsOf x1) (colsOf x1) (harg3.unread x0) k0_pay14 n

set_option maxHeartbeats 400000 in
/-- A later point leaves what the block held plus the loop's result. -/
theorem out_B_eq (c : Dev nD) (i : grid0.Coords) (arg3 : Memref sig .tc .vmem S1x80x128x128 .f32) (harg3 : arg3.IsWhole) (arg4 : Memref sig .tc .vmem S1x2x16x128 .f32) (harg4 : arg4.IsWhole) (arg5 : Memref sig .tc .vmem S80 .f32) (harg5 : arg5.IsWhole) (arg6 : Memref sig .tc .vmem S1x80x16x128 .f32) (harg6 : arg6.IsWhole) (hc0 : ¬cond0_0 i)
    (x0 : Vec F S1x80x128x128 .f32) (x1 : Vec F S1x2x16x128 .f32) (x2 : Vec F S80 .f32) (xo3 : Vec F S1x80x16x128 .f32) :
    out0_B_3 c i arg3 harg3 arg4 harg4 arg5 harg5 arg6 harg6 hc0 x0 x1 x2 xo3
      = k0_pay2 (carried c i arg3 harg3 arg4 harg4 arg5 harg5 arg6 harg6 x0 x1 k0_t1_loop.trips) xo3 := by
  unfold out0_B_3
  rw [View.read_writes_eq_canon _ _ _ (cover0_B_3 c i arg3 harg3 arg4 harg4 arg5 harg5 arg6 harg6 hc0 x0 x1 x2 xo3)]
  unfold kernelRun0_B
  dsimp only
  sl_unfold_words
  rw [View.canon_unit_zero (S := S1x80x16x128) hz4]
  simp only [View.readAt_eq_ld, harg4.read_unread, harg6.read_unread, View.ld_unit_zero (S := S1x80x16x128) hz4]
  rfl

set_option maxHeartbeats 400000 in
/-- The first point of a group stores the bias block first, and leaves that plus the loop's result. -/
theorem out_A_eq (c : Dev nD) (i : grid0.Coords) (arg3 : Memref sig .tc .vmem S1x80x128x128 .f32) (harg3 : arg3.IsWhole) (arg4 : Memref sig .tc .vmem S1x2x16x128 .f32) (harg4 : arg4.IsWhole) (arg5 : Memref sig .tc .vmem S80 .f32) (harg5 : arg5.IsWhole) (arg6 : Memref sig .tc .vmem S1x80x16x128 .f32) (harg6 : arg6.IsWhole) (hc0 : cond0_0 i)
    (x0 : Vec F S1x80x128x128 .f32) (x1 : Vec F S1x2x16x128 .f32) (x2 : Vec F S80 .f32) :
    out0_A_3 c i arg3 harg3 arg4 harg4 arg5 harg5 arg6 harg6 hc0 x0 x1 x2
      = k0_pay2 (carried c i arg3 harg3 arg4 harg4 arg5 harg5 arg6 harg6 x0 x1 k0_t1_loop.trips) (k0_pay1 x2) := by
  unfold out0_A_3
  rw [View.read_writes_eq_canon _ _ _ (cover0_A_3 c i arg3 harg3 arg4 harg4 arg5 harg5 arg6 harg6 hc0 x0 x1 x2)]
  unfold kernelRun0_A
  dsimp only
  sl_unfold_words
  rw [View.canon_cons_unit_zero (S := S1x80x16x128) hz4, View.readCov_unit_zero (S := S1x80x16x128) _ hz4]
  simp only [View.readAt_eq_ld, harg4.read_unread, harg5.read_unread, View.ld_unit_zero (S := S80) hz1]
  rfl

set_option maxHeartbeats 400000 in
/-- One trip's yield, as a function of the carried value: the trip's one load is of rows `8k … 8k + 7`. -/
theorem tripR_eq (𝒱 : Variants) (c : Dev nD) (bd : Option 𝒱.V) (i : grid0.Coords) (arg3 : Memref sig .tc .vmem S1x80x128x128 .f32) (harg3 : arg3.IsWhole) (arg4 : Memref sig .tc .vmem S1x2x16x128 .f32) (harg4 : arg4.IsWhole) (arg5 : Memref sig .tc .vmem S80 .f32) (harg5 : arg5.IsWhole) (arg6 : Memref sig .tc .vmem S1x80x16x128 .f32) (harg6 : arg6.IsWhole) (v0 : Vec F S1x1x16x128 .f32) (v2 : Vec F S1x1x16x128 .f32) (X : BufTy.Contents (Elt F) arg3.view.ty) (k : Fin k0_t1_loop.trips) (acc : FVec F S80x2048 .f32) :
    tripR_k0_t1 𝒱 c bd i arg3 harg3 arg4 harg4 arg5 harg5 arg6 harg6 v0 v2 X k acc
      = k0_pay15 acc
          (k0_pay3 (k0_pay13 v2) (View.readAt (Elt F) arg3.view (Rect.unit (s := S1x80x128x128) (k0_off1 k) S1x80x8x128.size (k0_off1_inb k)).toLoadRect X))
          (k0_pay4 (k0_pay10 v0) (k0_pay11 v0) (k0_pay12 v0) 0#32 1#32 k)
          (k0_pay5 (k0_pay10 v0) (k0_pay11 v0) (k0_pay12 v0) (k0_pay13 v2) 0#32 1#32 k (View.readAt (Elt F) arg3.view (Rect.unit (s := S1x80x128x128) (k0_off1 k) S1x80x8x128.size (k0_off1_inb k)).toLoadRect X))
          (k0_pay6 (k0_pay13 v2) (View.readAt (Elt F) arg3.view (Rect.unit (s := S1x80x128x128) (k0_off1 k) S1x80x8x128.size (k0_off1_inb k)).toLoadRect X))
          (k0_pay7 (k0_pay10 v0) (k0_pay11 v0) (k0_pay12 v0) 0#32 1#32 k) := by
  unfold tripR_k0_t1 trip_k0_t1
  dsimp only
  sl_unfold_words
  rfl

/-- The carried value one trip later. -/
theorem carried_succ (c : Dev nD) (i : grid0.Coords) (arg3 : Memref sig .tc .vmem S1x80x128x128 .f32) (harg3 : arg3.IsWhole) (arg4 : Memref sig .tc .vmem S1x2x16x128 .f32) (harg4 : arg4.IsWhole) (arg5 : Memref sig .tc .vmem S80 .f32) (harg5 : arg5.IsWhole) (arg6 : Memref sig .tc .vmem S1x80x16x128 .f32) (harg6 : arg6.IsWhole)
    (x0 : Vec F S1x80x128x128 .f32) (x1 : Vec F S1x2x16x128 .f32) (k : Fin k0_t1_loop.trips) :
    carried c i arg3 harg3 arg4 harg4 arg5 harg5 arg6 harg6 x0 x1 (k.val + 1)
      = k0_pay15 (carried c i arg3 harg3 arg4 harg4 arg5 harg5 arg6 harg6 x0 x1 k.val)
          (k0_pay3 (k0_pay13 (colsOf x1)) (rows8 x0 k))
          (k0_pay4 (k0_pay10 (rowsOf x1)) (k0_pay11 (rowsOf x1)) (k0_pay12 (rowsOf x1)) 0#32 1#32 k)
          (k0_pay5 (k0_pay10 (rowsOf x1)) (k0_pay11 (rowsOf x1)) (k0_pay12 (rowsOf x1)) (k0_pay13 (colsOf x1)) 0#32 1#32 k (rows8 x0 k))
          (k0_pay6 (k0_pay13 (colsOf x1)) (rows8 x0 k))
          (k0_pay7 (k0_pay10 (rowsOf x1)) (k0_pay11 (rowsOf x1)) (k0_pay12 (rowsOf x1)) 0#32 1#32 k) := by
  unfold carried
  rw [st_k0_t1_succ, tripR_eq]
  simp only [View.readAt_eq_ld, harg3.read_unread]

/-! ## At the exact instance: one entry of the loop's result

Trip `k` adds the contributions of rows `8k … 8k + 7`; sixteen trips from zero add those of all 128 rows, which is the
block's sample. Only associativity of the sum and `0 + a = a` are used. -/

/-- The row coordinates read at a pixel. -/
theorem rowsOf_apply (x1 : Vec Ideal S1x2x16x128 .f32) (h : Fin 16) (w : Fin 128) :
    rowsOf x1 (ix4 (0 : Fin 1) (0 : Fin 1) h w) = x1 (ix4 (0 : Fin 1) (0 : Fin 2) h w) := by
  show x1 _ = x1 _
  congr 1
  funext a
  apply Fin.ext
  match a with
  | ⟨0, _⟩ => rfl
  | ⟨1, _⟩ => rfl
  | ⟨2, _⟩ => show 0 + 1 * h.val = h.val; omega
  | ⟨3, _⟩ => show 0 + 1 * w.val = w.val; omega

/-- The column coordinates read at a pixel. -/
theorem colsOf_apply (x1 : Vec Ideal S1x2x16x128 .f32) (h : Fin 16) (w : Fin 128) :
    colsOf x1 (ix4 (0 : Fin 1) (0 : Fin 1) h w) = x1 (ix4 (0 : Fin 1) (1 : Fin 2) h w) := by
  show x1 _ = x1 _
  congr 1
  funext a
  apply Fin.ext
  match a with
  | ⟨0, _⟩ => rfl
  | ⟨1, _⟩ => rfl
  | ⟨2, _⟩ => show 0 + 1 * h.val = h.val; omega
  | ⟨3, _⟩ => show 0 + 1 * w.val = w.val; omega

/-- Row `kk` of trip `k`'s eight rows is row `8k + kk` of the channel block. -/
theorem rows8_apply (x0 : Vec Ideal S1x80x128x128 .f32) (k : Fin k0_t1_loop.trips) (hk : k.val < 16)
    (ch : Fin 80) (kk : Fin 8) (v : Fin 128) :
    rows8 x0 k (ix4 (0 : Fin 1) ch kk v) = x0 (ix4 (0 : Fin 1) ch (Trip.rowOf k.val hk kk) v) := by
  show x0 _ = x0 _
  congr 1
  funext a
  apply Fin.ext
  show (k0_off1 k) a + 1 * ((ix4 (0 : Fin 1) ch kk v) a).val = ((ix4 (0 : Fin 1) ch (Trip.rowOf k.val hk kk) v) a).val
  rw [k0_off1_eq k]
  match a with
  | ⟨0, _⟩ => rfl
  | ⟨1, _⟩ => show 0 + 1 * ch.val = ch.val; omega
  | ⟨2, _⟩ => show 8 * k.val + 1 * kk.val = 8 * k.val + kk.val; omega
  | ⟨3, _⟩ => show 0 + 1 * v.val = v.val; omega

/-- Row `8k + kk`, reduced into range so that it needs no bound on `k`. -/
def rowM (k : ℕ) (kk : Fin 8) : Fin 128 := ⟨(8 * k + kk.val) % 128, Nat.mod_lt _ (by norm_num)⟩

theorem rowM_eq (k : ℕ) (hk : k < 16) (kk : Fin 8) : rowM k kk = Trip.rowOf k hk kk :=
  Fin.ext (Nat.mod_eq_of_lt (by have := kk.isLt; show 8 * k + kk.val < 128; omega))

/-- One row's contribution to the sample of channel `ch` at pixel `(h, w)`: the row's weighted column sum times the row's weight. -/
def rowTerm (x0 : Vec Ideal S1x80x128x128 .f32) (x1 : Vec Ideal S1x2x16x128 .f32) (ch : Fin 80) (h : Fin 16) (w : Fin 128)
    (r : Fin 128) : EReal :=
  (∑ v : Fin 128, x0 (ix4 (0 : Fin 1) ch r v) * hot (x1 (ix4 (0 : Fin 1) (1 : Fin 2) h w)) v)
    * hot (x1 (ix4 (0 : Fin 1) (0 : Fin 2) h w)) r

theorem trips_eq : k0_t1_loop.trips = 16 := by decide

set_option maxHeartbeats 400000 in
/-- Before trip `n` the carried value holds the contributions of rows `0 … 8n − 1`. -/
theorem carried_apply (c : Dev nD) (i : grid0.Coords) (arg3 : Memref sig .tc .vmem S1x80x128x128 .f32) (harg3 : arg3.IsWhole) (arg4 : Memref sig .tc .vmem S1x2x16x128 .f32) (harg4 : arg4.IsWhole) (arg5 : Memref sig .tc .vmem S80 .f32) (harg5 : arg5.IsWhole) (arg6 : Memref sig .tc .vmem S1x80x16x128 .f32) (harg6 : arg6.IsWhole)
    (x0 : Vec Ideal S1x80x128x128 .f32) (x1 : Vec Ideal S1x2x16x128 .f32) (ch : Fin 80) (h : Fin 16) (w : Fin 128) :
    ∀ n : ℕ, n ≤ 16 →
      carried (F := Ideal) c i arg3 harg3 arg4 harg4 arg5 harg5 arg6 harg6 x0 x1 n (ix2 ch (Trip.pix h w))
        = ∑ k ∈ Finset.range n, ∑ kk : Fin 8, rowTerm x0 x1 ch h w (rowM k kk)
  | 0, _ => by
    rw [Finset.sum_range_zero]
    exact Trip.init_apply (ix2 ch (Trip.pix h w))
  | n + 1, hn => by
    have hk : n < 16 := hn
    have hkt : n < k0_t1_loop.trips := by rw [trips_eq]; exact hk
    rw [Finset.sum_range_succ, ← carried_apply c i arg3 harg3 arg4 harg4 arg5 harg5 arg6 harg6 x0 x1 ch h w n (Nat.le_of_lt hk)]
    refine (congrFun (carried_succ c i arg3 harg3 arg4 harg4 arg5 harg5 arg6 harg6 x0 x1 ⟨n, hkt⟩) (ix2 ch (Trip.pix h w))).trans ?_
    refine (Trip.trip_apply (rowsOf x1) (colsOf x1) (rows8 x0 ⟨n, hkt⟩) ⟨n, hkt⟩ hk
      (carried c i arg3 harg3 arg4 harg4 arg5 harg5 arg6 harg6 x0 x1 n) ch h w).trans ?_
    congr 1
    refine Finset.sum_congr rfl fun kk _ => ?_
    rw [rowM_eq n hk kk, rowsOf_apply, colsOf_apply]
    unfold rowTerm
    congr 1
    exact Finset.sum_congr rfl fun v _ => by rw [rows8_apply x0 ⟨n, hkt⟩ hk ch kk v]

set_option maxHeartbeats 400000 in
/-- After the last trip it holds the block's sample. -/
theorem carried_last (c : Dev nD) (i : grid0.Coords) (arg3 : Memref sig .tc .vmem S1x80x128x128 .f32) (harg3 : arg3.IsWhole) (arg4 : Memref sig .tc .vmem S1x2x16x128 .f32) (harg4 : arg4.IsWhole) (arg5 : Memref sig .tc .vmem S80 .f32) (harg5 : arg5.IsWhole) (arg6 : Memref sig .tc .vmem S1x80x16x128 .f32) (harg6 : arg6.IsWhole)
    (x0 : Vec Ideal S1x80x128x128 .f32) (x1 : Vec Ideal S1x2x16x128 .f32) (ch : Fin 80) (h : Fin 16) (w : Fin 128) :
    carried (F := Ideal) c i arg3 harg3 arg4 harg4 arg5 harg5 arg6 harg6 x0 x1 k0_t1_loop.trips (ix2 ch (Trip.pix h w))
      = blockSample x0 x1 ch h w := by
  rw [trips_eq, carried_apply c i arg3 harg3 arg4 harg4 arg5 harg5 arg6 harg6 x0 x1 ch h w 16 le_rfl, Finset.sum_range]
  refine Eq.trans ?_ (Cert.SumRegroup.sum_fin_mul 16 8 (fun r : Fin (16 * 8) => rowTerm x0 x1 ch h w r)).symm
  refine Finset.sum_congr rfl fun p _ => Finset.sum_congr rfl fun q _ => ?_
  congr 1
  apply Fin.ext
  have hp := p.isLt
  have hq := q.isLt
  show (8 * p.val + q.val) % 128 = p.val * 8 + q.val
  omega

/-- The first point of a group: the bias of the channel plus the point's sample. -/
theorem out_A_apply (c : Dev nD) (i : grid0.Coords) (arg3 : Memref sig .tc .vmem S1x80x128x128 .f32) (harg3 : arg3.IsWhole) (arg4 : Memref sig .tc .vmem S1x2x16x128 .f32) (harg4 : arg4.IsWhole) (arg5 : Memref sig .tc .vmem S80 .f32) (harg5 : arg5.IsWhole) (arg6 : Memref sig .tc .vmem S1x80x16x128 .f32) (harg6 : arg6.IsWhole) (hc0 : cond0_0 i)
    (x0 : Vec Ideal S1x80x128x128 .f32) (x1 : Vec Ideal S1x2x16x128 .f32) (x2 : Vec Ideal S80 .f32)
    (ch : Fin 80) (h : Fin 16) (w : Fin 128) :
    out0_A_3 (F := Ideal) c i arg3 harg3 arg4 harg4 arg5 harg5 arg6 harg6 hc0 x0 x1 x2 (ix4 (0 : Fin 1) ch h w)
      = x2 (ix1 ch) + blockSample x0 x1 ch h w := by
  rw [out_A_eq (F := Ideal) c i arg3 harg3 arg4 harg4 arg5 harg5 arg6 harg6 hc0 x0 x1 x2]
  refine (Trip.accum_apply (carried c i arg3 harg3 arg4 harg4 arg5 harg5 arg6 harg6 x0 x1 k0_t1_loop.trips) (k0_pay1 x2) ch h w).trans ?_
  rw [Trip.bias_apply x2 ch h w, carried_last c i arg3 harg3 arg4 harg4 arg5 harg5 arg6 harg6 x0 x1 ch h w]

/-- A later point of a group: what the point before left plus the point's sample. -/
theorem out_B_apply (c : Dev nD) (i : grid0.Coords) (arg3 : Memref sig .tc .vmem S1x80x128x128 .f32) (harg3 : arg3.IsWhole) (arg4 : Memref sig .tc .vmem S1x2x16x128 .f32) (harg4 : arg4.IsWhole) (arg5 : Memref sig .tc .vmem S80 .f32) (harg5 : arg5.IsWhole) (arg6 : Memref sig .tc .vmem S1x80x16x128 .f32) (harg6 : arg6.IsWhole) (hc0 : ¬cond0_0 i)
    (x0 : Vec Ideal S1x80x128x128 .f32) (x1 : Vec Ideal S1x2x16x128 .f32) (x2 : Vec Ideal S80 .f32) (xo3 : Vec Ideal S1x80x16x128 .f32)
    (ch : Fin 80) (h : Fin 16) (w : Fin 128) :
    out0_B_3 (F := Ideal) c i arg3 harg3 arg4 harg4 arg5 harg5 arg6 harg6 hc0 x0 x1 x2 xo3 (ix4 (0 : Fin 1) ch h w)
      = xo3 (ix4 (0 : Fin 1) ch h w) + blockSample x0 x1 ch h w := by
  rw [out_B_eq (F := Ideal) c i arg3 harg3 arg4 harg4 arg5 harg5 arg6 harg6 hc0 x0 x1 x2 xo3]
  refine (Trip.accum_apply (carried c i arg3 harg3 arg4 harg4 arg5 harg5 arg6 harg6 x0 x1 k0_t1_loop.trips) xo3 ch h w).trans ?_
  rw [carried_last c i arg3 harg3 arg4 harg4 arg5 harg5 arg6 harg6 x0 x1 ch h w]

end Cert.KernelIdeal.Point

end
-- ==== Proof.KernelArray.lean ====
/-
  The kernel's result array after the run is the selection form of the argument arrays: each output block is visited by
  the nine points of its group in turn, starts at the bias and gains one point's sample per visit, and is written back after
  the ninth.

  Grid point `t = 72·b + 9·tile + p` (batch `b`, row tile `tile`, sampling point `p`, `p` fastest). Its group is
  `g = t / 9 = 8·b + tile`. The point reads channels `80p … 80p + 79` of batch `b` of `x`, coordinate channels `2p`,
  `2p + 1` of `loc` on rows `16·tile … 16·tile + 15`, the whole bias, and works on output rows `16·tile … 16·tile + 15`
  of batch `b`.
-/
import proofs.«154423_j13048110645917_2_alg».proof.Proof.Spec
import proofs.«154423_j13048110645917_2_alg».proof.Proof.KernelPoint

noncomputable section

namespace Cert.KernelIdeal.Array

open Cert.KernelIdeal Cert.KernelIdeal.Gen Idealize.ShloMosaic Idealize.ShloMosaic.TcCoe Idealize.ShloMosaic.ValueIdx Idealize.SL.Sem
open Cert.Sampling

variable (m : (ℓ : Loc nD τ sig) → Buf (Elt Ideal) ℓ)

/-! ## Where each window's block sits -/

/-- The block indices of the four windows at point `t`, in terms of `t / 72` (batch), `t / 9 % 8` (row tile) and
    `t % 9` (sampling point): decided over the 288 points. -/
theorem idx_facts : ∀ t : Fin cfg0.N,
    win0_0.index t (0 : Fin 4) = t.val / 72 ∧ win0_0.index t (1 : Fin 4) = t.val % 9
    ∧ win0_0.index t (2 : Fin 4) = 0 ∧ win0_0.index t (3 : Fin 4) = 0
    ∧ win0_1.index t (0 : Fin 4) = t.val / 72 ∧ win0_1.index t (1 : Fin 4) = t.val % 9
    ∧ win0_1.index t (2 : Fin 4) = t.val / 9 % 8 ∧ win0_1.index t (3 : Fin 4) = 0
    ∧ win0_2.index t (0 : Fin 1) = 0
    ∧ win0_3.index t (0 : Fin 4) = t.val / 72 ∧ win0_3.index t (1 : Fin 4) = 0
    ∧ win0_3.index t (2 : Fin 4) = t.val / 9 % 8 ∧ win0_3.index t (3 : Fin 4) = 0 :=
  (by decide +kernel : ∀ t : Fin grid0.N, _)

/-! ## The argument arrays and one group's samples -/

/-- The three argument arrays as launched. -/
abbrev X (c : Dev nD) : FVec Ideal SX .f32 := m ((c : Thread nD τ).loc main_arg0)
abbrev L (c : Dev nD) : FVec Ideal SLoc .f32 := m ((c : Thread nD τ).loc main_arg1)
abbrev B (c : Dev nD) : FVec Ideal SBias .f32 := m ((c : Thread nD τ).loc main_arg2)

/-- Group `g = 8·b + tile`: its batch, and the array row of row `h` of its block; sampling point `s`. -/
def gb (g : ℕ) : Fin 4 := ⟨g / 8 % 4, Nat.mod_lt _ (by norm_num)⟩
def gp (s : ℕ) : Fin 9 := ⟨s % 9, Nat.mod_lt _ (by norm_num)⟩
def grow (g : ℕ) (h : Fin 16) : Fin 128 := ⟨16 * (g % 8) + h.val, by have := h.isLt; omega⟩

/-- The sample of point `s` of group `g` at the pixel `(h, w)` of the group's block. -/
def gsample (x : FVec Ideal SX .f32) (loc : FVec Ideal SLoc .f32) (g s : ℕ) (ch : Fin 80) (h : Fin 16) (w : Fin 128) : EReal :=
  sample x loc (gb g) (gp s) ch (grow g h) w

/-! ## The input blocks read at an entry

A block's coordinate in its array is, on each axis, the block index times the block's size plus the coordinate inside the
block. -/

/-- The channel block: channels `80p … 80p + 79` of batch `b`. -/
theorem iblk0_apply (c : Dev nD) (t : Fin cfg0.N) (y : S1x80x128x128.Idx) (k : S4x720x128x128.Idx)
    (hk0 : (k 0).val = t.val / 72) (hk1 : (k 1).val = 80 * (t.val % 9) + (y 1).val)
    (hk2 : (k 2).val = (y 2).val) (hk3 : (k 3).val = (y 3).val) :
    (iblk m c 0 t : Vec Ideal S1x80x128x128 .f32) y = X m c k := by
  obtain ⟨e0, e1, e2, e3, -⟩ := idx_facts t
  have hy0 : (y 0).val < 1 := (y 0).isLt
  unfold iblk
  rw [View.read_apply]
  show V m c main_arg0 _ = m (c.tc.loc main_arg0) _
  unfold V
  congr 1
  funext a
  apply Fin.ext
  match a with
  | ⟨0, _⟩ => show win0_0.index t (0 : Fin 4) * 1 + 1 * (y 0).val = (k 0).val; rw [e0, hk0]; omega
  | ⟨1, _⟩ => show win0_0.index t (1 : Fin 4) * 80 + 1 * (y 1).val = (k 1).val; rw [e1, hk1]; omega
  | ⟨2, _⟩ => show win0_0.index t (2 : Fin 4) * 128 + 1 * (y 2).val = (k 2).val; rw [e2, hk2]; omega
  | ⟨3, _⟩ => show win0_0.index t (3 : Fin 4) * 128 + 1 * (y 3).val = (k 3).val; rw [e3, hk3]; omega

/-- The coordinate block: channels `2p`, `2p + 1` of batch `b` on rows `16·tile … 16·tile + 15`. -/
theorem iblk1_apply (c : Dev nD) (t : Fin cfg0.N) (y : S1x2x16x128.Idx) (k : S4x18x128x128.Idx)
    (hk0 : (k 0).val = t.val / 72) (hk1 : (k 1).val = 2 * (t.val % 9) + (y 1).val)
    (hk2 : (k 2).val = 16 * (t.val / 9 % 8) + (y 2).val) (hk3 : (k 3).val = (y 3).val) :
    (iblk m c 1 t : Vec Ideal S1x2x16x128 .f32) y = L m c k := by
  obtain ⟨-, -, -, -, e0, e1, e2, e3, -⟩ := idx_facts t
  have hy0 : (y 0).val < 1 := (y 0).isLt
  unfold iblk
  rw [View.read_apply]
  show V m c main_arg1 _ = m (c.tc.loc main_arg1) _
  unfold V
  congr 1
  funext a
  apply Fin.ext
  match a with
  | ⟨0, _⟩ => show win0_1.index t (0 : Fin 4) * 1 + 1 * (y 0).val = (k 0).val; rw [e0, hk0]; omega
  | ⟨1, _⟩ => show win0_1.index t (1 : Fin 4) * 2 + 1 * (y 1).val = (k 1).val; rw [e1, hk1]; omega
  | ⟨2, _⟩ => show win0_1.index t (2 : Fin 4) * 16 + 1 * (y 2).val = (k 2).val; rw [e2, hk2]; omega
  | ⟨3, _⟩ => show win0_1.index t (3 : Fin 4) * 128 + 1 * (y 3).val = (k 3).val; rw [e3, hk3]; omega

/-- The bias block is the whole bias. -/
theorem iblk2_apply (c : Dev nD) (t : Fin cfg0.N) (ch : Fin 80) :
    (iblk m c 2 t : Vec Ideal S80 .f32) (ix1 ch) = B m c (ix1 ch) := by
  obtain ⟨-, -, -, -, -, -, -, -, e, -⟩ := idx_facts t
  unfold iblk
  rw [View.read_apply]
  show V m c main_arg2 _ = m (c.tc.loc main_arg2) _
  unfold V
  congr 1
  funext a
  apply Fin.ext
  match a with
  | ⟨0, _⟩ => show win0_2.index t (0 : Fin 1) * 80 + 1 * ch.val = ch.val; rw [e]; omega

/-- One point's block sample is the point's sample of the arrays. -/
theorem blockSample_iblk (c : Dev nD) (t : Fin cfg0.N) (ch : Fin 80) (h : Fin 16) (w : Fin 128) :
    blockSample (iblk m c 0 t) (iblk m c 1 t) ch h w = gsample (X m c) (L m c) (t.val / 9) (t.val % 9) ch h w := by
  have hN : t.val < 288 := lt_of_lt_of_eq t.isLt (show cfg0.N = 288 from N_0)
  have ex : (iblk m c 1 t : Vec Ideal S1x2x16x128 .f32) (ix4 (0 : Fin 1) (1 : Fin 2) h w)
      = L m c (ix4 (gb (t.val / 9)) (xch (gp (t.val % 9))) (grow (t.val / 9) h) w) :=
    iblk1_apply m c t _ _ (by show t.val / 9 / 8 % 4 = t.val / 72; omega)
      (by show 2 * (t.val % 9 % 9) + 1 = 2 * (t.val % 9) + 1; omega) rfl rfl
  have ey : (iblk m c 1 t : Vec Ideal S1x2x16x128 .f32) (ix4 (0 : Fin 1) (0 : Fin 2) h w)
      = L m c (ix4 (gb (t.val / 9)) (ych (gp (t.val % 9))) (grow (t.val / 9) h) w) :=
    iblk1_apply m c t _ _ (by show t.val / 9 / 8 % 4 = t.val / 72; omega)
      (by show 2 * (t.val % 9 % 9) = 2 * (t.val % 9) + 0; omega) rfl rfl
  unfold blockSample gsample sample xAt yAt
  refine Finset.sum_congr rfl fun r _ => ?_
  refine congrArg₂ (· * ·) (Finset.sum_congr rfl fun v _ => congrArg₂ (· * ·) ?_ (congrArg (fun z => hot z v) ex))
    (congrArg (fun z => hot z r) ey)
  exact iblk0_apply m c t _ _ (by show t.val / 9 / 8 % 4 = t.val / 72; omega)
    (by show 80 * (t.val % 9 % 9) + ch.val = 80 * (t.val % 9) + ch.val; omega) rfl rfl

/-! ## What the output block holds after each point -/

/-- At the first point of a group the block holds the bias plus the point's sample. -/
theorem outsAt_first (c : Dev nD) (t : Fin cfg0.N) (h0 : t.val % 9 = 0) (ch : Fin 80) (h : Fin 16) (w : Fin 128) :
    outsAt0 m c t.val t.isLt (ix4 (0 : Fin 1) ch h w)
      = B m c (ix1 ch) + gsample (X m c) (L m c) (t.val / 9) (t.val % 9) ch h w := by
  rw [outsAt0_A m c t h0]
  refine (Point.out_A_apply c (grid0.coords t) (ms0_0 t) (hs0_0 t) (ms0_1 t) (hs0_1 t) (ms0_2 t) (hs0_2 t) (ms0_3 t) (hs0_3 t)
    ((hcond0_0 t).mpr h0) (iblk m c 0 t) (iblk m c 1 t) (iblk m c 2 t) ch h w).trans ?_
  rw [blockSample_iblk m c t ch h w, iblk2_apply m c t ch]

/-- At a later point it holds what the point before left plus the point's sample. -/
theorem outsAt_later (c : Dev nD) (t : Fin cfg0.N) (h0 : ¬t.val % 9 = 0) (ch : Fin 80) (h : Fin 16) (w : Fin 128) :
    outsAt0 m c t.val t.isLt (ix4 (0 : Fin 1) ch h w)
      = outsAt0 m c (t.val - 1) (Nat.lt_of_le_of_lt (Nat.sub_le _ _) t.isLt) (ix4 (0 : Fin 1) ch h w)
        + gsample (X m c) (L m c) (t.val / 9) (t.val % 9) ch h w := by
  rw [outsAt0_B m c t h0]
  refine (Point.out_B_apply c (grid0.coords t) (ms0_0 t) (hs0_0 t) (ms0_1 t) (hs0_1 t) (ms0_2 t) (hs0_2 t) (ms0_3 t) (hs0_3 t)
    (fun hc => h0 ((hcond0_0 t).mp hc)) (iblk m c 0 t) (iblk m c 1 t) (iblk m c 2 t)
    (outsAt0 m c (t.val - 1) (Nat.lt_of_le_of_lt (Nat.sub_le _ _) t.isLt)) ch h w).trans ?_
  rw [blockSample_iblk m c t ch h w]

/-- After point `n` of the grid the output block holds the bias plus the samples of the points of `n`'s group up to `n`. -/
theorem outsAt_apply (c : Dev nD) : ∀ (n : ℕ) (hn : n < cfg0.N) (ch : Fin 80) (h : Fin 16) (w : Fin 128),
    outsAt0 m c n hn (ix4 (0 : Fin 1) ch h w)
      = B m c (ix1 ch) + ∑ s ∈ Finset.range (n % 9 + 1), gsample (X m c) (L m c) (n / 9) s ch h w := by
  intro n
  induction n with
  | zero =>
    intro hn ch h w
    refine (outsAt_first m c ⟨0, hn⟩ (Nat.zero_mod 9) ch h w).trans ?_
    show B m c (ix1 ch) + gsample (X m c) (L m c) (0 / 9) (0 % 9) ch h w = _
    rw [Nat.zero_mod, zero_add, Finset.sum_range_one]
  | succ k ih =>
    intro hn ch h w
    by_cases h0 : (k + 1) % 9 = 0
    · refine (outsAt_first m c ⟨k + 1, hn⟩ h0 ch h w).trans ?_
      show B m c (ix1 ch) + gsample (X m c) (L m c) ((k + 1) / 9) ((k + 1) % 9) ch h w = _
      rw [h0, zero_add, Finset.sum_range_one]
    · refine (outsAt_later m c ⟨k + 1, hn⟩ h0 ch h w).trans ?_
      show outsAt0 m c k _ (ix4 (0 : Fin 1) ch h w) + gsample (X m c) (L m c) ((k + 1) / 9) ((k + 1) % 9) ch h w = _
      rw [ih]
      have e1 : (k + 1) / 9 = k / 9 := by omega
      have e2 : (k + 1) % 9 = k % 9 + 1 := by omega
      rw [e1, e2, Finset.sum_range_succ _ (k % 9 + 1), add_assoc]

/-! ## What is written back, and the cover -/

/-- After the last point of a group the block's entry `y` is the selection form at the entry's place `k` in the array. -/
theorem outsAt_last (c : Dev nD) (t : Fin cfg0.N) (h8 : t.val % 9 = 8) (y : S1x80x16x128.Idx) (k : S4x80x128x128.Idx)
    (hk0 : (k 0).val = t.val / 72) (hk1 : (k 1).val = (y 1).val)
    (hk2 : (k 2).val = 16 * (t.val / 9 % 8) + (y 2).val) (hk3 : (k 3).val = (y 3).val) :
    outsAt0 m c t.val t.isLt y = G (X m c) (L m c) (B m c) k := by
  have hN : t.val < 288 := lt_of_lt_of_eq t.isLt (show cfg0.N = 288 from N_0)
  obtain ⟨a, ch, h, w, rfl⟩ : ∃ (a : Fin 1) (ch : Fin 80) (h : Fin 16) (w : Fin 128), y = ix4 a ch h w :=
    ⟨y 0, y 1, y 2, y 3, eq_ix4 y⟩
  obtain rfl : a = 0 := Subsingleton.elim _ _
  have e1 : k 1 = ch := Fin.ext hk1
  have e3 : k 3 = w := Fin.ext hk3
  have h9 : t.val % 9 + 1 = 9 := by omega
  rw [outsAt_apply m c t.val t.isLt ch h w, h9]
  show _ = B m c (ix1 (k 1)) + ∑ p : Fin 9, sample (X m c) (L m c) (k 0) p (k 1) (k 2) (k 3)
  rw [e1, e3, ← Fin.sum_univ_eq_sum_range (fun s => gsample (X m c) (L m c) (t.val / 9) s ch h w) 9]
  refine congrArg₂ (· + ·) rfl (Finset.sum_congr rfl fun p _ => ?_)
  have hp := p.isLt
  have hh : (ix4 (0 : Fin 1) ch h w 2).val = h.val := rfl
  unfold gsample
  have eb : gb (t.val / 9) = k 0 := Fin.ext (by show t.val / 9 / 8 % 4 = (k 0).val; omega)
  have ep : gp p.val = p := Fin.ext (by show p.val % 9 = p.val; omega)
  have er : grow (t.val / 9) h = k 2 := Fin.ext (by show 16 * (t.val / 9 % 8) + h.val = (k 2).val; omega)
  rw [eb, ep, er]

/-- What a flushing point writes back is its block of the selection form. -/
theorem flushed_eq (c : Dev nD) (t : Fin cfg0.N) (hf : (cfg0.win 3).flush t = true) :
    (dats (F := Ideal) m 0 c).flushed 3 t = ((cfg0.win 3).blk t).view.read (Elt Ideal) (G (X m c) (L m c) (B m c)) := by
  have h8 : t.val % 9 = 8 := (flush0_3 t).mp hf
  obtain ⟨-, -, -, -, -, -, -, -, -, e0, e1, e2, e3⟩ := idx_facts t
  rw [Value.flushed3]
  funext y
  have hy0 : (y 0).val < 1 := (y 0).isLt
  show outsAt0 m c t.val t.isLt _ = G (X m c) (L m c) (B m c) (((cfg0.win 3).blk t).view.emb y)
  refine outsAt_last m c t h8 _ _ ?_ ?_ ?_ ?_
  · show win0_3.index t (0 : Fin 4) * 1 + 1 * (y 0).val = t.val / 72; rw [e0]; omega
  · show win0_3.index t (1 : Fin 4) * 80 + 1 * (y 1).val = (y 1).val; rw [e1]; omega
  · show win0_3.index t (2 : Fin 4) * 16 + 1 * (y 2).val = 16 * (t.val / 9 % 8) + (y 2).val; rw [e2]; omega
  · show win0_3.index t (3 : Fin 4) * 128 + 1 * (y 3).val = (y 3).val; rw [e3]; omega

/-- Every entry of the result array lies in the block of the last point of its group. -/
theorem cover (i : S4x80x128x128.Idx) :
    ∃ t : Fin cfg0.N, (cfg0.win 3).flush t = true ∧ i ∈ ((cfg0.win 3).blk t).view.set := by
  have h0 : (i 0).val < 4 := (i 0).isLt
  have h1 : (i 1).val < 80 := (i 1).isLt
  have h2 : (i 2).val < 128 := (i 2).isLt
  have h3 : (i 3).val < 128 := (i 3).isLt
  have hlt : 72 * (i 0).val + 9 * ((i 2).val / 16) + 8 < cfg0.N :=
    lt_of_lt_of_eq (by omega : 72 * (i 0).val + 9 * ((i 2).val / 16) + 8 < 288) (show cfg0.N = 288 from N_0).symm
  refine ⟨⟨72 * (i 0).val + 9 * ((i 2).val / 16) + 8, hlt⟩, (flush0_3 _).mpr (by show (72 * (i 0).val + 9 * ((i 2).val / 16) + 8) % 9 = 8; omega), ?_⟩
  obtain ⟨-, -, -, -, -, -, -, -, -, e0, e1, e2, e3⟩ := idx_facts ⟨72 * (i 0).val + 9 * ((i 2).val / 16) + 8, hlt⟩
  show i ∈ ((View.whole main_v0).slice (win0_3.rect ⟨72 * (i 0).val + 9 * ((i 2).val / 16) + 8, hlt⟩)).set
  rw [View.set_slice_whole, Rect.mem_set_unit]
  intro a
  match a with
  | ⟨0, _⟩ =>
    show win0_3.index ⟨72 * (i 0).val + 9 * ((i 2).val / 16) + 8, hlt⟩ (0 : Fin 4) * 1 ≤ (i 0).val
      ∧ (i 0).val < win0_3.index ⟨72 * (i 0).val + 9 * ((i 2).val / 16) + 8, hlt⟩ (0 : Fin 4) * 1 + 1
    rw [e0]; show (72 * (i 0).val + 9 * ((i 2).val / 16) + 8) / 72 * 1 ≤ (i 0).val ∧ (i 0).val < (72 * (i 0).val + 9 * ((i 2).val / 16) + 8) / 72 * 1 + 1; omega
  | ⟨1, _⟩ =>
    show win0_3.index ⟨72 * (i 0).val + 9 * ((i 2).val / 16) + 8, hlt⟩ (1 : Fin 4) * 80 ≤ (i 1).val
      ∧ (i 1).val < win0_3.index ⟨72 * (i 0).val + 9 * ((i 2).val / 16) + 8, hlt⟩ (1 : Fin 4) * 80 + 80
    rw [e1]; omega
  | ⟨2, _⟩ =>
    show win0_3.index ⟨72 * (i 0).val + 9 * ((i 2).val / 16) + 8, hlt⟩ (2 : Fin 4) * 16 ≤ (i 2).val
      ∧ (i 2).val < win0_3.index ⟨72 * (i 0).val + 9 * ((i 2).val / 16) + 8, hlt⟩ (2 : Fin 4) * 16 + 16
    rw [e2]; show (72 * (i 0).val + 9 * ((i 2).val / 16) + 8) / 9 % 8 * 16 ≤ (i 2).val ∧ (i 2).val < (72 * (i 0).val + 9 * ((i 2).val / 16) + 8) / 9 % 8 * 16 + 16; omega
  | ⟨3, _⟩ =>
    show win0_3.index ⟨72 * (i 0).val + 9 * ((i 2).val / 16) + 8, hlt⟩ (3 : Fin 4) * 128 ≤ (i 3).val
      ∧ (i 3).val < win0_3.index ⟨72 * (i 0).val + 9 * ((i 2).val / 16) + 8, hlt⟩ (3 : Fin 4) * 128 + 128
    rw [e3]; omega

/-- After the run the result array is `G` of the three argument arrays as launched. -/
theorem kernel_final (m : (ℓ : Loc nD τ sig) → Buf (Elt Ideal) ℓ) (c : Dev nD) :
    (dats (F := Ideal) m 0 c).arrAt 3 cfg0.N
      = G (m ((c : Thread nD τ).loc main_arg0)) (m ((c : Thread nD τ).loc main_arg1)) (m ((c : Thread nD τ).loc main_arg2)) :=
  (dats (F := Ideal) m 0 c).arrAt_eq_of_cover 3 (G (X m c) (L m c) (B m c)) (flushed_eq m c) cover

end Cert.KernelIdeal.Array

end
-- ==== Proof.Finite.lean ====
/-
  Under the precondition every entry of the three argument arrays is a real number.

  The precondition is the conjunction of three `all`s, one per array, of the entrywise test `|z| < +∞` on the extended
  reals; an extended real whose absolute value is below `+∞` is neither infinity, so it is a real.
-/
import proofs.«154423_j13048110645917_2_alg».proof.Pre_finite_inputs
import Idealize.ShloMosaic.PureOps.Ideal
import Idealize.ShloMosaic.Lib.ReduceAll
import Idealize.ShloMosaic.Lib.Affine
import Idealize.ShloMosaic.Lib.ValueIdx

noncomputable section

namespace Cert.Finite

open Idealize.ShloMosaic Cert.Pre_finite_inputs

/-- The rank-0 shape has one index. -/
instance : Subsingleton S_.Idx := ⟨fun _ _ => funext fun d => d.elim0⟩

/-- The f32 word `0x7F800000` is `+∞`. -/
theorem top_word : Ideal.ofBits .f32 0x7F800000#32 = (⊤ : EReal) := by simp [Ideal.ofBits, Ideal.ieee]

/-- `|z| < +∞` makes `z` a real number: for `z = ±∞` the absolute value `max z (−z)` is `+∞`. -/
theorem real_of_abs_lt (z : EReal) (h : Ideal.cmp .olt (max z (-z)) (Ideal.ofBits .f32 0x7F800000#32) = 1#1) :
    ∃ r : ℝ, z = (r : EReal) := by
  rw [top_word] at h
  induction z using EReal.rec with
  | bot => exact absurd h (by simp [Ideal.cmp])
  | coe r => exact ⟨r, rfl⟩
  | top => exact absurd h (by simp [Ideal.cmp])

variable [Facts]

/-- The precondition, all ones, makes every entry of every argument a real number. -/
theorem reals_of_pre (x : FVec Ideal S4x720x128x128 .f32) (l : FVec Ideal S4x18x128x128 .f32) (b : FVec Ideal S80 .f32)
    (h : fn (F := Ideal) x l b = fun _ => 1#1) :
    (∀ i, ∃ r : ℝ, x i = (r : EReal)) ∧ (∀ i, ∃ r : ℝ, l i = (r : EReal)) ∧ (∀ i, ∃ r : ℝ, b i = (r : EReal)) := by
  have h0 := congrFun h ValueIdx.ix0
  dsimp only [fn] at h0
  obtain ⟨h01, h2⟩ := IntOp.andi_eq_one.mp h0
  obtain ⟨h0', h1⟩ := IntOp.andi_eq_one.mp h01
  exact ⟨fun i => real_of_abs_lt (x i) (Host.reduce_andi_all _ _ _ _ _ h0' i),
    fun i => real_of_abs_lt (l i) (Host.reduce_andi_all _ _ _ _ _ h1 i),
    fun i => real_of_abs_lt (b i) (Host.reduce_andi_all _ _ _ _ _ h2 i)⟩

end Cert.Finite

end
-- ==== Proof.lean ====
/-
  The kernel against its reference: bilinear sampling of `x : [4, 720, 128, 128]` at the per-pixel coordinates
  `loc : [4, 18, 128, 128]` of nine points, the nine samples summed, a per-channel `bias : [80]` added.

  The kernel computes a sample by SELECTION: for one point and one block of 16 output rows it forms the 128 × 2048 matrix of
  column weights (line `⌊x⌋` gets `1 − frac x`, line `⌊x⌋ + 1` gets `frac x`, every other line 0), multiplies the channel block by
  it, weights the 128 rows the same way by the row coordinate and adds them up, eight rows per trip of a loop; the output block
  starts at the bias at the first point and gains one sample per point. The reference computes it by FOUR TAPS: the values at
  the clamped corners `(⌊y⌋ + a, ⌊x⌋ + b)`, each times its bilinear weight and the 0/1 indicator that the unclamped corner is
  inside the image, summed over the points, the bias added last.

  At the exact reading of the floats both are functions of the three arrays (`G` and `GR` of Proof/Spec.lean): the kernel's
  result array is `G` (Proof/KernelTrip, KernelPoint, KernelArray), the reference's is `GR` (Proof/RefTake, RefPoint, RefRead),
  and `GR = G` on arrays of real numbers (Proof/Algebra) — a line outside the image is selected by no row or column, which is the
  indicator, and distributing the row weight over the two selected columns gives the four products; this last step is where the
  inputs must be finite, which the precondition says (Proof/Finite). Both floors and both conversions to integers are one
  function on the two sides, so no condition on the coordinates is needed.

  The idealization rewrote no operation, so `preserves` is `True`; the three frames are the generated runs.
-/
import proofs.«154423_j13048110645917_2_alg».proof.Defs
import proofs.«154423_j13048110645917_2_alg».proof.Proof.Gen.Kernel
import proofs.«154423_j13048110645917_2_alg».proof.Proof.Gen.Kernel.Frame
import proofs.«154423_j13048110645917_2_alg».proof.Proof.Gen.KernelIdeal
import proofs.«154423_j13048110645917_2_alg».proof.Proof.Gen.KernelIdeal.Frame
import proofs.«154423_j13048110645917_2_alg».proof.Proof.Gen.KernelIdeal.Value
import proofs.«154423_j13048110645917_2_alg».proof.Proof.Gen.ReferenceIdeal
import proofs.«154423_j13048110645917_2_alg».proof.Proof.Gen.Pre_finite_inputs
import proofs.«154423_j13048110645917_2_alg».proof.Proof.RefRunR
import proofs.«154423_j13048110645917_2_alg».proof.Proof.RefReadP
import proofs.«154423_j13048110645917_2_alg».proof.Proof.RefRead
import proofs.«154423_j13048110645917_2_alg».proof.Proof.Algebra
import proofs.«154423_j13048110645917_2_alg».proof.Proof.KernelArray
import proofs.«154423_j13048110645917_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories agreeing on the three arguments, which the precondition makes arrays of real numbers, the kernel's result
    array ends at the selection form `G` of them and the reference's at the four-tap form `GR` of them, and the two forms
    agree on real arrays. -/
theorem algebraic : Cert.algebraic_KernelIdeal_ReferenceIdeal := by
  intro m ρ m' ρ' hpre hagree
  refine ⟨fun c => Cert.Sampling.G (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Array.kernel_final m c), (h c).2⟩)
      (Cert.KernelIdeal.Value.run_blocks (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Taps.ref_eq_GR, (hagree c).1, (hagree c).2.1, (hagree c).2.2]
    obtain ⟨hx, hl, hb⟩ := Cert.Finite.reals_of_pre _ _ _ (hpre c)
    exact Cert.Sampling.GR_eq_G _ _ _ hx hl hb

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
